-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x320000 : Shape := ⟨2, ![2, 320000]⟩
abbrev S10000x128 : Shape := ⟨2, ![10000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg6
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : IVec S2x320000 32) (main_arg1 : IVec S2x320000 32) (main_arg2 : FVec F S10000x128 .f32) (main_arg3 : FVec F S10000x128 .f32) (main_arg4 : FVec F S128x128 .f32) (main_arg5 : FVec F S128 .f32) (main_arg6 : FVec F S128x16 .f32) (main_arg7 : FVec F S16 .f32) : IVec S_ 1 :=
  let main_v0 : FVec F S10000x128 .f32 := Host.absf main_arg2
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg3
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S2x320000 : Shape := ⟨2, ![2, 320000]⟩
abbrev S10000x128 : Shape := ⟨2, ![10000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S320000 : Shape := ⟨1, ![320000]⟩
abbrev S1x320000 : Shape := ⟨2, ![1, 320000]⟩
abbrev S10000 : Shape := ⟨1, ![10000]⟩
abbrev S320000x1 : Shape := ⟨2, ![320000, 1]⟩
abbrev S1x10000 : Shape := ⟨2, ![1, 10000]⟩
abbrev S2x10000 : Shape := ⟨2, ![2, 10000]⟩
abbrev S2x10000x1 : Shape := ⟨3, ![2, 10000, 1]⟩
abbrev S1x10000x128 : Shape := ⟨3, ![1, 10000, 128]⟩
abbrev S2x10000x128 : Shape := ⟨3, ![2, 10000, 128]⟩
abbrev S1x1000x128 : Shape := ⟨3, ![1, 1000, 128]⟩
abbrev S1x1000x1 : Shape := ⟨3, ![1, 1000, 1]⟩
abbrev S1000x1 : Shape := ⟨2, ![1000, 1]⟩
abbrev S1000x128 : Shape := ⟨2, ![1000, 128]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩
abbrev S1x16 : Shape := ⟨2, ![1, 16]⟩
abbrev S8x128 : Shape := ⟨2, ![8, 128]⟩
abbrev S1000 : Shape := ⟨1, ![1000]⟩
abbrev S8x16 : Shape := ⟨2, ![8, 16]⟩
abbrev S1x1x16 : Shape := ⟨3, ![1, 1, 16]⟩
abbrev S1x1x1 : Shape := ⟨3, ![1, 1, 1]⟩

abbrev nBuf : Space → Nat
  | .hbm => 134
  | .vmem => 20
  | .smem => 0
  | _ => 0

abbrev hbmTy0_0 (i : Nat) : BufTy := match i % 128 with
  | 0 => ⟨S2x320000, .i32⟩
  | 1 => ⟨S2x320000, .i32⟩
  | 2 => ⟨S10000x128, .f32⟩
  | 3 => ⟨S10000x128, .f32⟩
  | 4 => ⟨S128x128, .f32⟩
  | 5 => ⟨S128, .f32⟩
  | 6 => ⟨S128x16, .f32⟩
  | 7 => ⟨S16, .f32⟩
  | 8 => ⟨S_, .f32⟩
  | 9 => ⟨S320000, .f32⟩
  | 10 => ⟨S1x320000, .i32⟩
  | 11 => ⟨S320000, .i32⟩
  | 12 => ⟨S_, .f32⟩
  | 13 => ⟨S10000, .f32⟩
  | 14 => ⟨S320000x1, .i32⟩
  | 15 => ⟨S10000, .f32⟩
  | 16 => ⟨S1x320000, .i32⟩
  | 17 => ⟨S320000, .i32⟩
  | 18 => ⟨S_, .f32⟩
  | 19 => ⟨S10000, .f32⟩
  | 20 => ⟨S320000x1, .i32⟩
  | 21 => ⟨S10000, .f32⟩
  | 22 => ⟨S1x10000, .f32⟩
  | 23 => ⟨S1x10000, .f32⟩
  | 24 => ⟨S2x10000, .f32⟩
  | 25 => ⟨S2x10000x1, .f32⟩
  | 26 => ⟨S1x320000, .i32⟩
  | 27 => ⟨S320000, .i32⟩
  | 28 => ⟨S_, .f32⟩
  | 29 => ⟨S10000, .f32⟩
  | 30 => ⟨S320000x1, .i32⟩
  | 31 => ⟨S10000, .f32⟩
  | 32 => ⟨S1x320000, .i32⟩
  | 33 => ⟨S320000, .i32⟩
  | 34 => ⟨S_, .f32⟩
  | 35 => ⟨S10000, .f32⟩
  | 36 => ⟨S320000x1, .i32⟩
  | 37 => ⟨S10000, .f32⟩
  | 38 => ⟨S1x10000, .f32⟩
  | 39 => ⟨S1x10000, .f32⟩
  | 40 => ⟨S2x10000, .f32⟩
  | 41 => ⟨S2x10000x1, .f32⟩
  | 42 => ⟨S1x10000x128, .f32⟩
  | 43 => ⟨S1x10000x128, .f32⟩
  | 44 => ⟨S2x10000x128, .f32⟩
  | 45 => ⟨S2x10000x128, .f32⟩
  | 46 => ⟨S2x10000x1, .f32⟩
  | 47 => ⟨S_, .f32⟩
  | 48 => ⟨S10000x128, .f32⟩
  | 49 => ⟨S1x320000, .i32⟩
  | 50 => ⟨S320000, .i32⟩
  | 51 => ⟨S1x10000x128, .f32⟩
  | 52 => ⟨S10000x128, .f32⟩
  | 53 => ⟨S1x320000, .i32⟩
  | 54 => ⟨S320000, .i32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S1, .i32⟩
  | 64 => ⟨S_, .i32⟩
  | 65 => ⟨S320000x1, .i32⟩
  | 66 => ⟨S320000x1, .i1⟩
  | 67 => ⟨S1x1, .i32⟩
  | 68 => ⟨S320000x1, .i32⟩
  | 69 => ⟨S320000x1, .i1⟩
  | 70 => ⟨S320000x1, .i1⟩
  | 71 => ⟨S_, .i1⟩
  | 72 => ⟨S320000, .i1⟩
  | 73 => ⟨S320000x128, .f32⟩
  | 74 => ⟨S320000x128, .i1⟩
  | 75 => ⟨S_, .f32⟩
  | 76 => ⟨S320000x128, .f32⟩
  | 77 => ⟨S320000x128, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S10000x128, .f32⟩
  | 87 => ⟨S1x320000, .i32⟩
  | 88 => ⟨S320000, .i32⟩
  | 89 => ⟨S1x10000x128, .f32⟩
  | 90 => ⟨S10000x128, .f32⟩
  | 91 => ⟨S1x320000, .i32⟩
  | 92 => ⟨S320000, .i32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S1, .i32⟩
  | 102 => ⟨S_, .i32⟩
  | 103 => ⟨S320000x1, .i32⟩
  | 104 => ⟨S320000x1, .i1⟩
  | 105 => ⟨S1x1, .i32⟩
  | 106 => ⟨S320000x1, .i32⟩
  | 107 => ⟨S320000x1, .i1⟩
  | 108 => ⟨S320000x1, .i1⟩
  | 109 => ⟨S_, .i1⟩
  | 110 => ⟨S320000, .i1⟩
  | 111 => ⟨S320000x128, .f32⟩
  | 112 => ⟨S320000x128, .i1⟩
  | 113 => ⟨S_, .f32⟩
  | 114 => ⟨S320000x128, .f32⟩
  | 115 => ⟨S320000x128, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S10000x128, .f32⟩
  | 125 => ⟨S1x10000x128, .f32⟩
  | 126 => ⟨S1x10000x128, .f32⟩
  | 127 => ⟨S2x10000x128, .f32⟩
  | _ => ⟨S2x320000, .i32⟩

abbrev hbmTy0_1 (i : Nat) : BufTy := match i % 128 with
  | 0 => ⟨S1x128, .f32⟩
  | 1 => ⟨S1x16, .f32⟩
  | 2 => ⟨S8x128, .f32⟩
  | 3 => ⟨S1x1, .f32⟩
  | 4 => ⟨S_, .f32⟩
  | 5 => ⟨S1, .f32⟩
  | _ => ⟨S2x320000, .i32⟩

abbrev hbmTy (i : Nat) : BufTy := match i / 128 with
  | 0 => hbmTy0_0 i
  | 1 => hbmTy0_1 i
  | _ => ⟨S2x320000, .i32⟩

abbrev bufTy : (tb : Table) → Fin (tcTables nBuf tb) → BufTy
  | .hbm, ⟨i, _⟩ => hbmTy i
  | .local _ .vmem, ⟨0, _⟩ => ⟨S1x1000x128, .f32⟩
  | .local _ .vmem, ⟨1, _⟩ => ⟨S1x1000x128, .f32⟩
  | .local _ .vmem, ⟨2, _⟩ => ⟨S1x1000x1, .f32⟩
  | .local _ .vmem, ⟨3, _⟩ => ⟨S1x1000x1, .f32⟩
  | .local _ .vmem, ⟨4, _⟩ => ⟨S1x1000x1, .f32⟩
  | .local _ .vmem, ⟨5, _⟩ => ⟨S1x1000x1, .f32⟩
  | .local _ .vmem, ⟨6, _⟩ => ⟨S1x1000x128, .f32⟩
  | .local _ .vmem, ⟨7, _⟩ => ⟨S1x1000x128, .f32⟩
  | .local _ .vmem, ⟨8, _⟩ => ⟨S1x1000x1, .f32⟩
  | .local _ .vmem, ⟨9, _⟩ => ⟨S1x1000x1, .f32⟩
  | .local _ .vmem, ⟨10, _⟩ => ⟨S1x1000x128, .f32⟩
  | .local _ .vmem, ⟨11, _⟩ => ⟨S1x1000x128, .f32⟩
  | .local _ .vmem, ⟨12, _⟩ => ⟨S1x1000x1, .f32⟩
  | .local _ .vmem, ⟨13, _⟩ => ⟨S1x1000x1, .f32⟩
  | .local _ .vmem, ⟨14, _⟩ => ⟨S128x128, .f32⟩
  | .local _ .vmem, ⟨15, _⟩ => ⟨S1x128, .f32⟩
  | .local _ .vmem, ⟨16, _⟩ => ⟨S128x16, .f32⟩
  | .local _ .vmem, ⟨17, _⟩ => ⟨S1x16, .f32⟩
  | .local _ .vmem, ⟨18, _⟩ => ⟨S8x128, .f32⟩
  | .local _ .vmem, ⟨19, _⟩ => ⟨S8x128, .f32⟩
  | _, _ => ⟨S2x320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_call0_cst : Ref sig .tc := ⟨.hbm, 75, rfl⟩
abbrev main_call0_v15 : Ref sig .tc := ⟨.hbm, 76, rfl⟩
abbrev main_v40 : Ref sig .tc := ⟨.hbm, 77, rfl⟩
abbrev main_c : Ref sig .tc := ⟨.hbm, 78, rfl⟩
abbrev main_v41 : Ref sig .tc := ⟨.hbm, 79, rfl⟩
abbrev main_v42 : Ref sig .tc := ⟨.hbm, 80, rfl⟩
abbrev main_c_5 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v54 : Ref sig .tc := ⟨.hbm, 115, rfl⟩
abbrev main_c_6 : Ref sig .tc := ⟨.hbm, 116, rfl⟩
abbrev main_v55 : Ref sig .tc := ⟨.hbm, 117, rfl⟩
abbrev main_v56 : Ref sig .tc := ⟨.hbm, 118, rfl⟩
abbrev main_c_7 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 10], ![false, false]⟩

def k1_cond2 (i : grid1.Coords) : BitVec 1 :=
  let arg0 : BitVec 32 := BitVec.ofNat 32 (i 0).val
  let c1_i32 : BitVec 32 := 1#32
  let v42 : BitVec 1 := Scalar.cmpi .eq arg0 c1_i32
  let arg1 : BitVec 32 := BitVec.ofNat 32 (i 1).val
  let c9_i32 : BitVec 32 := 9#32
  let v43 : BitVec 1 := Scalar.cmpi .eq arg1 c9_i32
  let v44 : BitVec 1 := Scalar.andi v42 v43
  let v45 : BitVec 32 := Scalar.extui v44
  let c0_i32_20 : BitVec 32 := 0#32
  let v46 : BitVec 1 := Scalar.cmpi .ne v45 c0_i32_20
  v46

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

class Facts₀ : Prop where
  bcast_S_S320000 : S_.BroadcastsInDim S320000 (![] : Fin 0 → Fin S320000.rank)
  slices_S2x320000_S1x320000_0_0 : S2x320000.Slices ![0, 0] S1x320000
  shapeCasts_S1x320000_S320000 : S1x320000.ShapeCasts S320000
  bcast_S_S10000 : S_.BroadcastsInDim S10000 (![] : Fin 0 → Fin S10000.rank)
  bcast_S320000_S320000x1_0 : S320000.BroadcastsInDim S320000x1 (![0] : Fin 1 → Fin S320000x1.rank)
  bcast_S10000_S1x10000_1 : S10000.BroadcastsInDim S1x10000 (![1] : Fin 1 → Fin S1x10000.rank)
  concatenates_S1x10000_S1x10000_S2x10000_d0 : Shape.Concatenates [S1x10000, S1x10000] S2x10000 0
  bcast_S2x10000_S2x10000x1_0_1 : S2x10000.BroadcastsInDim S2x10000x1 (![0, 1] : Fin 2 → Fin S2x10000x1.rank)
  slices_S2x320000_S1x320000_1_0 : S2x320000.Slices ![1, 0] S1x320000
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  broadcasts_S1000x1_S1000x128 : S1000x1.Broadcasts S1000x128
  shapeCasts_S1000x128_S1x1000x128 : S1000x128.ShapeCasts S1x1000x128
  shapeCasts_S1000x1_S1x1000x1 : S1000x1.ShapeCasts S1x1000x1
  bcast_S_S10000x128 : S_.BroadcastsInDim S10000x128 (![] : Fin 0 → Fin S10000x128.rank)
  slices_S2x10000x128_S1x10000x128_0_0_0 : S2x10000x128.Slices ![0, 0, 0] S1x10000x128
  shapeCasts_S1x10000x128_S10000x128 : S1x10000x128.ShapeCasts S10000x128
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S2x10000x128_S1x10000x128_1_0_0 : S2x10000x128.Slices ![1, 0, 0] S1x10000x128
  shapeCasts_S128_S1x128 : S128.ShapeCasts S1x128
  shapeCasts_S16_S1x16 : S16.ShapeCasts S1x16
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  reduces_S1000x128_S128 : S1000x128.Reduces [0] S128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S8x128_d0_w32 : S8x128.Iotas .tc 32 [0]
  broadcasts_S1x128_S8x128 : S1x128.Broadcasts S8x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8x16 : S1x16.Broadcasts S8x16
  slices_S8x16_o0_0_S1x16 : S8x16.Slices ![0, 0] S1x16
  slices_S8x16_o1_0_S1x16 : S8x16.Slices ![1, 0] S1x16
  shapeCasts_S1x16_S1x1x16 : S1x16.ShapeCasts S1x1x16
  reduces_S1x1x16_S1 : S1x1x16.Reduces [1, 2] S1
  shapeCasts_S1_S1x1x1 : S1.ShapeCasts S1x1x1
  inpos_S1x1x1_p0_0_0 : ∀ a, (![0, 0, 0] : Fin 3 → Nat) a < S1x1x1.size a
  slices_S8x128_S1x1_0_0 : S8x128.Slices ![0, 0] S1x1
  shapeCasts_S1x1_S_ : S1x1.ShapeCasts S_
  shapeCasts_S_S1 : S_.ShapeCasts S1
  scatter_S10000_S320000x1_S320000_n_0_0_1_wf : ScatterDims.WF S10000 S320000x1 S320000 [] [0] [0] 1
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S1000x128_S128x128_S1000x128_1_0_0_1_n_n_wf : DotDims.WF S1000x128 S128x128 S1000x128 [1] [0] [0] [1] [] []
  dot_S8x128_S128x16_S8x16_1_0_0_1_n_n_wf : DotDims.WF S8x128 S128x16 S8x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x128.size a ≤ S2x10000x128.size a
  hwx0_0 : ∀ i : grid0.Coords, EltTy.bits .f32 = 32 ∨ (Rect.block (s := S2x10000x128) S1x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x1.size a ≤ S2x10000x1.size a
  hwx0_1 : ∀ i : grid0.Coords, EltTy.bits .f32 = 32 ∨ (Rect.block (s := S2x10000x1) S1x1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x1.size a ≤ S2x10000x1.size a
  hwx0_2 : ∀ i : grid0.Coords, EltTy.bits .f32 = 32 ∨ (Rect.block (s := S2x10000x1) S1x1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x128.size a ≤ S2x10000x128.size a
  hwx0_3 : ∀ i : grid0.Coords, EltTy.bits .f32 = 32 ∨ (Rect.block (s := S2x10000x128) S1x1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1000x1.size a ≤ S2x10000x1.size a
  hwx0_4 : ∀ i : grid0.Coords, EltTy.bits .f32 = 32 ∨ (Rect.block (s := S2x10000x1) S1x1000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x128.size a ≤ S2x10000x128.size a
  hwx1_0 : ∀ i : grid1.Coords, EltTy.bits .f32 = 32 ∨ (Rect.block (s := S2x10000x128) S1x1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x1.size a ≤ S2x10000x1.size a
  hwx1_1 : ∀ i : grid1.Coords, EltTy.bits .f32 = 32 ∨ (Rect.block (s := S2x10000x1) S1x1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S8x128_S128x16_S8x16_1_0_0_1_n_n : DotDims S8x128 S128x16 S8x16 where
  lhsContracting := [1]
  rhsContracting := [0]
  lhsNonContracting := [0]
  rhsNonContracting := [1]
  lhsBatch := []
  rhsBatch := []
  wf := dot_S8x128_S128x16_S8x16_1_0_0_1_n_n_wf

abbrev win0_0 : Pipeline.Window sig grid0 :=
  Pipeline.Window.ofSpec (Memref.whole main_v31) S1x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S1x1000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S1x1000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v64) S1x1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_1) S1x1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S8x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2x320000 : Shape := ⟨2, ![2, 320000]⟩
abbrev S10000x128 : Shape := ⟨2, ![10000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩
abbrev S1x16 : Shape := ⟨2, ![1, 16]⟩

abbrev nBuf : Space → Nat
  | .hbm => 236
  | .vmem => 0
  | .smem => 0
  | _ => 0

abbrev hbmTy0_0 (i : Nat) : BufTy := match i % 128 with
  | 0 => ⟨S2x320000, .i32⟩
  | 1 => ⟨S2x320000, .i32⟩
  | 2 => ⟨S10000x128, .f32⟩
  | 3 => ⟨S10000x128, .f32⟩
  | 4 => ⟨S128x128, .f32⟩
  | 5 => ⟨S128, .f32⟩
  | 6 => ⟨S128x16, .f32⟩
  | 7 => ⟨S16, .f32⟩
  | 8 => ⟨S1x320000, .i32⟩
  | 9 => ⟨S320000, .i32⟩
  | 10 => ⟨S1x320000, .i32⟩
  | 11 => ⟨S320000, .i32⟩
  | 12 => ⟨S_, .f32⟩
  | 13 => ⟨S320000, .f32⟩
  | 14 => ⟨S_, .f32⟩
  | 15 => ⟨S10000, .f32⟩
  | 16 => ⟨S320000x1, .i32⟩
  | 17 => ⟨S10000, .f32⟩
  | 18 => ⟨S_, .f32⟩
  | 19 => ⟨S10000, .f32⟩
  | 20 => ⟨S320000x1, .i32⟩
  | 21 => ⟨S10000, .f32⟩
  | 22 => ⟨S_, .f32⟩
  | 23 => ⟨S10000, .f32⟩
  | 24 => ⟨S10000, .i1⟩
  | 25 => ⟨S_, .f32⟩
  | 26 => ⟨S10000, .f32⟩
  | 27 => ⟨S10000, .f32⟩
  | 28 => ⟨S10000, .f32⟩
  | 29 => ⟨S_, .f32⟩
  | 30 => ⟨S_, .f32⟩
  | 31 => ⟨S10000, .f32⟩
  | 32 => ⟨S10000, .f32⟩
  | 33 => ⟨S_, .f32⟩
  | 34 => ⟨S10000, .f32⟩
  | 35 => ⟨S10000, .i1⟩
  | 36 => ⟨S_, .f32⟩
  | 37 => ⟨S10000, .f32⟩
  | 38 => ⟨S10000, .f32⟩
  | 39 => ⟨S10000, .f32⟩
  | 40 => ⟨S_, .f32⟩
  | 41 => ⟨S_, .f32⟩
  | 42 => ⟨S10000, .f32⟩
  | 43 => ⟨S10000, .f32⟩
  | 44 => ⟨S10000x1, .f32⟩
  | 45 => ⟨S10000x128, .f32⟩
  | 46 => ⟨S10000x128, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S1, .i32⟩
  | 56 => ⟨S_, .i32⟩
  | 57 => ⟨S320000x1, .i32⟩
  | 58 => ⟨S320000x1, .i1⟩
  | 59 => ⟨S1x1, .i32⟩
  | 60 => ⟨S320000x1, .i32⟩
  | 61 => ⟨S320000x1, .i1⟩
  | 62 => ⟨S320000x1, .i1⟩
  | 63 => ⟨S_, .i1⟩
  | 64 => ⟨S320000, .i1⟩
  | 65 => ⟨S320000x128, .f32⟩
  | 66 => ⟨S320000x128, .i1⟩
  | 67 => ⟨S_, .f32⟩
  | 68 => ⟨S320000x128, .f32⟩
  | 69 => ⟨S320000x128, .f32⟩
  | 70 => ⟨S_, .f32⟩
  | 71 => ⟨S10000x128, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S10000x128, .f32⟩
  | 81 => ⟨S10000x1, .f32⟩
  | 82 => ⟨S10000x128, .f32⟩
  | 83 => ⟨S10000x128, .f32⟩
  | 84 => ⟨S10000x128, .f32⟩
  | 85 => ⟨S1x128, .f32⟩
  | 86 => ⟨S10000x128, .f32⟩
  | 87 => ⟨S10000x128, .f32⟩
  | 88 => ⟨S10000x128, .f32⟩
  | 89 => ⟨S_, .f32⟩
  | 90 => ⟨S10000, .f32⟩
  | 91 => ⟨S10000x1, .f32⟩
  | 92 => ⟨S10000x1, .f32⟩
  | 93 => ⟨S_, .f32⟩
  | 94 => ⟨S10000x1, .f32⟩
  | 95 => ⟨S10000x1, .f32⟩
  | 96 => ⟨S10000x128, .f32⟩
  | 97 => ⟨S10000x128, .f32⟩
  | 98 => ⟨S10000x128, .f32⟩
  | 99 => ⟨S10000x128, .f32⟩
  | 100 => ⟨S_, .f32⟩
  | 101 => ⟨S10000x128, .f32⟩
  | 102 => ⟨S10000x128, .f32⟩
  | 103 => ⟨S_, .f32⟩
  | 104 => ⟨S10000x128, .f32⟩
  | 105 => ⟨S10000x128, .f32⟩
  | 106 => ⟨S_, .f32⟩
  | 107 => ⟨S10000x128, .f32⟩
  | 108 => ⟨S10000x128, .f32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S1x16, .f32⟩
  | 116 => ⟨S1x16, .f32⟩
  | 117 => ⟨S1x16, .f32⟩
  | 118 => ⟨S1x320000, .i32⟩
  | 119 => ⟨S320000, .i32⟩
  | 120 => ⟨S1x320000, .i32⟩
  | 121 => ⟨S320000, .i32⟩
  | 122 => ⟨S_, .f32⟩
  | 123 => ⟨S320000, .f32⟩
  | 124 => ⟨S_, .f32⟩
  | 125 => ⟨S10000, .f32⟩
  | 126 => ⟨S320000x1, .i32⟩
  | 127 => ⟨S10000, .f32⟩
  | _ => ⟨S2x320000, .i32⟩

abbrev hbmTy0_1 (i : Nat) : BufTy := match i % 128 with
  | 0 => ⟨S_, .f32⟩
  | 1 => ⟨S10000, .f32⟩
  | 2 => ⟨S320000x1, .i32⟩
  | 3 => ⟨S10000, .f32⟩
  | 4 => ⟨S_, .f32⟩
  | 5 => ⟨S10000, .f32⟩
  | 6 => ⟨S10000, .i1⟩
  | 7 => ⟨S_, .f32⟩
  | 8 => ⟨S10000, .f32⟩
  | 9 => ⟨S10000, .f32⟩
  | 10 => ⟨S10000, .f32⟩
  | 11 => ⟨S_, .f32⟩
  | 12 => ⟨S_, .f32⟩
  | 13 => ⟨S10000, .f32⟩
  | 14 => ⟨S10000, .f32⟩
  | 15 => ⟨S_, .f32⟩
  | 16 => ⟨S10000, .f32⟩
  | 17 => ⟨S10000, .i1⟩
  | 18 => ⟨S_, .f32⟩
  | 19 => ⟨S10000, .f32⟩
  | 20 => ⟨S10000, .f32⟩
  | 21 => ⟨S10000, .f32⟩
  | 22 => ⟨S_, .f32⟩
  | 23 => ⟨S_, .f32⟩
  | 24 => ⟨S10000, .f32⟩
  | 25 => ⟨S10000, .f32⟩
  | 26 => ⟨S10000x1, .f32⟩
  | 27 => ⟨S10000x128, .f32⟩
  | 28 => ⟨S10000x128, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S1, .i32⟩
  | 38 => ⟨S_, .i32⟩
  | 39 => ⟨S320000x1, .i32⟩
  | 40 => ⟨S320000x1, .i1⟩
  | 41 => ⟨S1x1, .i32⟩
  | 42 => ⟨S320000x1, .i32⟩
  | 43 => ⟨S320000x1, .i1⟩
  | 44 => ⟨S320000x1, .i1⟩
  | 45 => ⟨S_, .i1⟩
  | 46 => ⟨S320000, .i1⟩
  | 47 => ⟨S320000x128, .f32⟩
  | 48 => ⟨S320000x128, .i1⟩
  | 49 => ⟨S_, .f32⟩
  | 50 => ⟨S320000x128, .f32⟩
  | 51 => ⟨S320000x128, .f32⟩
  | 52 => ⟨S_, .f32⟩
  | 53 => ⟨S10000x128, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S10000x128, .f32⟩
  | 63 => ⟨S10000x1, .f32⟩
  | 64 => ⟨S10000x128, .f32⟩
  | 65 => ⟨S10000x128, .f32⟩
  | 66 => ⟨S10000x128, .f32⟩
  | 67 => ⟨S1x128, .f32⟩
  | 68 => ⟨S10000x128, .f32⟩
  | 69 => ⟨S10000x128, .f32⟩
  | 70 => ⟨S10000x128, .f32⟩
  | 71 => ⟨S_, .f32⟩
  | 72 => ⟨S10000, .f32⟩
  | 73 => ⟨S10000x1, .f32⟩
  | 74 => ⟨S10000x1, .f32⟩
  | 75 => ⟨S_, .f32⟩
  | 76 => ⟨S10000x1, .f32⟩
  | 77 => ⟨S10000x1, .f32⟩
  | 78 => ⟨S10000x128, .f32⟩
  | 79 => ⟨S10000x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S_, .f32⟩
  | 86 => ⟨S10000x128, .f32⟩
  | 87 => ⟨S10000x128, .f32⟩
  | 88 => ⟨S_, .f32⟩
  | 89 => ⟨S10000x128, .f32⟩
  | 90 => ⟨S10000x128, .f32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S1x16, .f32⟩
  | 98 => ⟨S1x16, .f32⟩
  | 99 => ⟨S1x16, .f32⟩
  | 100 => ⟨S1x16, .f32⟩
  | 101 => ⟨S_, .f32⟩
  | 102 => ⟨S1x16, .f32⟩
  | 103 => ⟨S1x16, .f32⟩
  | 104 => ⟨S1x16, .f32⟩
  | 105 => ⟨S_, .f32⟩
  | 106 => ⟨S1, .f32⟩
  | 107 => ⟨S1, .f32⟩
  | _ => ⟨S2x320000, .i32⟩

abbrev hbmTy (i : Nat) : BufTy := match i / 128 with
  | 0 => hbmTy0_0 i
  | 1 => hbmTy0_1 i
  | _ => ⟨S2x320000, .i32⟩

abbrev bufTy : (tb : Table) → Fin (tcTables nBuf tb) → BufTy
  | .hbm, ⟨i, _⟩ => hbmTy i
  | _, _ => ⟨S2x320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v26 : Ref sig .tc := ⟨.hbm, 69, rfl⟩
abbrev main_cst_8 : Ref sig .tc := ⟨.hbm, 70, rfl⟩
abbrev main_v27 : Ref sig .tc := ⟨.hbm, 71, rfl⟩
abbrev main_c : Ref sig .tc := ⟨.hbm, 72, rfl⟩
abbrev main_v28 : Ref sig .tc := ⟨.hbm, 73, rfl⟩
abbrev main_v29 : Ref sig .tc := ⟨.hbm, 74, rfl⟩
abbrev main_c_9 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_10 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_11 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_12 : Ref sig .tc := ⟨.hbm, 100, rfl⟩
abbrev main_v52 : Ref sig .tc := ⟨.hbm, 101, rfl⟩
abbrev main_v53 : Ref sig .tc := ⟨.hbm, 102, rfl⟩
abbrev main_cst_13 : Ref sig .tc := ⟨.hbm, 103, rfl⟩
abbrev main_v54 : Ref sig .tc := ⟨.hbm, 104, rfl⟩
abbrev main_v55 : Ref sig .tc := ⟨.hbm, 105, rfl⟩
abbrev main_call3_cst : Ref sig .tc := ⟨.hbm, 106, rfl⟩
abbrev main_call3_v0 : Ref sig .tc := ⟨.hbm, 107, rfl⟩
abbrev main_v56 : Ref sig .tc := ⟨.hbm, 108, rfl⟩
abbrev main_cst_14 : Ref sig .tc := ⟨.hbm, 109, rfl⟩
abbrev main_v57 : Ref sig .tc := ⟨.hbm, 110, rfl⟩
abbrev main_v58 : Ref sig .tc := ⟨.hbm, 111, rfl⟩
abbrev main_cst_15 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_16 : Ref sig .tc := ⟨.hbm, 122, rfl⟩
abbrev main_v68 : Ref sig .tc := ⟨.hbm, 123, rfl⟩
abbrev main_cst_17 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_18 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_19 : Ref sig .tc := ⟨.hbm, 132, rfl⟩
abbrev main_v75 : Ref sig .tc := ⟨.hbm, 133, rfl⟩
abbrev main_v76 : Ref sig .tc := ⟨.hbm, 134, rfl⟩
abbrev main_cst_20 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_cst_21 : Ref sig .tc := ⟨.hbm, 139, rfl⟩
abbrev main_call4_v0 : Ref sig .tc := ⟨.hbm, 140, rfl⟩
abbrev main_call4_v1 : Ref sig .tc := ⟨.hbm, 141, rfl⟩
abbrev main_v80 : Ref sig .tc := ⟨.hbm, 142, rfl⟩
abbrev main_cst_22 : Ref sig .tc := ⟨.hbm, 143, rfl⟩
abbrev main_v81 : Ref sig .tc := ⟨.hbm, 144, rfl⟩
abbrev main_v82 : Ref sig .tc := ⟨.hbm, 145, rfl⟩
abbrev main_cst_23 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_cst_24 : Ref sig .tc := ⟨.hbm, 150, rfl⟩
abbrev main_call5_v0 : Ref sig .tc := ⟨.hbm, 151, rfl⟩
abbrev main_call5_v1 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_v14 : Ref sig .tc := ⟨.hbm, 176, rfl⟩
abbrev main_call6_cst : Ref sig .tc := ⟨.hbm, 177, rfl⟩
abbrev main_call6_v15 : Ref sig .tc := ⟨.hbm, 178, rfl⟩
abbrev main_v90 : Ref sig .tc := ⟨.hbm, 179, rfl⟩
abbrev main_cst_25 : Ref sig .tc := ⟨.hbm, 180, rfl⟩
abbrev main_v91 : Ref sig .tc := ⟨.hbm, 181, rfl⟩
abbrev main_c_26 : Ref sig .tc := ⟨.hbm, 182, rfl⟩
abbrev main_v92 : Ref sig .tc := ⟨.hbm, 183, rfl⟩
abbrev main_v93 : Ref sig .tc := ⟨.hbm, 184, rfl⟩
abbrev main_c_27 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_28 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_cst_29 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_cst_30 : Ref sig .tc := ⟨.hbm, 210, rfl⟩
abbrev main_v116 : Ref sig .tc := ⟨.hbm, 211, rfl⟩
abbrev main_v117 : Ref sig .tc := ⟨.hbm, 212, rfl⟩
abbrev main_cst_31 : Ref sig .tc := ⟨.hbm, 213, rfl⟩
abbrev main_v118 : Ref sig .tc := ⟨.hbm, 214, rfl⟩
abbrev main_v119 : Ref sig .tc := ⟨.hbm, 215, rfl⟩
abbrev main_call7_cst : Ref sig .tc := ⟨.hbm, 216, rfl⟩
abbrev main_call7_v0 : Ref sig .tc := ⟨.hbm, 217, rfl⟩
abbrev main_v120 : Ref sig .tc := ⟨.hbm, 218, rfl⟩
abbrev main_cst_32 : Ref sig .tc := ⟨.hbm, 219, rfl⟩
abbrev main_v121 : Ref sig .tc := ⟨.hbm, 220, rfl⟩
abbrev main_v122 : Ref sig .tc := ⟨.hbm, 221, rfl⟩
abbrev main_cst_33 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_cst_34 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_cst_35 : Ref sig .tc := ⟨.hbm, 233, rfl⟩
abbrev main_v132 : Ref sig .tc := ⟨.hbm, 234, rfl⟩
abbrev main_v133 : Ref sig .tc := ⟨.hbm, 235, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  bcast_S_S10000x1 : S_.BroadcastsInDim S10000x1 (![] : Fin 0 → Fin S10000x1.rank)
  reducesTo_S10000x128_S128_d0 : S10000x128.ReducesTo [0] S128
  bcast_S_S1x128 : S_.BroadcastsInDim S1x128 (![] : Fin 0 → Fin S1x128.rank)
  bcast_S16_S1x16_1 : S16.BroadcastsInDim S1x16 (![1] : Fin 1 → Fin S1x16.rank)
  bcast_S_S1x16 : S_.BroadcastsInDim S1x16 (![] : Fin 0 → Fin S1x16.rank)
  reducesTo_S1x16_S1_d1 : S1x16.ReducesTo [1] S1
  scatter_S10000_S320000x1_S320000_n_0_0_1_wf : ScatterDims.WF S10000 S320000x1 S320000 [] [0] [0] 1
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []
  dot_S1x128_S128x16_S1x16_1_0_0_1_n_n_wf : DotDims.WF S1x128 S128x16 S1x16 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.K.Region0.lean ====
import proofs.«157275_g83597243449447_cont_9to1_m_596_53_alg».proof.Proof.Gen.Kernel.Launch
import proofs.«157275_g83597243449447_cont_9to1_m_596_53_alg».proof.Proof.Gen.Kernel.Skeleton
import proofs.«157275_g83597243449447_cont_9to1_m_596_53_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first TensorCore call: its pipeline's proof data and the body obligation

The first call scales each node's feature row by a degree normaliser.  Its grid has 2 x 10 = 20 points;
at each point the pipeline brings in one 1000-row block of the features (window 0) and the matching
1000 x 1 blocks of the two degree columns (windows 1 and 2), runs the body, and sends back one 1000-row
block of scaled features (window 3) and one 1000 x 1 block of the second normaliser (window 4).

The body reads its three input blocks whole and overwrites its two output blocks whole, so what an
output buffer holds afterwards is a function of the input blocks alone: whatever the buffer held before
is read once and discarded.  Everything here is stated at a parameter `V`, the TensorCore's buffer
contents at the moment the call is entered.
-/

-- deciding that one whole-block rectangle tiles a 1 x 1000 x 128 buffer walks the long axes coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the call is entered
variable (V : (c : Dev nD) → (b : Ref sig .tc) → Buf (Elt F) ((c : Thread nD τ).loc b))

/-! ## The blocks the windows see -/

/-- The block of window `w` at grid point `t`: the sub-array of the window's array, as `V` has it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is brought in afresh at every point and the body does not write to it, so its current
    buffer holds its block when the body starts.  Stated for any proof data with `V`'s array (`hA`) whose body
    leaves the block where it is (`hafter`).  Window 0: the features. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1, the first degree column. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for window 2, the second degree column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two rectangles the body touches: each is a whole buffer -/

/-- All of a 1 x 1000 x 1 buffer. -/
abbrev r0_0 : Rect S1x1000x1 := Rect.unit (s := S1x1000x1) ![0, 0, 0] S1x1000x1.size inb_S1x1000x1_S1x1000x1_0_0_0
/-- All of a 1 x 1000 x 128 buffer. -/
abbrev r0_1 : Rect S1x1000x128 := Rect.unit (s := S1x1000x128) ![0, 0, 0] S1x1000x128.size inb_S1x1000x128_S1x1000x128_0_0_0

/-! ## What the body leaves in the output buffers -/

/-- Window 3's buffer after the body: the one whole-buffer store of the scaled features, computed from the
    feature block `x0` and the first degree column's block `x1`. -/
def out0_3 (x0 : Vec F S1x1000x128 .f32) (x1 : Vec F S1x1000x1 .f32) : Vec F S1x1000x128 .f32 :=
  View.canon [⟨r0_1, k0_pay1 (View.ld x1 r0_0) (View.ld x0 r0_1)⟩]

/-- One whole-buffer piece covers the buffer. -/
theorem cover0_3 (p0 : Vec F S1x1000x128 .f32) (y : S1x1000x128.Idx) :
    ∃ pc ∈ ([⟨r0_1, p0⟩] : List (View.Piece (Elt F) S1x1000x128 .f32)), y ∈ pc.1.set :=
  View.cover_of_tiled [⟨r0_1, p0⟩] S1x1000x128.size (by rfl) y

/-- Window 4's buffer after the body: the one whole-buffer store of the second normaliser, computed from the
    second degree column's block `x2`. -/
def out0_4 (x2 : Vec F S1x1000x1 .f32) : Vec F S1x1000x1 .f32 :=
  View.canon [⟨r0_0, k0_pay2 (View.ld x2 r0_0)⟩]

/-- One whole-buffer piece covers the buffer. -/
theorem cover0_4 (p0 : Vec F S1x1000x1 .f32) (y : S1x1000x1.Idx) :
    ∃ pc ∈ ([⟨r0_0, p0⟩] : List (View.Piece (Elt F) S1x1000x1 .f32)), y ∈ pc.1.set :=
  View.cover_of_tiled [⟨r0_0, p0⟩] S1x1000x1.size (by rfl) y

/-! ## The body's triple -/

set_option maxHeartbeats 1000000 in
/-- The body run on five whole buffers.  Given the three input buffers at contents `x0`, `x1`, `x2` and the two
    output buffers at anything, it ends with the inputs unchanged and the outputs at `out0_3 x0 x1` and `out0_4 x2`.
    The body reads each output buffer once before overwriting it whole; that read has no effect on what is left.
    The grid coordinates are passed to the body but never used. -/
theorem sound_kernel0 (c : Dev nD) (E : Set ℕ) (i : grid0.Coords)
    (arg2 : Memref sig .tc .vmem S1x1000x128 .f32) (harg2 : arg2.IsWhole) (arg3 : Memref sig .tc .vmem S1x1000x1 .f32) (harg3 : arg3.IsWhole)
    (arg4 : Memref sig .tc .vmem S1x1000x1 .f32) (harg4 : arg4.IsWhole) (arg5 : Memref sig .tc .vmem S1x1000x128 .f32) (harg5 : arg5.IsWhole)
    (arg6 : Memref sig .tc .vmem S1x1000x1 .f32) (harg6 : arg6.IsWhole)
    (x0 : Vec F S1x1000x128 .f32) (x1 : Vec F S1x1000x1 .f32) (x2 : Vec F S1x1000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1) ∗ owns (c : Thread nD τ) arg6 fullShare (out0_4 x2)) -∗ K ⟨⟩))
      ⊢ wp frame (wpE (defs₀ (F := F)) Variants.none c none) E (cc0__pro_body i arg2 harg2 arg3 harg3 arg4 harg4 arg5 harg5 arg6 harg6) K := by
  simp only [cc0__pro_body_eq_skeleton]; unfold cc0__pro_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the first call's pipeline on core `c`.  The arrays are `V`'s.  After the body at point `t`
    an input window's buffer still holds its block, window 3's holds the scaled features of that point's blocks and
    window 4's the second normaliser of its block.  The invariant carried between points is the standard one for a
    body that only reads and writes its own buffers; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 2 t)
  Φ _ := Pipeline.ΦA spec0 c
  q _ := fullShare
  owed _ := 0

/-- The proof data's arrays are `V`'s (a projection of the definition; `V` itself is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 2 t) := by dsimp only [dat0]

/-- Each input window's current buffer holds its block when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is given at point `t`: the invariant, the owed part, and the five current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point.  The input buffers hold their blocks, so the body's triple applies with those blocks as
    `x0`, `x1`, `x2`; the invariant and the owed part are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
import proofs.«157275_g83597243449447_cont_9to1_m_596_53_alg».proof.Proof.Gen.Kernel.Launch
import proofs.«157275_g83597243449447_cont_9to1_m_596_53_alg».proof.Proof.Gen.Kernel.Skeleton
import proofs.«157275_g83597243449447_cont_9to1_m_596_53_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call as a pipeline region, at the contents `V` the TensorCore's buffers have on entry

What the three control cases of its body share: the windows' blocks, the inputs' buffers before the body, the two
branch conditions in closed form over the linear grid position, where the output window is idle, and the region
invariant with the accumulator buffer made explicit. -/

/-! ## The windows' blocks -/

/-- Window `w`'s block at grid position `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the entry contents at every point,
    whether or not the pipeline fetched it there: where it was not fetched the block index has not moved, and the
    body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the entry contents at every point,
    whether or not the pipeline fetched it there: where it was not fetched the block index has not moved, and the
    body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the entry contents at every point,
    whether or not the pipeline fetched it there: where it was not fetched the block index has not moved, and the
    body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the entry contents at every point,
    whether or not the pipeline fetched it there: where it was not fetched the block index has not moved, and the
    body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the entry contents at every point,
    whether or not the pipeline fetched it there: where it was not fetched the block index has not moved, and the
    body left the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block of the entry contents at every point,
    whether or not the pipeline fetched it there: where it was not fetched the block index has not moved, and the
    body left the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- The condition guarding the zeroing of the accumulator: both grid coordinates are 0. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid position and nowhere else (checked position by position over the 20 of them). -/
theorem hcond1_0 : ∀ t : Fin cfg1.N, cond1_0 (grid1.coords t) ↔ t.val = 0 :=
  (by decide +kernel : ∀ t : Fin grid1.N, cond1_0 (grid1.coords t) ↔ t.val = 0)

/-- The condition guarding the final computation: the coordinates are (1, 9). -/
abbrev cond1_1 (i : grid1.Coords) : Prop := k1_cond2 i = 1#1
/-- It holds at the last grid position and nowhere else. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- Input window 0 is never idle. -/
theorem liveAt1_0 : ∀ t : Fin cfg1.N, cfg1.idle 0 (grid1.coords t) = false := fun _ => rfl
/-- Input window 1 is never idle. -/
theorem liveAt1_1 : ∀ t : Fin cfg1.N, cfg1.idle 1 (grid1.coords t) = false := fun _ => rfl
/-- Input window 2 is never idle. -/
theorem liveAt1_2 : ∀ t : Fin cfg1.N, cfg1.idle 2 (grid1.coords t) = false := fun _ => rfl
/-- Input window 3 is never idle. -/
theorem liveAt1_3 : ∀ t : Fin cfg1.N, cfg1.idle 3 (grid1.coords t) = false := fun _ => rfl
/-- Input window 4 is never idle. -/
theorem liveAt1_4 : ∀ t : Fin cfg1.N, cfg1.idle 4 (grid1.coords t) = false := fun _ => rfl
/-- Input window 5 is never idle. -/
theorem liveAt1_5 : ∀ t : Fin cfg1.N, cfg1.idle 5 (grid1.coords t) = false := fun _ => rfl
/-- Where the final branch is not taken the output window is idle: nothing is stored into its buffer, -/
theorem idleAt1_6 : ∀ t : Fin cfg1.N, ¬cond1_1 (grid1.coords t) → cfg1.idle 6 (grid1.coords t) = true := by decide +kernel
/-- and the pipeline does not write the buffer back. -/
theorem noFlush1_6 : ∀ t : Fin cfg1.N, ¬cond1_1 (grid1.coords t) → (cfg1.win 6).flush t = false := by decide +kernel
/-- Where the final branch is taken the output window is live. -/
theorem liveAt1_6 : ∀ t : Fin cfg1.N, cond1_1 (grid1.coords t) → cfg1.idle 6 (grid1.coords t) = false := by decide +kernel

/-! ## The memrefs the body is called with -/

/-- The output window's one staging buffer as a view: what the buffer holds is stated through it. -/
abbrev VO1_6 : View sig .tc .vmem S8x128 .f32 := (Memref.whole cc1_stg6_0 : Memref sig .tc .vmem S8x128 .f32).view
abbrev ms1_0 (t : Fin cfg1.N) : Memref sig .tc .vmem S1x1000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried from one
    grid position to the next. -/
abbrev scM1_0 : Memref sig .tc .vmem S8x128 .f32 := Memref.whole cc1_scratch0
abbrev VS1_0 : View sig .tc .vmem S8x128 .f32 := scM1_0.view

/-! ## The region invariant with the accumulator explicit -/

/-- The core's scoped buffers that this pipeline does not stage through — the first pallas_call's staging buffers,
    each at some contents — with the proposition `S` in the accumulator's place. -/
def restWith (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ S)

/-- The invariant the launch hands the region, with the accumulator as a memref owned at some contents. -/
theorem PhiA1_eq (c : Dev nD) :
    (Pipeline.ΦA spec1 c : sProp 𝕄)
      = iprop(restWith (F := F) c iprop(∃ d, owns (c : Thread nD τ) scM1_0 fullShare d) ∗ (∃ r, prngReg c r)) := by
  unfold Pipeline.ΦA restWith; rw [scopedRest1_eq]; simp only [scM1_0, owns_whole]; try rfl

/-- Whatever stands in the accumulator's place can be exchanged, the other buffers staying as they are. -/
theorem restWith_mono (c : Dev nD) (S S' : sProp 𝕄) (h : S ⊢ S') : restWith (F := F) c S ⊢ restWith (F := F) c S' := by
  unfold restWith
  iintro ⟨R0, R1, R2, R3, R4, R5, R6, R7, R8, R9, HS⟩
  iframe R0 R1 R2 R3 R4 R5 R6 R7 R8 R9
  iapply h; iexact HS

end Cert.Kernel.Hand

end
-- ==== Proof.K.Region1RunA.lean ====
import proofs.«157275_g83597243449447_cont_9to1_m_596_53_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the first grid position

The zeroing branch is taken and the final branch is not: the accumulator, found at anything, is overwritten; the
output window's buffer is not touched. -/

set_option maxHeartbeats 1000000 in
/-- The pieces the body's stores leave in the accumulator at the first position (last store first), with the proof
    that on whole memrefs — the six inputs at their contents, the output's buffer at contents `xi6` that come back
    untouched, the accumulator at anything — the body runs to a continuation that holds the inputs as they were, the
    output's buffer at `xi6` and the accumulator with those pieces written. The symbolic run over the body's memory
    operations finds the pieces. -/
noncomputable def kernelRun1_A (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) :
    { LS0 : List (View.Piece (Elt F) S8x128 .f32) //
      ∀ (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__epi_body i arg2 harg2 arg3 harg3 arg4 harg4 arg5 harg5 arg6 harg6 arg7 harg7 arg8 harg8 arg9 harg9) K } := by
  refine ⟨?_, fun xi6 E K => ?run⟩
  case run =>
    simp only [cc1__epi_body_eq_skeleton]; unfold cc1__epi_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Region1RunB.lean ====
import proofs.«157275_g83597243449447_cont_9to1_m_596_53_alg».proof.Proof.K.Region1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at a middle grid position

Neither branch is taken: the accumulator, found at what the position before left, is loaded, added to and stored
back; the output window's buffer is not touched. -/

set_option maxHeartbeats 1000000 in
/-- The pieces the body's one store leaves in the accumulator at a middle position, with the proof that on whole
    memrefs — the six inputs at their contents, the output's buffer at contents `xi6` that come back untouched, the
    accumulator at `xs0` — the body runs to a continuation that holds the inputs as they were, the output's buffer
    at `xi6` and the accumulator with those pieces written. -/
noncomputable def kernelRun1_B (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    { LS0 : List (View.Piece (Elt F) S8x128 .f32) //
      ∀ (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__epi_body i arg2 harg2 arg3 harg3 arg4 harg4 arg5 harg5 arg6 harg6 arg7 harg7 arg8 harg8 arg9 harg9) K } := by
  refine ⟨?_, fun xi6 E K => ?run⟩
  case run =>
    simp only [cc1__epi_body_eq_skeleton]; unfold cc1__epi_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Region1RunC.lean ====
import proofs.«157275_g83597243449447_cont_9to1_m_596_53_alg».proof.Proof.K.Region1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the last grid position

The final branch is taken and the zeroing branch is not: the accumulator is loaded, added to and stored back, then
read again, and the final value computed from it is stored over the whole of the output window's buffer. -/

set_option maxHeartbeats 1000000 in
/-- The pieces the body's stores leave in the output window's buffer and in the accumulator at the last position,
    with the proof that on whole memrefs — the six inputs at their contents, the output's buffer at anything, the
    accumulator at `xs0` — the body runs to a continuation that holds the inputs as they were and the two buffers with
    their pieces written. -/
noncomputable def kernelRun1_C (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    Σ' (L6 : List (View.Piece (Elt F) S8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__epi_body i arg2 harg2 arg3 harg3 arg4 harg4 arg5 harg5 arg6 harg6 arg7 harg7 arg8 harg8 arg9 harg9) K } := by
  refine ⟨?_, ?_, fun E K => ?run⟩
  case run =>
    simp only [cc1__epi_body_eq_skeleton]; unfold cc1__epi_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Region1.lean ====
import proofs.«157275_g83597243449447_cont_9to1_m_596_53_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call's region: what its buffers hold after every grid position, and the body obligation

From the three runs of the body: the contents each case leaves in the accumulator (and, at the last position, in the
output window's buffer), the accumulation over the grid positions, the region invariant that carries the
accumulator from one position to the next, the pipeline's proof data, and the body's obligation at every position. -/

/-- What the output window's buffer is said to hold after a position where nothing is stored into it: contents that
    nothing consults, since there the buffer is neither written back nor read at the next position. -/
def idleOut1 : Vec F S8x128 .f32 := VO1_6.read (Elt F) VO1_6.junk

/-! ## What each case leaves -/

/-- At the first position the pieces stored into the accumulator cover it. -/
theorem scover1_A_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (y : S8x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S8x128.size (by sl_kernel_rfl) y

/-- What the first position leaves in the accumulator: its pieces read back. -/
def sout1_A_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) : Vec F S8x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).1)

/-- At a middle position the piece stored into the accumulator covers it. -/
theorem scover1_B_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) (y : S8x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S8x128.size (by sl_kernel_rfl) y

/-- What a middle position leaves in the accumulator. -/
def sout1_B_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) : Vec F S8x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).1)

/-- At the last position the piece stored into the output window's buffer covers it. -/
theorem cover1_C_6 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S8x128.size (by sl_kernel_rfl) y

/-- What the last position leaves in the output window's buffer. -/
def out1_C_6 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) : Vec F S8x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- At the last position the piece stored into the accumulator covers it. -/
theorem scover1_C_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S8x128.size (by sl_kernel_rfl) y

/-- What the last position leaves in the accumulator. -/
def sout1_C_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) : Vec F S8x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## The accumulation over the grid positions -/

/-- What the output window's buffer and the accumulator hold after the body at position `n`: the first position
    runs on an accumulator at anything; every later one on what the position before left; the last position alone
    stores into the output window's buffer. -/
def outsAt1 (c : Dev nD) : (n : ℕ) → n < cfg1.N → Vec F S8x128 .f32 × Vec F S8x128 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr rfl) (fun h => absurd ((hcond1_1 ⟨0, hn⟩).mp h) (by omega : ¬(0 : ℕ) = 19)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : n + 1 = 19 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
    else
      (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At the first position. -/
theorem outsAt1_A (c : Dev nD) (t : Fin cfg1.N) (h0 : t.val = 0) :
    outsAt1 V c t.val t.isLt = (idleOut1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

/-- At a middle position: over what the position before left in the accumulator. -/
theorem outsAt1_B (c : Dev nD) (t : Fin cfg1.N) (h0 : ¬t.val = 0) (h1 : ¬t.val = 19) :
    outsAt1 V c t.val t.isLt = (idleOut1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last position: over what the position before left in the accumulator. -/
theorem outsAt1_C (c : Dev nD) (t : Fin cfg1.N) (h0 : ¬t.val = 0) (h1 : t.val = 19) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- The invariant before position `n`: before the first, what the launch hands the region (the accumulator at
    anything); afterwards the other scoped buffers at anything, the accumulator at what position `n - 1` left in it,
    and the generator register at some state. -/
def PhiS1 (c : Dev nD) : (n : ℕ) → n ≤ cfg1.N → sProp 𝕄
  | 0, _ => Pipeline.ΦA spec1 c
  | n + 1, hn => iprop(restWith (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(restWith (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a position each input's buffer at its block and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at position `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any position. The inputs' buffers hold their blocks; the closed forms of the two conditions say
    which case the position is in; the invariant hands the body the accumulator (at anything at the first position,
    at what the position before left otherwise) and takes it back at this position's contents, since the pieces
    stored cover it; where the output window is idle its buffer comes back as found, and at the last position it
    holds the stored piece, which covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · have h1 : ¬t.val = 19 := by omega
    rw [Dat.leavesExact_idle (dat1 V c) 6 t (idleAt1_6 t (fun h => h1 ((hcond1_1 t).mp h))) (noFlush1_6 t (fun h => h1 ((hcond1_1 t).mp h)))]
    rw [outsAt1_A V c t h0]
    unfold sout1_A_0; (try dsimp only)
    rw [PhiS1_castSucc V c t, PhiS1_zero V c _ _ h0, PhiA1_eq]
    unfold restWith
    iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [R0 R1 R2 R3 R4 R5 R6 R7 R8 R9 HS0 Hg]
    · isplitl [R0 R1 R2 R3 R4 R5 R6 R7 R8 R9 HS0]
      · iframe R0 R1 R2 R3 R4 R5 R6 R7 R8 R9
        unfold owns; iexists _; isplitr
        swap; · iexact HS0
        ipureintro; exact View.read_writes_of_cover _ _ _ _ _ (scover1_A_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 19
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      rw [PhiS1_castSucc V c t, PhiS1_pos V c _ _ h0]
      unfold restWith
      iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [R0 R1 R2 R3 R4 R5 R6 R7 R8 R9 HS0 Hg]
      · isplitl [R0 R1 R2 R3 R4 R5 R6 R7 R8 R9 HS0]
        · iframe R0 R1 R2 R3 R4 R5 R6 R7 R8 R9
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      rw [PhiS1_castSucc V c t, PhiS1_pos V c _ _ h0]
      unfold restWith
      iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R0 R1 R2 R3 R4 R5 R6 R7 R8 R9 HS0 Hg]
      · isplitl [R0 R1 R2 R3 R4 R5 R6 R7 R8 R9 HS0]
        · iframe R0 R1 R2 R3 R4 R5 R6 R7 R8 R9
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  have hforget : (owns (c : Thread nD τ) scM1_0 fullShare ((outsAt1 V c (t.val - 1) (by omega)).2) : sProp 𝕄)
      ⊢ iprop(∃ d, owns (c : Thread nD τ) scM1_0 fullShare d) := by
    iintro HS0; iexists _; iexact HS0
  have hmono := restWith_mono (F := F) c _ _ hforget
  iintro ⟨HR, Hg⟩
  isplitl [HR]
  · iapply hmono; iexact HR
  iexact Hg

/-- The same after the last position. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.K.Run.lean ====
import proofs.«157275_g83597243449447_cont_9to1_m_596_53_alg».proof.Proof.K.Region0
import proofs.«157275_g83597243449447_cont_9to1_m_596_53_alg».proof.Proof.K.Region1
import proofs.«157275_g83597243449447_cont_9to1_m_596_53_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is: a stretch of host operations (the degree histograms, the stacked inputs), the first kernel region, five
stretches of host operations (the two row gathers and scatter-adds, the stacked aggregate, the reshaped biases), the
second kernel region, and a last stretch (the scalar picked out of the result tile). The contents of core `c`'s
buffers at each boundary are a fold from the launch memory: a stretch applies its operations; a region leaves its
windows' arrays at what its write-backs fold to and every other buffer as it found it. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps2 (W8 m ρ c)

/-! ### No stretch writes an argument array and no region's window that is written back is one -/

theorem W9_main_arg0 (c : Dev nD) : W9 m ρ c (Proc.devRef .tc main_arg0) = m ((c : Thread nD τ).loc main_arg0) :=
  (StableHlo.after_of_writes_sub hostOps2 _ hostOps2_writes (by decide : main_arg0 ∉ hostOps2_W)).trans <|
  (W8_of_ne m ρ c main_arg0 (by decide)).trans <|
  (StableHlo.after_of_writes_sub hostOps1_4 _ hostOps1_4_writes (by decide : main_arg0 ∉ hostOps1_4_W)).trans <|
  (StableHlo.after_of_writes_sub hostOps1_3 _ hostOps1_3_writes (by decide : main_arg0 ∉ hostOps1_3_W)).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  (W2_of_ne m ρ c main_arg0 (by decide)).trans <|
  (StableHlo.after_of_writes_sub hostOps0 _ hostOps0_writes (by decide : main_arg0 ∉ hostOps0_W)).trans rfl

theorem W9_main_arg1 (c : Dev nD) : W9 m ρ c (Proc.devRef .tc main_arg1) = m ((c : Thread nD τ).loc main_arg1) :=
  (StableHlo.after_of_writes_sub hostOps2 _ hostOps2_writes (by decide : main_arg1 ∉ hostOps2_W)).trans <|
  (W8_of_ne m ρ c main_arg1 (by decide)).trans <|
  (StableHlo.after_of_writes_sub hostOps1_4 _ hostOps1_4_writes (by decide : main_arg1 ∉ hostOps1_4_W)).trans <|
  (StableHlo.after_of_writes_sub hostOps1_3 _ hostOps1_3_writes (by decide : main_arg1 ∉ hostOps1_3_W)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (W2_of_ne m ρ c main_arg1 (by decide)).trans <|
  (StableHlo.after_of_writes_sub hostOps0 _ hostOps0_writes (by decide : main_arg1 ∉ hostOps0_W)).trans rfl

theorem W9_main_arg2 (c : Dev nD) : W9 m ρ c (Proc.devRef .tc main_arg2) = m ((c : Thread nD τ).loc main_arg2) :=
  (StableHlo.after_of_writes_sub hostOps2 _ hostOps2_writes (by decide : main_arg2 ∉ hostOps2_W)).trans <|
  (W8_of_ne m ρ c main_arg2 (by decide)).trans <|
  (StableHlo.after_of_writes_sub hostOps1_4 _ hostOps1_4_writes (by decide : main_arg2 ∉ hostOps1_4_W)).trans <|
  (StableHlo.after_of_writes_sub hostOps1_3 _ hostOps1_3_writes (by decide : main_arg2 ∉ hostOps1_3_W)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans rfl

theorem W9_main_arg3 (c : Dev nD) : W9 m ρ c (Proc.devRef .tc main_arg3) = m ((c : Thread nD τ).loc main_arg3) :=
  (StableHlo.after_of_writes_sub hostOps2 _ hostOps2_writes (by decide : main_arg3 ∉ hostOps2_W)).trans <|
  (W8_of_ne m ρ c main_arg3 (by decide)).trans <|
  (StableHlo.after_of_writes_sub hostOps1_4 _ hostOps1_4_writes (by decide : main_arg3 ∉ hostOps1_4_W)).trans <|
  (StableHlo.after_of_writes_sub hostOps1_3 _ hostOps1_3_writes (by decide : main_arg3 ∉ hostOps1_3_W)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (W2_of_ne m ρ c main_arg3 (by decide)).trans <|
  (StableHlo.after_of_writes_sub hostOps0 _ hostOps0_writes (by decide : main_arg3 ∉ hostOps0_W)).trans rfl

theorem W9_main_arg4 (c : Dev nD) : W9 m ρ c (Proc.devRef .tc main_arg4) = m ((c : Thread nD τ).loc main_arg4) :=
  (StableHlo.after_of_writes_sub hostOps2 _ hostOps2_writes (by decide : main_arg4 ∉ hostOps2_W)).trans <|
  ((W8_arr m ρ c 2).trans (((dat1 (V7 m ρ) c).arrAt_in 2 rfl _).trans (A_eq1 (V7 m ρ) c 2))).trans <|
  (StableHlo.after_of_writes_sub hostOps1_4 _ hostOps1_4_writes (by decide : main_arg4 ∉ hostOps1_4_W)).trans <|
  (StableHlo.after_of_writes_sub hostOps1_3 _ hostOps1_3_writes (by decide : main_arg4 ∉ hostOps1_3_W)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans rfl

theorem W9_main_arg5 (c : Dev nD) : W9 m ρ c (Proc.devRef .tc main_arg5) = m ((c : Thread nD τ).loc main_arg5) :=
  (StableHlo.after_of_writes_sub hostOps2 _ hostOps2_writes (by decide : main_arg5 ∉ hostOps2_W)).trans <|
  (W8_of_ne m ρ c main_arg5 (by decide)).trans <|
  (StableHlo.after_of_writes_sub hostOps1_4 _ hostOps1_4_writes (by decide : main_arg5 ∉ hostOps1_4_W)).trans <|
  (StableHlo.after_of_writes_sub hostOps1_3 _ hostOps1_3_writes (by decide : main_arg5 ∉ hostOps1_3_W)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (W2_of_ne m ρ c main_arg5 (by decide)).trans <|
  (StableHlo.after_of_writes_sub hostOps0 _ hostOps0_writes (by decide : main_arg5 ∉ hostOps0_W)).trans rfl

theorem W9_main_arg6 (c : Dev nD) : W9 m ρ c (Proc.devRef .tc main_arg6) = m ((c : Thread nD τ).loc main_arg6) :=
  (StableHlo.after_of_writes_sub hostOps2 _ hostOps2_writes (by decide : main_arg6 ∉ hostOps2_W)).trans <|
  ((W8_arr m ρ c 4).trans (((dat1 (V7 m ρ) c).arrAt_in 4 rfl _).trans (A_eq1 (V7 m ρ) c 4))).trans <|
  (StableHlo.after_of_writes_sub hostOps1_4 _ hostOps1_4_writes (by decide : main_arg6 ∉ hostOps1_4_W)).trans <|
  (StableHlo.after_of_writes_sub hostOps1_3 _ hostOps1_3_writes (by decide : main_arg6 ∉ hostOps1_3_W)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans rfl

theorem W9_main_arg7 (c : Dev nD) : W9 m ρ c (Proc.devRef .tc main_arg7) = m ((c : Thread nD τ).loc main_arg7) :=
  (StableHlo.after_of_writes_sub hostOps2 _ hostOps2_writes (by decide : main_arg7 ∉ hostOps2_W)).trans <|
  (W8_of_ne m ρ c main_arg7 (by decide)).trans <|
  (StableHlo.after_of_writes_sub hostOps1_4 _ hostOps1_4_writes (by decide : main_arg7 ∉ hostOps1_4_W)).trans <|
  (StableHlo.after_of_writes_sub hostOps1_3 _ hostOps1_3_writes (by decide : main_arg7 ∉ hostOps1_3_W)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from by
      unfold Pipeline.ΦA
      iintro ⟨Hp, -, Hr⟩
      isplitl [Hr]; · iexact Hr
      iexact Hp).trans ?_
    exact (show Pipeline.ΦA spec0 c ⊢ (pdats m ρ 0 c).Φ 0 from .rfl)
  hout c := by
    rw [Pipeline.ownSems0_none]
    refine (show (pdats m ρ 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from by
      unfold Pipeline.ΦA
      iintro ⟨Hp, -, Hr⟩
      isplitl [Hr]; · iexact Hr
      iexact Hp).trans ?_
    exact hin1 (V7 m ρ) c
  hout c := by
    rw [Pipeline.ownSems0_none]
    refine (show (pdats m ρ 1 c).Φ (Fin.last _) ⊢ Pipeline.ΦA spec1 c from hout1 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in
    every final memory each unscoped buffer of core `c` holds the last boundary's contents `W9 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all m ρ)

end Cert.Kernel.Hand

end
-- ==== Proof.KI.Region0.lean ====
import proofs.«157275_g83597243449447_cont_9to1_m_596_53_alg».proof.Proof.Gen.KernelIdeal.Launch
import proofs.«157275_g83597243449447_cont_9to1_m_596_53_alg».proof.Proof.Gen.KernelIdeal.Skeleton
import proofs.«157275_g83597243449447_cont_9to1_m_596_53_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first TensorCore call: its pipeline's proof data and the body obligation

The first call scales each node's feature row by a degree normaliser.  Its grid has 2 x 10 = 20 points;
at each point the pipeline brings in one 1000-row block of the features (window 0) and the matching
1000 x 1 blocks of the two degree columns (windows 1 and 2), runs the body, and sends back one 1000-row
block of scaled features (window 3) and one 1000 x 1 block of the second normaliser (window 4).

The body reads its three input blocks whole and overwrites its two output blocks whole, so what an
output buffer holds afterwards is a function of the input blocks alone: whatever the buffer held before
is read once and discarded.  Everything here is stated at a parameter `V`, the TensorCore's buffer
contents at the moment the call is entered.
-/

-- deciding that one whole-block rectangle tiles a 1 x 1000 x 128 buffer walks the long axes coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the call is entered
variable (V : (c : Dev nD) → (b : Ref sig .tc) → Buf (Elt F) ((c : Thread nD τ).loc b))

/-! ## The blocks the windows see -/

/-- The block of window `w` at grid point `t`: the sub-array of the window's array, as `V` has it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is brought in afresh at every point and the body does not write to it, so its current
    buffer holds its block when the body starts.  Stated for any proof data with `V`'s array (`hA`) whose body
    leaves the block where it is (`hafter`).  Window 0: the features. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1, the first degree column. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for window 2, the second degree column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two rectangles the body touches: each is a whole buffer -/

/-- All of a 1 x 1000 x 1 buffer. -/
abbrev r0_0 : Rect S1x1000x1 := Rect.unit (s := S1x1000x1) ![0, 0, 0] S1x1000x1.size inb_S1x1000x1_S1x1000x1_0_0_0
/-- All of a 1 x 1000 x 128 buffer. -/
abbrev r0_1 : Rect S1x1000x128 := Rect.unit (s := S1x1000x128) ![0, 0, 0] S1x1000x128.size inb_S1x1000x128_S1x1000x128_0_0_0

/-! ## What the body leaves in the output buffers -/

/-- Window 3's buffer after the body: the one whole-buffer store of the scaled features, computed from the
    feature block `x0` and the first degree column's block `x1`. -/
def out0_3 (x0 : Vec F S1x1000x128 .f32) (x1 : Vec F S1x1000x1 .f32) : Vec F S1x1000x128 .f32 :=
  View.canon [⟨r0_1, k0_pay1 (View.ld x1 r0_0) (View.ld x0 r0_1)⟩]

/-- One whole-buffer piece covers the buffer. -/
theorem cover0_3 (p0 : Vec F S1x1000x128 .f32) (y : S1x1000x128.Idx) :
    ∃ pc ∈ ([⟨r0_1, p0⟩] : List (View.Piece (Elt F) S1x1000x128 .f32)), y ∈ pc.1.set :=
  View.cover_of_tiled [⟨r0_1, p0⟩] S1x1000x128.size (by rfl) y

/-- Window 4's buffer after the body: the one whole-buffer store of the second normaliser, computed from the
    second degree column's block `x2`. -/
def out0_4 (x2 : Vec F S1x1000x1 .f32) : Vec F S1x1000x1 .f32 :=
  View.canon [⟨r0_0, k0_pay2 (View.ld x2 r0_0)⟩]

/-- One whole-buffer piece covers the buffer. -/
theorem cover0_4 (p0 : Vec F S1x1000x1 .f32) (y : S1x1000x1.Idx) :
    ∃ pc ∈ ([⟨r0_0, p0⟩] : List (View.Piece (Elt F) S1x1000x1 .f32)), y ∈ pc.1.set :=
  View.cover_of_tiled [⟨r0_0, p0⟩] S1x1000x1.size (by rfl) y

/-! ## The body's triple -/

set_option maxHeartbeats 1000000 in
/-- The body run on five whole buffers.  Given the three input buffers at contents `x0`, `x1`, `x2` and the two
    output buffers at anything, it ends with the inputs unchanged and the outputs at `out0_3 x0 x1` and `out0_4 x2`.
    The body reads each output buffer once before overwriting it whole; that read has no effect on what is left.
    The grid coordinates are passed to the body but never used. -/
theorem sound_kernel0 (c : Dev nD) (E : Set ℕ) (i : grid0.Coords)
    (arg2 : Memref sig .tc .vmem S1x1000x128 .f32) (harg2 : arg2.IsWhole) (arg3 : Memref sig .tc .vmem S1x1000x1 .f32) (harg3 : arg3.IsWhole)
    (arg4 : Memref sig .tc .vmem S1x1000x1 .f32) (harg4 : arg4.IsWhole) (arg5 : Memref sig .tc .vmem S1x1000x128 .f32) (harg5 : arg5.IsWhole)
    (arg6 : Memref sig .tc .vmem S1x1000x1 .f32) (harg6 : arg6.IsWhole)
    (x0 : Vec F S1x1000x128 .f32) (x1 : Vec F S1x1000x1 .f32) (x2 : Vec F S1x1000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1) ∗ owns (c : Thread nD τ) arg6 fullShare (out0_4 x2)) -∗ K ⟨⟩))
      ⊢ wp frame (wpE (defs₀ (F := F)) Variants.none c none) E (cc0__pro_body i arg2 harg2 arg3 harg3 arg4 harg4 arg5 harg5 arg6 harg6) K := by
  simp only [cc0__pro_body_eq_skeleton]; unfold cc0__pro_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the first call's pipeline on core `c`.  The arrays are `V`'s.  After the body at point `t`
    an input window's buffer still holds its block, window 3's holds the scaled features of that point's blocks and
    window 4's the second normaliser of its block.  The invariant carried between points is the standard one for a
    body that only reads and writes its own buffers; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 2 t)
  Φ _ := Pipeline.ΦA spec0 c
  q _ := fullShare
  owed _ := 0

/-- The proof data's arrays are `V`'s (a projection of the definition; `V` itself is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 2 t) := by dsimp only [dat0]

/-- Each input window's current buffer holds its block when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is given at point `t`: the invariant, the owed part, and the five current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point.  The input buffers hold their blocks, so the body's triple applies with those blocks as
    `x0`, `x1`, `x2`; the invariant and the owed part are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
import proofs.«157275_g83597243449447_cont_9to1_m_596_53_alg».proof.Proof.Gen.KernelIdeal.Launch
import proofs.«157275_g83597243449447_cont_9to1_m_596_53_alg».proof.Proof.Gen.KernelIdeal.Skeleton
import proofs.«157275_g83597243449447_cont_9to1_m_596_53_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The second pallas_call as a pipeline region, at the contents `V` the TensorCore's buffers have on entry

What the three control cases of its body share: the windows' blocks, the inputs' buffers before the body, the two
branch conditions in closed form over the linear grid position, where the output window is idle, and the region
invariant with the accumulator buffer made explicit. -/

/-! ## The windows' blocks -/

/-- Window `w`'s block at grid position `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the entry contents at every point,
    whether or not the pipeline fetched it there: where it was not fetched the block index has not moved, and the
    body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the entry contents at every point,
    whether or not the pipeline fetched it there: where it was not fetched the block index has not moved, and the
    body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the entry contents at every point,
    whether or not the pipeline fetched it there: where it was not fetched the block index has not moved, and the
    body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the entry contents at every point,
    whether or not the pipeline fetched it there: where it was not fetched the block index has not moved, and the
    body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the entry contents at every point,
    whether or not the pipeline fetched it there: where it was not fetched the block index has not moved, and the
    body left the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block of the entry contents at every point,
    whether or not the pipeline fetched it there: where it was not fetched the block index has not moved, and the
    body left the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- The condition guarding the zeroing of the accumulator: both grid coordinates are 0. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid position and nowhere else (checked position by position over the 20 of them). -/
theorem hcond1_0 : ∀ t : Fin cfg1.N, cond1_0 (grid1.coords t) ↔ t.val = 0 :=
  (by decide +kernel : ∀ t : Fin grid1.N, cond1_0 (grid1.coords t) ↔ t.val = 0)

/-- The condition guarding the final computation: the coordinates are (1, 9). -/
abbrev cond1_1 (i : grid1.Coords) : Prop := k1_cond2 i = 1#1
/-- It holds at the last grid position and nowhere else. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- Input window 0 is never idle. -/
theorem liveAt1_0 : ∀ t : Fin cfg1.N, cfg1.idle 0 (grid1.coords t) = false := fun _ => rfl
/-- Input window 1 is never idle. -/
theorem liveAt1_1 : ∀ t : Fin cfg1.N, cfg1.idle 1 (grid1.coords t) = false := fun _ => rfl
/-- Input window 2 is never idle. -/
theorem liveAt1_2 : ∀ t : Fin cfg1.N, cfg1.idle 2 (grid1.coords t) = false := fun _ => rfl
/-- Input window 3 is never idle. -/
theorem liveAt1_3 : ∀ t : Fin cfg1.N, cfg1.idle 3 (grid1.coords t) = false := fun _ => rfl
/-- Input window 4 is never idle. -/
theorem liveAt1_4 : ∀ t : Fin cfg1.N, cfg1.idle 4 (grid1.coords t) = false := fun _ => rfl
/-- Input window 5 is never idle. -/
theorem liveAt1_5 : ∀ t : Fin cfg1.N, cfg1.idle 5 (grid1.coords t) = false := fun _ => rfl
/-- Where the final branch is not taken the output window is idle: nothing is stored into its buffer, -/
theorem idleAt1_6 : ∀ t : Fin cfg1.N, ¬cond1_1 (grid1.coords t) → cfg1.idle 6 (grid1.coords t) = true := by decide +kernel
/-- and the pipeline does not write the buffer back. -/
theorem noFlush1_6 : ∀ t : Fin cfg1.N, ¬cond1_1 (grid1.coords t) → (cfg1.win 6).flush t = false := by decide +kernel
/-- Where the final branch is taken the output window is live. -/
theorem liveAt1_6 : ∀ t : Fin cfg1.N, cond1_1 (grid1.coords t) → cfg1.idle 6 (grid1.coords t) = false := by decide +kernel

/-! ## The memrefs the body is called with -/

/-- The output window's one staging buffer as a view: what the buffer holds is stated through it. -/
abbrev VO1_6 : View sig .tc .vmem S8x128 .f32 := (Memref.whole cc1_stg6_0 : Memref sig .tc .vmem S8x128 .f32).view
abbrev ms1_0 (t : Fin cfg1.N) : Memref sig .tc .vmem S1x1000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried from one
    grid position to the next. -/
abbrev scM1_0 : Memref sig .tc .vmem S8x128 .f32 := Memref.whole cc1_scratch0
abbrev VS1_0 : View sig .tc .vmem S8x128 .f32 := scM1_0.view

/-! ## The region invariant with the accumulator explicit -/

/-- The core's scoped buffers that this pipeline does not stage through — the first pallas_call's staging buffers,
    each at some contents — with the proposition `S` in the accumulator's place. -/
def restWith (c : Dev nD) (S : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ S)

/-- The invariant the launch hands the region, with the accumulator as a memref owned at some contents. -/
theorem PhiA1_eq (c : Dev nD) :
    (Pipeline.ΦA spec1 c : sProp 𝕄)
      = iprop(restWith (F := F) c iprop(∃ d, owns (c : Thread nD τ) scM1_0 fullShare d) ∗ (∃ r, prngReg c r)) := by
  unfold Pipeline.ΦA restWith; rw [scopedRest1_eq]; simp only [scM1_0, owns_whole]; try rfl

/-- Whatever stands in the accumulator's place can be exchanged, the other buffers staying as they are. -/
theorem restWith_mono (c : Dev nD) (S S' : sProp 𝕄) (h : S ⊢ S') : restWith (F := F) c S ⊢ restWith (F := F) c S' := by
  unfold restWith
  iintro ⟨R0, R1, R2, R3, R4, R5, R6, R7, R8, R9, HS⟩
  iframe R0 R1 R2 R3 R4 R5 R6 R7 R8 R9
  iapply h; iexact HS

end Cert.KernelIdeal.Hand

end
-- ==== Proof.KI.Region1RunA.lean ====
import proofs.«157275_g83597243449447_cont_9to1_m_596_53_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The body at the first grid position

The zeroing branch is taken and the final branch is not: the accumulator, found at anything, is overwritten; the
output window's buffer is not touched. -/

set_option maxHeartbeats 1000000 in
/-- The pieces the body's stores leave in the accumulator at the first position (last store first), with the proof
    that on whole memrefs — the six inputs at their contents, the output's buffer at contents `xi6` that come back
    untouched, the accumulator at anything — the body runs to a continuation that holds the inputs as they were, the
    output's buffer at `xi6` and the accumulator with those pieces written. The symbolic run over the body's memory
    operations finds the pieces. -/
noncomputable def kernelRun1_A (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) :
    { LS0 : List (View.Piece (Elt F) S8x128 .f32) //
      ∀ (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__epi_body i arg2 harg2 arg3 harg3 arg4 harg4 arg5 harg5 arg6 harg6 arg7 harg7 arg8 harg8 arg9 harg9) K } := by
  refine ⟨?_, fun xi6 E K => ?run⟩
  case run =>
    simp only [cc1__epi_body_eq_skeleton]; unfold cc1__epi_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Region1RunB.lean ====
import proofs.«157275_g83597243449447_cont_9to1_m_596_53_alg».proof.Proof.KI.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The body at a middle grid position

Neither branch is taken: the accumulator, found at what the position before left, is loaded, added to and stored
back; the output window's buffer is not touched. -/

set_option maxHeartbeats 1000000 in
/-- The pieces the body's one store leaves in the accumulator at a middle position, with the proof that on whole
    memrefs — the six inputs at their contents, the output's buffer at contents `xi6` that come back untouched, the
    accumulator at `xs0` — the body runs to a continuation that holds the inputs as they were, the output's buffer
    at `xi6` and the accumulator with those pieces written. -/
noncomputable def kernelRun1_B (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    { LS0 : List (View.Piece (Elt F) S8x128 .f32) //
      ∀ (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__epi_body i arg2 harg2 arg3 harg3 arg4 harg4 arg5 harg5 arg6 harg6 arg7 harg7 arg8 harg8 arg9 harg9) K } := by
  refine ⟨?_, fun xi6 E K => ?run⟩
  case run =>
    simp only [cc1__epi_body_eq_skeleton]; unfold cc1__epi_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Region1RunC.lean ====
import proofs.«157275_g83597243449447_cont_9to1_m_596_53_alg».proof.Proof.KI.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The body at the last grid position

The final branch is taken and the zeroing branch is not: the accumulator is loaded, added to and stored back, then
read again, and the final value computed from it is stored over the whole of the output window's buffer. -/

set_option maxHeartbeats 1000000 in
/-- The pieces the body's stores leave in the output window's buffer and in the accumulator at the last position,
    with the proof that on whole memrefs — the six inputs at their contents, the output's buffer at anything, the
    accumulator at `xs0` — the body runs to a continuation that holds the inputs as they were and the two buffers with
    their pieces written. -/
noncomputable def kernelRun1_C (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    Σ' (L6 : List (View.Piece (Elt F) S8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__epi_body i arg2 harg2 arg3 harg3 arg4 harg4 arg5 harg5 arg6 harg6 arg7 harg7 arg8 harg8 arg9 harg9) K } := by
  refine ⟨?_, ?_, fun E K => ?run⟩
  case run =>
    simp only [cc1__epi_body_eq_skeleton]; unfold cc1__epi_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Region1.lean ====
import proofs.«157275_g83597243449447_cont_9to1_m_596_53_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The second pallas_call's region: what its buffers hold after every grid position, and the body obligation

From the three runs of the body: the contents each case leaves in the accumulator (and, at the last position, in the
output window's buffer), the accumulation over the grid positions, the region invariant that carries the
accumulator from one position to the next, the pipeline's proof data, and the body's obligation at every position. -/

/-- What the output window's buffer is said to hold after a position where nothing is stored into it: contents that
    nothing consults, since there the buffer is neither written back nor read at the next position. -/
def idleOut1 : Vec F S8x128 .f32 := VO1_6.read (Elt F) VO1_6.junk

/-! ## What each case leaves -/

/-- At the first position the pieces stored into the accumulator cover it. -/
theorem scover1_A_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (y : S8x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S8x128.size (by sl_kernel_rfl) y

/-- What the first position leaves in the accumulator: its pieces read back. -/
def sout1_A_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) : Vec F S8x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).1)

/-- At a middle position the piece stored into the accumulator covers it. -/
theorem scover1_B_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) (y : S8x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S8x128.size (by sl_kernel_rfl) y

/-- What a middle position leaves in the accumulator. -/
def sout1_B_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) : Vec F S8x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).1)

/-- At the last position the piece stored into the output window's buffer covers it. -/
theorem cover1_C_6 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S8x128.size (by sl_kernel_rfl) y

/-- What the last position leaves in the output window's buffer. -/
def out1_C_6 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) : Vec F S8x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- At the last position the piece stored into the accumulator covers it. -/
theorem scover1_C_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S8x128.size (by sl_kernel_rfl) y

/-- What the last position leaves in the accumulator. -/
def sout1_C_0 (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) : Vec F S8x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## The accumulation over the grid positions -/

/-- What the output window's buffer and the accumulator hold after the body at position `n`: the first position
    runs on an accumulator at anything; every later one on what the position before left; the last position alone
    stores into the output window's buffer. -/
def outsAt1 (c : Dev nD) : (n : ℕ) → n < cfg1.N → Vec F S8x128 .f32 × Vec F S8x128 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr rfl) (fun h => absurd ((hcond1_1 ⟨0, hn⟩).mp h) (by omega : ¬(0 : ℕ) = 19)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : n + 1 = 19 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
    else
      (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At the first position. -/
theorem outsAt1_A (c : Dev nD) (t : Fin cfg1.N) (h0 : t.val = 0) :
    outsAt1 V c t.val t.isLt = (idleOut1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

/-- At a middle position: over what the position before left in the accumulator. -/
theorem outsAt1_B (c : Dev nD) (t : Fin cfg1.N) (h0 : ¬t.val = 0) (h1 : ¬t.val = 19) :
    outsAt1 V c t.val t.isLt = (idleOut1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last position: over what the position before left in the accumulator. -/
theorem outsAt1_C (c : Dev nD) (t : Fin cfg1.N) (h0 : ¬t.val = 0) (h1 : t.val = 19) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- The invariant before position `n`: before the first, what the launch hands the region (the accumulator at
    anything); afterwards the other scoped buffers at anything, the accumulator at what position `n - 1` left in it,
    and the generator register at some state. -/
def PhiS1 (c : Dev nD) : (n : ℕ) → n ≤ cfg1.N → sProp 𝕄
  | 0, _ => Pipeline.ΦA spec1 c
  | n + 1, hn => iprop(restWith (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(restWith (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a position each input's buffer at its block and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at position `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any position. The inputs' buffers hold their blocks; the closed forms of the two conditions say
    which case the position is in; the invariant hands the body the accumulator (at anything at the first position,
    at what the position before left otherwise) and takes it back at this position's contents, since the pieces
    stored cover it; where the output window is idle its buffer comes back as found, and at the last position it
    holds the stored piece, which covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · have h1 : ¬t.val = 19 := by omega
    rw [Dat.leavesExact_idle (dat1 V c) 6 t (idleAt1_6 t (fun h => h1 ((hcond1_1 t).mp h))) (noFlush1_6 t (fun h => h1 ((hcond1_1 t).mp h)))]
    rw [outsAt1_A V c t h0]
    unfold sout1_A_0; (try dsimp only)
    rw [PhiS1_castSucc V c t, PhiS1_zero V c _ _ h0, PhiA1_eq]
    unfold restWith
    iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [R0 R1 R2 R3 R4 R5 R6 R7 R8 R9 HS0 Hg]
    · isplitl [R0 R1 R2 R3 R4 R5 R6 R7 R8 R9 HS0]
      · iframe R0 R1 R2 R3 R4 R5 R6 R7 R8 R9
        unfold owns; iexists _; isplitr
        swap; · iexact HS0
        ipureintro; exact View.read_writes_of_cover _ _ _ _ _ (scover1_A_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 19
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      rw [PhiS1_castSucc V c t, PhiS1_pos V c _ _ h0]
      unfold restWith
      iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [R0 R1 R2 R3 R4 R5 R6 R7 R8 R9 HS0 Hg]
      · isplitl [R0 R1 R2 R3 R4 R5 R6 R7 R8 R9 HS0]
        · iframe R0 R1 R2 R3 R4 R5 R6 R7 R8 R9
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      rw [PhiS1_castSucc V c t, PhiS1_pos V c _ _ h0]
      unfold restWith
      iintro ⟨⟨⟨R0, R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R0 R1 R2 R3 R4 R5 R6 R7 R8 R9 HS0 Hg]
      · isplitl [R0 R1 R2 R3 R4 R5 R6 R7 R8 R9 HS0]
        · iframe R0 R1 R2 R3 R4 R5 R6 R7 R8 R9
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  have hforget : (owns (c : Thread nD τ) scM1_0 fullShare ((outsAt1 V c (t.val - 1) (by omega)).2) : sProp 𝕄)
      ⊢ iprop(∃ d, owns (c : Thread nD τ) scM1_0 fullShare d) := by
    iintro HS0; iexists _; iexact HS0
  have hmono := restWith_mono (F := F) c _ _ hforget
  iintro ⟨HR, Hg⟩
  isplitl [HR]
  · iapply hmono; iexact HR
  iexact Hg

/-- The same after the last position. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.KI.Run.lean ====
import proofs.«157275_g83597243449447_cont_9to1_m_596_53_alg».proof.Proof.KI.Region0
import proofs.«157275_g83597243449447_cont_9to1_m_596_53_alg».proof.Proof.KI.Region1
import proofs.«157275_g83597243449447_cont_9to1_m_596_53_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is: a stretch of host operations (the degree histograms, the stacked inputs), the first kernel region, five
stretches of host operations (the two row gathers and scatter-adds, the stacked aggregate, the reshaped biases), the
second kernel region, and a last stretch (the scalar picked out of the result tile). The contents of core `c`'s
buffers at each boundary are a fold from the launch memory: a stretch applies its operations; a region leaves its
windows' arrays at what its write-backs fold to and every other buffer as it found it. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps2 (W8 m ρ c)

/-! ### No stretch writes an argument array and no region's window that is written back is one -/

theorem W9_main_arg0 (c : Dev nD) : W9 m ρ c (Proc.devRef .tc main_arg0) = m ((c : Thread nD τ).loc main_arg0) :=
  (StableHlo.after_of_writes_sub hostOps2 _ hostOps2_writes (by decide : main_arg0 ∉ hostOps2_W)).trans <|
  (W8_of_ne m ρ c main_arg0 (by decide)).trans <|
  (StableHlo.after_of_writes_sub hostOps1_4 _ hostOps1_4_writes (by decide : main_arg0 ∉ hostOps1_4_W)).trans <|
  (StableHlo.after_of_writes_sub hostOps1_3 _ hostOps1_3_writes (by decide : main_arg0 ∉ hostOps1_3_W)).trans <|
  (StableHlo.after_of_writes_sub hostOps1_2 _ hostOps1_2_writes (by decide : main_arg0 ∉ hostOps1_2_W)).trans <|
  (StableHlo.after_of_writes_sub hostOps1_1 _ hostOps1_1_writes (by decide : main_arg0 ∉ hostOps1_1_W)).trans <|
  (StableHlo.after_of_writes_sub hostOps1 _ hostOps1_writes (by decide : main_arg0 ∉ hostOps1_W)).trans <|
  (W2_of_ne m ρ c main_arg0 (by decide)).trans <|
  (StableHlo.after_of_writes_sub hostOps0 _ hostOps0_writes (by decide : main_arg0 ∉ hostOps0_W)).trans rfl

theorem W9_main_arg1 (c : Dev nD) : W9 m ρ c (Proc.devRef .tc main_arg1) = m ((c : Thread nD τ).loc main_arg1) :=
  (StableHlo.after_of_writes_sub hostOps2 _ hostOps2_writes (by decide : main_arg1 ∉ hostOps2_W)).trans <|
  (W8_of_ne m ρ c main_arg1 (by decide)).trans <|
  (StableHlo.after_of_writes_sub hostOps1_4 _ hostOps1_4_writes (by decide : main_arg1 ∉ hostOps1_4_W)).trans <|
  (StableHlo.after_of_writes_sub hostOps1_3 _ hostOps1_3_writes (by decide : main_arg1 ∉ hostOps1_3_W)).trans <|
  (StableHlo.after_of_writes_sub hostOps1_2 _ hostOps1_2_writes (by decide : main_arg1 ∉ hostOps1_2_W)).trans <|
  (StableHlo.after_of_writes_sub hostOps1_1 _ hostOps1_1_writes (by decide : main_arg1 ∉ hostOps1_1_W)).trans <|
  (StableHlo.after_of_writes_sub hostOps1 _ hostOps1_writes (by decide : main_arg1 ∉ hostOps1_W)).trans <|
  (W2_of_ne m ρ c main_arg1 (by decide)).trans <|
  (StableHlo.after_of_writes_sub hostOps0 _ hostOps0_writes (by decide : main_arg1 ∉ hostOps0_W)).trans rfl

theorem W9_main_arg2 (c : Dev nD) : W9 m ρ c (Proc.devRef .tc main_arg2) = m ((c : Thread nD τ).loc main_arg2) :=
  (StableHlo.after_of_writes_sub hostOps2 _ hostOps2_writes (by decide : main_arg2 ∉ hostOps2_W)).trans <|
  (W8_of_ne m ρ c main_arg2 (by decide)).trans <|
  (StableHlo.after_of_writes_sub hostOps1_4 _ hostOps1_4_writes (by decide : main_arg2 ∉ hostOps1_4_W)).trans <|
  (StableHlo.after_of_writes_sub hostOps1_3 _ hostOps1_3_writes (by decide : main_arg2 ∉ hostOps1_3_W)).trans <|
  (StableHlo.after_of_writes_sub hostOps1_2 _ hostOps1_2_writes (by decide : main_arg2 ∉ hostOps1_2_W)).trans <|
  (StableHlo.after_of_writes_sub hostOps1_1 _ hostOps1_1_writes (by decide : main_arg2 ∉ hostOps1_1_W)).trans <|
  (StableHlo.after_of_writes_sub hostOps1 _ hostOps1_writes (by decide : main_arg2 ∉ hostOps1_W)).trans <|
  (W2_of_ne m ρ c main_arg2 (by decide)).trans <|
  (StableHlo.after_of_writes_sub hostOps0 _ hostOps0_writes (by decide : main_arg2 ∉ hostOps0_W)).trans rfl

theorem W9_main_arg3 (c : Dev nD) : W9 m ρ c (Proc.devRef .tc main_arg3) = m ((c : Thread nD τ).loc main_arg3) :=
  (StableHlo.after_of_writes_sub hostOps2 _ hostOps2_writes (by decide : main_arg3 ∉ hostOps2_W)).trans <|
  (W8_of_ne m ρ c main_arg3 (by decide)).trans <|
  (StableHlo.after_of_writes_sub hostOps1_4 _ hostOps1_4_writes (by decide : main_arg3 ∉ hostOps1_4_W)).trans <|
  (StableHlo.after_of_writes_sub hostOps1_3 _ hostOps1_3_writes (by decide : main_arg3 ∉ hostOps1_3_W)).trans <|
  (StableHlo.after_of_writes_sub hostOps1_2 _ hostOps1_2_writes (by decide : main_arg3 ∉ hostOps1_2_W)).trans <|
  (StableHlo.after_of_writes_sub hostOps1_1 _ hostOps1_1_writes (by decide : main_arg3 ∉ hostOps1_1_W)).trans <|
  (StableHlo.after_of_writes_sub hostOps1 _ hostOps1_writes (by decide : main_arg3 ∉ hostOps1_W)).trans <|
  (W2_of_ne m ρ c main_arg3 (by decide)).trans <|
  (StableHlo.after_of_writes_sub hostOps0 _ hostOps0_writes (by decide : main_arg3 ∉ hostOps0_W)).trans rfl

theorem W9_main_arg4 (c : Dev nD) : W9 m ρ c (Proc.devRef .tc main_arg4) = m ((c : Thread nD τ).loc main_arg4) :=
  (StableHlo.after_of_writes_sub hostOps2 _ hostOps2_writes (by decide : main_arg4 ∉ hostOps2_W)).trans <|
  ((W8_arr m ρ c 2).trans (((dat1 (V7 m ρ) c).arrAt_in 2 rfl _).trans (A_eq1 (V7 m ρ) c 2))).trans <|
  (StableHlo.after_of_writes_sub hostOps1_4 _ hostOps1_4_writes (by decide : main_arg4 ∉ hostOps1_4_W)).trans <|
  (StableHlo.after_of_writes_sub hostOps1_3 _ hostOps1_3_writes (by decide : main_arg4 ∉ hostOps1_3_W)).trans <|
  (StableHlo.after_of_writes_sub hostOps1_2 _ hostOps1_2_writes (by decide : main_arg4 ∉ hostOps1_2_W)).trans <|
  (StableHlo.after_of_writes_sub hostOps1_1 _ hostOps1_1_writes (by decide : main_arg4 ∉ hostOps1_1_W)).trans <|
  (StableHlo.after_of_writes_sub hostOps1 _ hostOps1_writes (by decide : main_arg4 ∉ hostOps1_W)).trans <|
  (W2_of_ne m ρ c main_arg4 (by decide)).trans <|
  (StableHlo.after_of_writes_sub hostOps0 _ hostOps0_writes (by decide : main_arg4 ∉ hostOps0_W)).trans rfl

theorem W9_main_arg5 (c : Dev nD) : W9 m ρ c (Proc.devRef .tc main_arg5) = m ((c : Thread nD τ).loc main_arg5) :=
  (StableHlo.after_of_writes_sub hostOps2 _ hostOps2_writes (by decide : main_arg5 ∉ hostOps2_W)).trans <|
  (W8_of_ne m ρ c main_arg5 (by decide)).trans <|
  (StableHlo.after_of_writes_sub hostOps1_4 _ hostOps1_4_writes (by decide : main_arg5 ∉ hostOps1_4_W)).trans <|
  (StableHlo.after_of_writes_sub hostOps1_3 _ hostOps1_3_writes (by decide : main_arg5 ∉ hostOps1_3_W)).trans <|
  (StableHlo.after_of_writes_sub hostOps1_2 _ hostOps1_2_writes (by decide : main_arg5 ∉ hostOps1_2_W)).trans <|
  (StableHlo.after_of_writes_sub hostOps1_1 _ hostOps1_1_writes (by decide : main_arg5 ∉ hostOps1_1_W)).trans <|
  (StableHlo.after_of_writes_sub hostOps1 _ hostOps1_writes (by decide : main_arg5 ∉ hostOps1_W)).trans <|
  (W2_of_ne m ρ c main_arg5 (by decide)).trans <|
  (StableHlo.after_of_writes_sub hostOps0 _ hostOps0_writes (by decide : main_arg5 ∉ hostOps0_W)).trans rfl

theorem W9_main_arg6 (c : Dev nD) : W9 m ρ c (Proc.devRef .tc main_arg6) = m ((c : Thread nD τ).loc main_arg6) :=
  (StableHlo.after_of_writes_sub hostOps2 _ hostOps2_writes (by decide : main_arg6 ∉ hostOps2_W)).trans <|
  ((W8_arr m ρ c 4).trans (((dat1 (V7 m ρ) c).arrAt_in 4 rfl _).trans (A_eq1 (V7 m ρ) c 4))).trans <|
  (StableHlo.after_of_writes_sub hostOps1_4 _ hostOps1_4_writes (by decide : main_arg6 ∉ hostOps1_4_W)).trans <|
  (StableHlo.after_of_writes_sub hostOps1_3 _ hostOps1_3_writes (by decide : main_arg6 ∉ hostOps1_3_W)).trans <|
  (StableHlo.after_of_writes_sub hostOps1_2 _ hostOps1_2_writes (by decide : main_arg6 ∉ hostOps1_2_W)).trans <|
  (StableHlo.after_of_writes_sub hostOps1_1 _ hostOps1_1_writes (by decide : main_arg6 ∉ hostOps1_1_W)).trans <|
  (StableHlo.after_of_writes_sub hostOps1 _ hostOps1_writes (by decide : main_arg6 ∉ hostOps1_W)).trans <|
  (W2_of_ne m ρ c main_arg6 (by decide)).trans <|
  (StableHlo.after_of_writes_sub hostOps0 _ hostOps0_writes (by decide : main_arg6 ∉ hostOps0_W)).trans rfl

theorem W9_main_arg7 (c : Dev nD) : W9 m ρ c (Proc.devRef .tc main_arg7) = m ((c : Thread nD τ).loc main_arg7) :=
  (StableHlo.after_of_writes_sub hostOps2 _ hostOps2_writes (by decide : main_arg7 ∉ hostOps2_W)).trans <|
  (W8_of_ne m ρ c main_arg7 (by decide)).trans <|
  (StableHlo.after_of_writes_sub hostOps1_4 _ hostOps1_4_writes (by decide : main_arg7 ∉ hostOps1_4_W)).trans <|
  (StableHlo.after_of_writes_sub hostOps1_3 _ hostOps1_3_writes (by decide : main_arg7 ∉ hostOps1_3_W)).trans <|
  (StableHlo.after_of_writes_sub hostOps1_2 _ hostOps1_2_writes (by decide : main_arg7 ∉ hostOps1_2_W)).trans <|
  (StableHlo.after_of_writes_sub hostOps1_1 _ hostOps1_1_writes (by decide : main_arg7 ∉ hostOps1_1_W)).trans <|
  (StableHlo.after_of_writes_sub hostOps1 _ hostOps1_writes (by decide : main_arg7 ∉ hostOps1_W)).trans <|
  (W2_of_ne m ρ c main_arg7 (by decide)).trans <|
  (StableHlo.after_of_writes_sub hostOps0 _ hostOps0_writes (by decide : main_arg7 ∉ hostOps0_W)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from by
      unfold Pipeline.ΦA
      iintro ⟨Hp, -, Hr⟩
      isplitl [Hr]; · iexact Hr
      iexact Hp).trans ?_
    exact (show Pipeline.ΦA spec0 c ⊢ (pdats m ρ 0 c).Φ 0 from .rfl)
  hout c := by
    rw [Pipeline.ownSems0_none]
    refine (show (pdats m ρ 0 c).Φ (Fin.last _) ⊢ Pipeline.ΦA spec0 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from by
      unfold Pipeline.ΦA
      iintro ⟨Hp, -, Hr⟩
      isplitl [Hr]; · iexact Hr
      iexact Hp).trans ?_
    exact hin1 (V7 m ρ) c
  hout c := by
    rw [Pipeline.ownSems0_none]
    refine (show (pdats m ρ 1 c).Φ (Fin.last _) ⊢ Pipeline.ΦA spec1 c from hout1 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in
    every final memory each unscoped buffer of core `c` holds the last boundary's contents `W9 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all m ρ)

end Cert.KernelIdeal.Hand

end
-- ==== Proof.Ref.OpsList.lean ====
/-
  The reference program's @main as lists of its 228 host operations, the calls of its module-local functions written out at the
  call sites over each call's own buffers, cut into stretches that follow the computation; beside each stretch the buffers it
  writes. A table of the program's text: nothing is proved here.
-/
import proofs.«157275_g83597243449447_cont_9to1_m_596_53_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge table's two rows as vectors: the source-node and destination-node index of every edge. (Graph 1.) -/
def b1_idx : List (HloOp τ sig (Elt F)) :=
  [ StableHlo.unary main_arg0 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg0 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000 ]
/-- The buffers `b1_idx` writes. -/
abbrev b1_idx_W : List (Ref sig .tc) := [main_v0, main_v1, main_v2, main_v3]

/-- The two degree histograms: a vector of ones scattered (added) into zeros at the source indices, and at the destination indices. (Graph 1.) -/
def b1_deg : List (HloOp τ sig (Elt F)) :=
  [ StableHlo.nullary main_cst (constant S_ .f32 0x3F800000#32),
    StableHlo.unary main_cst main_v4 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v5 (broadcastInDim S10000 ![] bcast_S_S10000 : (⟨S_, .f32⟩ : BufTy).Contents (Elt F) → (⟨S10000, .f32⟩ : BufTy).Contents (Elt F)),
    StableHlo.unary main_v1 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_1 (constant S_ .f32 0x00000000#32),
    StableHlo.unary main_cst_1 main_v8 (broadcastInDim S10000 ![] bcast_S_S10000 : (⟨S_, .f32⟩ : BufTy).Contents (Elt F) → (⟨S10000, .f32⟩ : BufTy).Contents (Elt F)),
    StableHlo.unary main_v3 main_v9 (broadcastInDim S320000x1 ![0] bcast_S320000_S320000x1_0 : (⟨S320000, .i32⟩ : BufTy).Contents (Elt F) → (⟨S320000x1, .i32⟩ : BufTy).Contents (Elt F)),
    StableHlo.ternary main_v8 main_v9 main_v4 main_v10 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ]
/-- The buffers `b1_deg` writes. -/
abbrev b1_deg_W : List (Ref sig .tc) := [main_cst, main_v4, main_cst_0, main_v5, main_v6, main_v7, main_cst_1, main_v8, main_v9, main_v10]

/-- The source-side normalisation: where the out-degree is positive, the reciprocal square root of max(degree, 1); zero elsewhere. (Graph 1.) -/
def b1_nsrc : List (HloOp τ sig (Elt F)) :=
  [ StableHlo.nullary main_cst_2 (constant S_ .f32 0x00000000#32),
    StableHlo.unary main_cst_2 main_v11 (broadcastInDim S10000 ![] bcast_S_S10000 : (⟨S_, .f32⟩ : BufTy).Contents (Elt F) → (⟨S10000, .f32⟩ : BufTy).Contents (Elt F)),
    StableHlo.binary main_v7 main_v11 main_v12 (cmpf .ogt : (⟨S10000, .f32⟩ : BufTy).Contents (Elt F) → (⟨S10000, .f32⟩ : BufTy).Contents (Elt F) → (⟨S10000, .i1⟩ : BufTy).Contents (Elt F)),
    StableHlo.nullary main_cst_3 (constant S_ .f32 0x3F800000#32),
    StableHlo.unary main_cst_3 main_v13 (broadcastInDim S10000 ![] bcast_S_S10000 : (⟨S_, .f32⟩ : BufTy).Contents (Elt F) → (⟨S10000, .f32⟩ : BufTy).Contents (Elt F)),
    StableHlo.binary main_v7 main_v13 main_v14 (maximumf : (⟨S10000, .f32⟩ : BufTy).Contents (Elt F) → (⟨S10000, .f32⟩ : BufTy).Contents (Elt F) → (⟨S10000, .f32⟩ : BufTy).Contents (Elt F)),
    StableHlo.unary main_v14 main_v15 (Host.rsqrt : (⟨S10000, .f32⟩ : BufTy).Contents (Elt F) → (⟨S10000, .f32⟩ : BufTy).Contents (Elt F)),
    StableHlo.nullary main_cst_4 (constant S_ .f32 0x00000000#32),
    StableHlo.TRef.unary (.of main_cst_4 : StableHlo.TRef sig ⟨S_, .f32⟩) main_call0.v0 id,
    StableHlo.TRef.unary main_call0.v0 main_call0.v1 (broadcastInDim S10000 ![] bcast_S_S10000),
    StableHlo.TRef.ternary (.of main_v12 : StableHlo.TRef sig ⟨S10000, .i1⟩) (.of main_v15 : StableHlo.TRef sig ⟨S10000, .f32⟩) main_call0.v1 main_call0.v2 select ]
/-- The buffers `b1_nsrc` writes. -/
abbrev b1_nsrc_W : List (Ref sig .tc) := [main_cst_2, main_v11, main_v12, main_cst_3, main_v13, main_v14, main_v15, main_cst_4, main_call0_v0, main_call0_v1, main_v16]

/-- The destination-side normalisation, the same function of the in-degree. (Graph 1.) -/
def b1_ndst : List (HloOp τ sig (Elt F)) :=
  [ StableHlo.nullary main_cst_5 (constant S_ .f32 0x00000000#32),
    StableHlo.unary main_cst_5 main_v17 (broadcastInDim S10000 ![] bcast_S_S10000 : (⟨S_, .f32⟩ : BufTy).Contents (Elt F) → (⟨S10000, .f32⟩ : BufTy).Contents (Elt F)),
    StableHlo.binary main_v10 main_v17 main_v18 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v19 (broadcastInDim S10000 ![] bcast_S_S10000 : (⟨S_, .f32⟩ : BufTy).Contents (Elt F) → (⟨S10000, .f32⟩ : BufTy).Contents (Elt F)),
    StableHlo.binary main_v10 main_v19 main_v20 (maximumf : (⟨S10000, .f32⟩ : BufTy).Contents (Elt F) → (⟨S10000, .f32⟩ : BufTy).Contents (Elt F) → (⟨S10000, .f32⟩ : BufTy).Contents (Elt F)),
    StableHlo.unary main_v20 main_v21 (Host.rsqrt : (⟨S10000, .f32⟩ : BufTy).Contents (Elt F) → (⟨S10000, .f32⟩ : BufTy).Contents (Elt F)),
    StableHlo.nullary main_cst_7 (constant S_ .f32 0x00000000#32),
    StableHlo.TRef.unary (.of main_cst_7 : StableHlo.TRef sig ⟨S_, .f32⟩) main_call1.v0 id,
    StableHlo.TRef.unary main_call1.v0 main_call1.v1 (broadcastInDim S10000 ![] bcast_S_S10000),
    StableHlo.TRef.ternary (.of main_v18 : StableHlo.TRef sig ⟨S10000, .i1⟩) (.of main_v21 : StableHlo.TRef sig ⟨S10000, .f32⟩) main_call1.v1 main_call1.v2 select ]
/-- The buffers `b1_ndst` writes. -/
abbrev b1_ndst_W : List (Ref sig .tc) := [main_cst_5, main_v17, main_v18, main_cst_6, main_v19, main_v20, main_v21, main_cst_7, main_call1_v0, main_call1_v1, main_v22]

/-- The features with each node's row scaled by its source-side normalisation. (Graph 1.) -/
def b1_h : List (HloOp τ sig (Elt F)) :=
  [ StableHlo.unary main_v16 main_v23 (broadcastInDim S10000x1 ![0] bcast_S10000_S10000x1_0 : (⟨S10000, .f32⟩ : BufTy).Contents (Elt F) → (⟨S10000x1, .f32⟩ : BufTy).Contents (Elt F)),
    StableHlo.unary main_v23 main_v24 (broadcastInDim S10000x128 ![0, 1] bcast_S10000x1_S10000x128_0_1 : (⟨S10000x1, .f32⟩ : BufTy).Contents (Elt F) → (⟨S10000x128, .f32⟩ : BufTy).Contents (Elt F)),
    StableHlo.binary main_arg2 main_v24 main_v25 (mulf : (⟨S10000x128, .f32⟩ : BufTy).Contents (Elt F) → (⟨S10000x128, .f32⟩ : BufTy).Contents (Elt F) → (⟨S10000x128, .f32⟩ : BufTy).Contents (Elt F)) ]
/-- The buffers `b1_h` writes. -/
abbrev b1_h_W : List (Ref sig .tc) := [main_v23, main_v24, main_v25]

/-- The gather of one feature row per edge (by source index): negative indices wrapped, rows outside the table replaced by the fill value. (Graph 1.) -/
def b1_take : List (HloOp τ sig (Elt F)) :=
  [ StableHlo.TRef.nullary main_call2.c (constantI S_ 32 0#32),
    StableHlo.TRef.unary main_call2.c main_call2.v0 (broadcastInDim S320000 ![] bcast_S_S320000),
    StableHlo.TRef.binary (.of main_v1 : StableHlo.TRef sig ⟨S320000, .i32⟩) main_call2.v0 main_call2.v1 (cmpi .slt),
    StableHlo.TRef.nullary main_call2.c_0 (constantI S_ 32 10000#32),
    StableHlo.TRef.unary main_call2.c_0 main_call2.v2 (broadcastInDim S320000 ![] bcast_S_S320000),
    StableHlo.TRef.binary (.of main_v1 : StableHlo.TRef sig ⟨S320000, .i32⟩) main_call2.v2 main_call2.v3 addi,
    StableHlo.TRef.ternary main_call2.v1 main_call2.v3 (.of main_v1 : StableHlo.TRef sig ⟨S320000, .i32⟩) main_call2.call0.v0 select,
    StableHlo.TRef.unary main_call2.call0.v0 main_call2.v5 (broadcastInDim S320000x1 ![0] bcast_S320000_S320000x1_0),
    StableHlo.TRef.nullary main_call2.c_1 (constantI S1 32 9999#32),
    StableHlo.TRef.nullary main_call2.c_2 (constantI S_ 32 0#32),
    StableHlo.TRef.unary main_call2.c_2 main_call2.v6 (broadcastInDim S320000x1 ![] bcast_S_S320000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S320000x1 ![0, 1] bcast_S1x1_S320000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S320000x1_S320000_d1 h_S_),
    StableHlo.TRef.binary (.of main_v25 : StableHlo.TRef sig ⟨S10000x128, .f32⟩) main_call2.v5 main_call2.v13 (fun x i => Host.gather gather_S10000x128_S320000x1_S320000x128_1_0_n_n_0_1_1128 x i),
    StableHlo.TRef.unary main_call2.v12 main_call2.v14 (broadcastInDim S320000x128 ![0] bcast_S320000_S320000x128_0),
    StableHlo.TRef.nullary main_call2.cst (constant S_ .f32 0x7FC00000#32),
    StableHlo.TRef.unary main_call2.cst main_call2.v15 (broadcastInDim S320000x128 ![] bcast_S_S320000x128),
    StableHlo.TRef.ternary main_call2.v14 main_call2.v13 main_call2.v15 main_call2.v16 select ]
/-- The buffers `b1_take` writes. -/
abbrev b1_take_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v26]

/-- The zero matrix the messages are accumulated into. (Graph 1.) -/
def b1_aggA : List (HloOp τ sig (Elt F)) :=
  [ StableHlo.nullary main_cst_8 (constant S_ .f32 0x00000000#32),
    StableHlo.unary main_cst_8 main_v27 (broadcastInDim S10000x128 ![] bcast_S_S10000x128 : (⟨S_, .f32⟩ : BufTy).Contents (Elt F) → (⟨S10000x128, .f32⟩ : BufTy).Contents (Elt F)) ]
/-- The buffers `b1_aggA` writes. -/
abbrev b1_aggA_W : List (Ref sig .tc) := [main_cst_8, main_v27]

/-- The messages added into the zero matrix at the (wrapped) destination indices. (Graph 1.) -/
def b1_aggB : List (HloOp τ sig (Elt F)) :=
  [ StableHlo.nullary main_c (constantI S_ 32 0#32),
    StableHlo.unary main_c main_v28 (broadcastInDim S320000 ![] bcast_S_S320000 : (⟨S_, .i32⟩ : BufTy).Contents (Elt F) → (⟨S320000, .i32⟩ : BufTy).Contents (Elt F)),
    StableHlo.binary main_v3 main_v28 main_v29 (cmpi .slt : (⟨S320000, .i32⟩ : BufTy).Contents (Elt F) → (⟨S320000, .i32⟩ : BufTy).Contents (Elt F) → (⟨S320000, .i1⟩ : BufTy).Contents (Elt F)),
    StableHlo.nullary main_c_9 (constantI S_ 32 10000#32),
    StableHlo.unary main_c_9 main_v30 (broadcastInDim S320000 ![] bcast_S_S320000 : (⟨S_, .i32⟩ : BufTy).Contents (Elt F) → (⟨S320000, .i32⟩ : BufTy).Contents (Elt F)),
    StableHlo.binary main_v3 main_v30 main_v31 (addi : (⟨S320000, .i32⟩ : BufTy).Contents (Elt F) → (⟨S320000, .i32⟩ : BufTy).Contents (Elt F) → (⟨S320000, .i32⟩ : BufTy).Contents (Elt F)),
    StableHlo.ternary main_v29 main_v31 main_v3 main_v32 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v32 main_v33 (broadcastInDim S320000x1 ![0] bcast_S320000_S320000x1_0 : (⟨S320000, .i32⟩ : BufTy).Contents (Elt F) → (⟨S320000x1, .i32⟩ : BufTy).Contents (Elt F)),
    StableHlo.ternary main_v27 main_v33 main_v26 main_v34 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) ]
/-- The buffers `b1_aggB` writes. -/
abbrev b1_aggB_W : List (Ref sig .tc) := [main_c, main_v28, main_v29, main_c_9, main_v30, main_v31, main_v32, main_v33, main_v34]

/-- The aggregate scaled by the destination-side normalisation, times the weight matrix, plus the bias row. (Graph 1.) -/
def b1_dense : List (HloOp τ sig (Elt F)) :=
  [ StableHlo.unary main_v22 main_v35 (broadcastInDim S10000x1 ![0] bcast_S10000_S10000x1_0 : (⟨S10000, .f32⟩ : BufTy).Contents (Elt F) → (⟨S10000x1, .f32⟩ : BufTy).Contents (Elt F)),
    StableHlo.unary main_v35 main_v36 (broadcastInDim S10000x128 ![0, 1] bcast_S10000x1_S10000x128_0_1 : (⟨S10000x1, .f32⟩ : BufTy).Contents (Elt F) → (⟨S10000x128, .f32⟩ : BufTy).Contents (Elt F)),
    StableHlo.binary main_v34 main_v36 main_v37 (mulf : (⟨S10000x128, .f32⟩ : BufTy).Contents (Elt F) → (⟨S10000x128, .f32⟩ : BufTy).Contents (Elt F) → (⟨S10000x128, .f32⟩ : BufTy).Contents (Elt F)),
    StableHlo.binary main_v37 main_arg4 main_v38 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S10000x128 ![0, 1] bcast_S1x128_S10000x128_0_1 : (⟨S1x128, .f32⟩ : BufTy).Contents (Elt F) → (⟨S10000x128, .f32⟩ : BufTy).Contents (Elt F)),
    StableHlo.binary main_v38 main_v40 main_v41 (addf : (⟨S10000x128, .f32⟩ : BufTy).Contents (Elt F) → (⟨S10000x128, .f32⟩ : BufTy).Contents (Elt F) → (⟨S10000x128, .f32⟩ : BufTy).Contents (Elt F)) ]
/-- The buffers `b1_dense` writes. -/
abbrev b1_dense_W : List (Ref sig .tc) := [main_v35, main_v36, main_v37, main_v38, main_v39, main_v40, main_v41]

/-- Each row's Euclidean norm, kept as a column: the square root of the row sum of squares; and the small constant it is compared with. (Graph 1.) -/
def b1_rnA : List (HloOp τ sig (Elt F)) :=
  [ StableHlo.binary main_v41 main_v41 main_v42 (mulf : (⟨S10000x128, .f32⟩ : BufTy).Contents (Elt F) → (⟨S10000x128, .f32⟩ : BufTy).Contents (Elt F) → (⟨S10000x128, .f32⟩ : BufTy).Contents (Elt F)),
    StableHlo.nullary main_cst_10 (constant S_ .f32 0x00000000#32),
    StableHlo.binary main_v42 main_cst_10 main_v43 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v43 main_v44 (broadcastInDim S10000x1 ![0] bcast_S10000_S10000x1_0 : (⟨S10000, .f32⟩ : BufTy).Contents (Elt F) → (⟨S10000x1, .f32⟩ : BufTy).Contents (Elt F)),
    StableHlo.unary main_v44 main_v45 (Host.sqrt : (⟨S10000x1, .f32⟩ : BufTy).Contents (Elt F) → (⟨S10000x1, .f32⟩ : BufTy).Contents (Elt F)),
    StableHlo.nullary main_cst_11 (constant S_ .f32 0x2B8CBCCC#32) ]
/-- The buffers `b1_rnA` writes. -/
abbrev b1_rnA_W : List (Ref sig .tc) := [main_v42, main_cst_10, main_v43, main_v44, main_v45, main_cst_11]

/-- Each row divided by the larger of its norm and the small constant. (Graph 1.) -/
def b1_rnB : List (HloOp τ sig (Elt F)) :=
  [ StableHlo.unary main_cst_11 main_v46 (broadcastInDim S10000x1 ![] bcast_S_S10000x1 : (⟨S_, .f32⟩ : BufTy).Contents (Elt F) → (⟨S10000x1, .f32⟩ : BufTy).Contents (Elt F)),
    StableHlo.binary main_v45 main_v46 main_v47 (maximumf : (⟨S10000x1, .f32⟩ : BufTy).Contents (Elt F) → (⟨S10000x1, .f32⟩ : BufTy).Contents (Elt F) → (⟨S10000x1, .f32⟩ : BufTy).Contents (Elt F)),
    StableHlo.unary main_v47 main_v48 (broadcastInDim S10000x128 ![0, 1] bcast_S10000x1_S10000x128_0_1 : (⟨S10000x1, .f32⟩ : BufTy).Contents (Elt F) → (⟨S10000x128, .f32⟩ : BufTy).Contents (Elt F)),
    StableHlo.binary main_v41 main_v48 main_v49 (Host.divf : (⟨S10000x128, .f32⟩ : BufTy).Contents (Elt F) → (⟨S10000x128, .f32⟩ : BufTy).Contents (Elt F) → (⟨S10000x128, .f32⟩ : BufTy).Contents (Elt F)) ]
/-- The buffers `b1_rnB` writes. -/
abbrev b1_rnB_W : List (Ref sig .tc) := [main_v46, main_v47, main_v48, main_v49]

/-- The logistic function as printed: one over (one plus the exponential of the negated value). (Graph 1.) -/
def b1_logistic : List (HloOp τ sig (Elt F)) :=
  [ StableHlo.unary main_v49 main_v50 (Host.negf : (⟨S10000x128, .f32⟩ : BufTy).Contents (Elt F) → (⟨S10000x128, .f32⟩ : BufTy).Contents (Elt F)),
    StableHlo.unary main_v50 main_v51 (Host.exp : (⟨S10000x128, .f32⟩ : BufTy).Contents (Elt F) → (⟨S10000x128, .f32⟩ : BufTy).Contents (Elt F)),
    StableHlo.nullary main_cst_12 (constant S_ .f32 0x3F800000#32),
    StableHlo.unary main_cst_12 main_v52 (broadcastInDim S10000x128 ![] bcast_S_S10000x128 : (⟨S_, .f32⟩ : BufTy).Contents (Elt F) → (⟨S10000x128, .f32⟩ : BufTy).Contents (Elt F)),
    StableHlo.binary main_v52 main_v51 main_v53 (addf : (⟨S10000x128, .f32⟩ : BufTy).Contents (Elt F) → (⟨S10000x128, .f32⟩ : BufTy).Contents (Elt F) → (⟨S10000x128, .f32⟩ : BufTy).Contents (Elt F)),
    StableHlo.nullary main_cst_13 (constant S_ .f32 0x3F800000#32),
    StableHlo.unary main_cst_13 main_v54 (broadcastInDim S10000x128 ![] bcast_S_S10000x128 : (⟨S_, .f32⟩ : BufTy).Contents (Elt F) → (⟨S10000x128, .f32⟩ : BufTy).Contents (Elt F)),
    StableHlo.binary main_v54 main_v53 main_v55 (Host.divf : (⟨S10000x128, .f32⟩ : BufTy).Contents (Elt F) → (⟨S10000x128, .f32⟩ : BufTy).Contents (Elt F) → (⟨S10000x128, .f32⟩ : BufTy).Contents (Elt F)) ]
/-- The buffers `b1_logistic` writes. -/
abbrev b1_logistic_W : List (Ref sig .tc) := [main_v50, main_v51, main_cst_12, main_v52, main_v53, main_cst_13, main_v54, main_v55]

/-- The maximum with zero. (Graph 1.) -/
def b1_relu : List (HloOp τ sig (Elt F)) :=
  [ StableHlo.TRef.nullary main_call3.cst (constant S_ .f32 0x00000000#32),
    StableHlo.TRef.unary main_call3.cst main_call3.v0 (broadcastInDim S10000x128 ![] bcast_S_S10000x128),
    StableHlo.TRef.binary (.of main_v55 : StableHlo.TRef sig ⟨S10000x128, .f32⟩) main_call3.v0 main_call3.v1 maximumf ]
/-- The buffers `b1_relu` writes. -/
abbrev b1_relu_W : List (Ref sig .tc) := [main_call3_cst, main_call3_v0, main_v56]

/-- The column sums over all nodes divided by the node count: the mean row. (Graph 1.) -/
def b1_mean : List (HloOp τ sig (Elt F)) :=
  [ StableHlo.nullary main_cst_14 (constant S_ .f32 0x00000000#32),
    StableHlo.binary main_v56 main_cst_14 main_v57 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.nullary main_cst_15 (constant S_ .f32 0x461C4000#32),
    StableHlo.unary main_cst_15 main_v59 (broadcastInDim S1x128 ![] bcast_S_S1x128 : (⟨S_, .f32⟩ : BufTy).Contents (Elt F) → (⟨S1x128, .f32⟩ : BufTy).Contents (Elt F)),
    StableHlo.binary main_v58 main_v59 main_v60 (Host.divf : (⟨S1x128, .f32⟩ : BufTy).Contents (Elt F) → (⟨S1x128, .f32⟩ : BufTy).Contents (Elt F) → (⟨S1x128, .f32⟩ : BufTy).Contents (Elt F)) ]
/-- The buffers `b1_mean` writes. -/
abbrev b1_mean_W : List (Ref sig .tc) := [main_cst_14, main_v57, main_v58, main_cst_15, main_v59, main_v60]

/-- The classifier: the mean row times the classifier weights, plus the classifier bias. (Graph 1.) -/
def b1_cls : List (HloOp τ sig (Elt F)) :=
  [ StableHlo.binary main_v60 main_arg6 main_v61 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg7 main_v62 (broadcastInDim S1x16 ![1] bcast_S16_S1x16_1 : (⟨S16, .f32⟩ : BufTy).Contents (Elt F) → (⟨S1x16, .f32⟩ : BufTy).Contents (Elt F)),
    StableHlo.binary main_v61 main_v62 main_v63 (addf : (⟨S1x16, .f32⟩ : BufTy).Contents (Elt F) → (⟨S1x16, .f32⟩ : BufTy).Contents (Elt F) → (⟨S1x16, .f32⟩ : BufTy).Contents (Elt F)) ]
/-- The buffers `b1_cls` writes. -/
abbrev b1_cls_W : List (Ref sig .tc) := [main_v61, main_v62, main_v63]

/-- The edge table's two rows as vectors: the source-node and destination-node index of every edge. (Graph 2.) -/
def b2_idx : List (HloOp τ sig (Elt F)) :=
  [ StableHlo.unary main_arg1 main_v64 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v64 main_v65 rfl shapeCasts_S1x320000_S320000,
    StableHlo.unary main_arg1 main_v66 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v66 main_v67 rfl shapeCasts_S1x320000_S320000 ]
/-- The buffers `b2_idx` writes. -/
abbrev b2_idx_W : List (Ref sig .tc) := [main_v64, main_v65, main_v66, main_v67]

/-- The two degree histograms: a vector of ones scattered (added) into zeros at the source indices, and at the destination indices. (Graph 2.) -/
def b2_deg : List (HloOp τ sig (Elt F)) :=
  [ StableHlo.nullary main_cst_16 (constant S_ .f32 0x3F800000#32),
    StableHlo.unary main_cst_16 main_v68 (broadcastInDim S320000 ![] bcast_S_S320000 : (⟨S_, .f32⟩ : BufTy).Contents (Elt F) → (⟨S320000, .f32⟩ : BufTy).Contents (Elt F)),
    StableHlo.nullary main_cst_17 (constant S_ .f32 0x00000000#32),
    StableHlo.unary main_cst_17 main_v69 (broadcastInDim S10000 ![] bcast_S_S10000 : (⟨S_, .f32⟩ : BufTy).Contents (Elt F) → (⟨S10000, .f32⟩ : BufTy).Contents (Elt F)),
    StableHlo.unary main_v65 main_v70 (broadcastInDim S320000x1 ![0] bcast_S320000_S320000x1_0 : (⟨S320000, .i32⟩ : BufTy).Contents (Elt F) → (⟨S320000x1, .i32⟩ : BufTy).Contents (Elt F)),
    StableHlo.ternary main_v69 main_v70 main_v68 main_v71 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_18 (constant S_ .f32 0x00000000#32),
    StableHlo.unary main_cst_18 main_v72 (broadcastInDim S10000 ![] bcast_S_S10000 : (⟨S_, .f32⟩ : BufTy).Contents (Elt F) → (⟨S10000, .f32⟩ : BufTy).Contents (Elt F)),
    StableHlo.unary main_v67 main_v73 (broadcastInDim S320000x1 ![0] bcast_S320000_S320000x1_0 : (⟨S320000, .i32⟩ : BufTy).Contents (Elt F) → (⟨S320000x1, .i32⟩ : BufTy).Contents (Elt F)),
    StableHlo.ternary main_v72 main_v73 main_v68 main_v74 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ]
/-- The buffers `b2_deg` writes. -/
abbrev b2_deg_W : List (Ref sig .tc) := [main_cst_16, main_v68, main_cst_17, main_v69, main_v70, main_v71, main_cst_18, main_v72, main_v73, main_v74]

/-- The source-side normalisation: where the out-degree is positive, the reciprocal square root of max(degree, 1); zero elsewhere. (Graph 2.) -/
def b2_nsrc : List (HloOp τ sig (Elt F)) :=
  [ StableHlo.nullary main_cst_19 (constant S_ .f32 0x00000000#32),
    StableHlo.unary main_cst_19 main_v75 (broadcastInDim S10000 ![] bcast_S_S10000 : (⟨S_, .f32⟩ : BufTy).Contents (Elt F) → (⟨S10000, .f32⟩ : BufTy).Contents (Elt F)),
    StableHlo.binary main_v71 main_v75 main_v76 (cmpf .ogt : (⟨S10000, .f32⟩ : BufTy).Contents (Elt F) → (⟨S10000, .f32⟩ : BufTy).Contents (Elt F) → (⟨S10000, .i1⟩ : BufTy).Contents (Elt F)),
    StableHlo.nullary main_cst_20 (constant S_ .f32 0x3F800000#32),
    StableHlo.unary main_cst_20 main_v77 (broadcastInDim S10000 ![] bcast_S_S10000 : (⟨S_, .f32⟩ : BufTy).Contents (Elt F) → (⟨S10000, .f32⟩ : BufTy).Contents (Elt F)),
    StableHlo.binary main_v71 main_v77 main_v78 (maximumf : (⟨S10000, .f32⟩ : BufTy).Contents (Elt F) → (⟨S10000, .f32⟩ : BufTy).Contents (Elt F) → (⟨S10000, .f32⟩ : BufTy).Contents (Elt F)),
    StableHlo.unary main_v78 main_v79 (Host.rsqrt : (⟨S10000, .f32⟩ : BufTy).Contents (Elt F) → (⟨S10000, .f32⟩ : BufTy).Contents (Elt F)),
    StableHlo.nullary main_cst_21 (constant S_ .f32 0x00000000#32),
    StableHlo.TRef.unary (.of main_cst_21 : StableHlo.TRef sig ⟨S_, .f32⟩) main_call4.v0 id,
    StableHlo.TRef.unary main_call4.v0 main_call4.v1 (broadcastInDim S10000 ![] bcast_S_S10000),
    StableHlo.TRef.ternary (.of main_v76 : StableHlo.TRef sig ⟨S10000, .i1⟩) (.of main_v79 : StableHlo.TRef sig ⟨S10000, .f32⟩) main_call4.v1 main_call4.v2 select ]
/-- The buffers `b2_nsrc` writes. -/
abbrev b2_nsrc_W : List (Ref sig .tc) := [main_cst_19, main_v75, main_v76, main_cst_20, main_v77, main_v78, main_v79, main_cst_21, main_call4_v0, main_call4_v1, main_v80]

/-- The destination-side normalisation, the same function of the in-degree. (Graph 2.) -/
def b2_ndst : List (HloOp τ sig (Elt F)) :=
  [ StableHlo.nullary main_cst_22 (constant S_ .f32 0x00000000#32),
    StableHlo.unary main_cst_22 main_v81 (broadcastInDim S10000 ![] bcast_S_S10000 : (⟨S_, .f32⟩ : BufTy).Contents (Elt F) → (⟨S10000, .f32⟩ : BufTy).Contents (Elt F)),
    StableHlo.binary main_v74 main_v81 main_v82 (cmpf .ogt : (⟨S10000, .f32⟩ : BufTy).Contents (Elt F) → (⟨S10000, .f32⟩ : BufTy).Contents (Elt F) → (⟨S10000, .i1⟩ : BufTy).Contents (Elt F)),
    StableHlo.nullary main_cst_23 (constant S_ .f32 0x3F800000#32),
    StableHlo.unary main_cst_23 main_v83 (broadcastInDim S10000 ![] bcast_S_S10000 : (⟨S_, .f32⟩ : BufTy).Contents (Elt F) → (⟨S10000, .f32⟩ : BufTy).Contents (Elt F)),
    StableHlo.binary main_v74 main_v83 main_v84 (maximumf : (⟨S10000, .f32⟩ : BufTy).Contents (Elt F) → (⟨S10000, .f32⟩ : BufTy).Contents (Elt F) → (⟨S10000, .f32⟩ : BufTy).Contents (Elt F)),
    StableHlo.unary main_v84 main_v85 (Host.rsqrt : (⟨S10000, .f32⟩ : BufTy).Contents (Elt F) → (⟨S10000, .f32⟩ : BufTy).Contents (Elt F)),
    StableHlo.nullary main_cst_24 (constant S_ .f32 0x00000000#32),
    StableHlo.TRef.unary (.of main_cst_24 : StableHlo.TRef sig ⟨S_, .f32⟩) main_call5.v0 id,
    StableHlo.TRef.unary main_call5.v0 main_call5.v1 (broadcastInDim S10000 ![] bcast_S_S10000),
    StableHlo.TRef.ternary (.of main_v82 : StableHlo.TRef sig ⟨S10000, .i1⟩) (.of main_v85 : StableHlo.TRef sig ⟨S10000, .f32⟩) main_call5.v1 main_call5.v2 select ]
/-- The buffers `b2_ndst` writes. -/
abbrev b2_ndst_W : List (Ref sig .tc) := [main_cst_22, main_v81, main_v82, main_cst_23, main_v83, main_v84, main_v85, main_cst_24, main_call5_v0, main_call5_v1, main_v86]

/-- The features with each node's row scaled by its source-side normalisation. (Graph 2.) -/
def b2_h : List (HloOp τ sig (Elt F)) :=
  [ StableHlo.unary main_v80 main_v87 (broadcastInDim S10000x1 ![0] bcast_S10000_S10000x1_0 : (⟨S10000, .f32⟩ : BufTy).Contents (Elt F) → (⟨S10000x1, .f32⟩ : BufTy).Contents (Elt F)),
    StableHlo.unary main_v87 main_v88 (broadcastInDim S10000x128 ![0, 1] bcast_S10000x1_S10000x128_0_1 : (⟨S10000x1, .f32⟩ : BufTy).Contents (Elt F) → (⟨S10000x128, .f32⟩ : BufTy).Contents (Elt F)),
    StableHlo.binary main_arg3 main_v88 main_v89 (mulf : (⟨S10000x128, .f32⟩ : BufTy).Contents (Elt F) → (⟨S10000x128, .f32⟩ : BufTy).Contents (Elt F) → (⟨S10000x128, .f32⟩ : BufTy).Contents (Elt F)) ]
/-- The buffers `b2_h` writes. -/
abbrev b2_h_W : List (Ref sig .tc) := [main_v87, main_v88, main_v89]

/-- The gather of one feature row per edge (by source index): negative indices wrapped, rows outside the table replaced by the fill value. (Graph 2.) -/
def b2_take : List (HloOp τ sig (Elt F)) :=
  [ StableHlo.TRef.nullary main_call6.c (constantI S_ 32 0#32),
    StableHlo.TRef.unary main_call6.c main_call6.v0 (broadcastInDim S320000 ![] bcast_S_S320000),
    StableHlo.TRef.binary (.of main_v65 : StableHlo.TRef sig ⟨S320000, .i32⟩) main_call6.v0 main_call6.v1 (cmpi .slt),
    StableHlo.TRef.nullary main_call6.c_0 (constantI S_ 32 10000#32),
    StableHlo.TRef.unary main_call6.c_0 main_call6.v2 (broadcastInDim S320000 ![] bcast_S_S320000),
    StableHlo.TRef.binary (.of main_v65 : StableHlo.TRef sig ⟨S320000, .i32⟩) main_call6.v2 main_call6.v3 addi,
    StableHlo.TRef.ternary main_call6.v1 main_call6.v3 (.of main_v65 : StableHlo.TRef sig ⟨S320000, .i32⟩) main_call6.call0.v0 select,
    StableHlo.TRef.unary main_call6.call0.v0 main_call6.v5 (broadcastInDim S320000x1 ![0] bcast_S320000_S320000x1_0),
    StableHlo.TRef.nullary main_call6.c_1 (constantI S1 32 9999#32),
    StableHlo.TRef.nullary main_call6.c_2 (constantI S_ 32 0#32),
    StableHlo.TRef.unary main_call6.c_2 main_call6.v6 (broadcastInDim S320000x1 ![] bcast_S_S320000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S320000x1 ![0, 1] bcast_S1x1_S320000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S320000x1_S320000_d1 h_S_),
    StableHlo.TRef.binary (.of main_v89 : StableHlo.TRef sig ⟨S10000x128, .f32⟩) main_call6.v5 main_call6.v13 (fun x i => Host.gather gather_S10000x128_S320000x1_S320000x128_1_0_n_n_0_1_1128 x i),
    StableHlo.TRef.unary main_call6.v12 main_call6.v14 (broadcastInDim S320000x128 ![0] bcast_S320000_S320000x128_0),
    StableHlo.TRef.nullary main_call6.cst (constant S_ .f32 0x7FC00000#32),
    StableHlo.TRef.unary main_call6.cst main_call6.v15 (broadcastInDim S320000x128 ![] bcast_S_S320000x128),
    StableHlo.TRef.ternary main_call6.v14 main_call6.v13 main_call6.v15 main_call6.v16 select ]
/-- The buffers `b2_take` writes. -/
abbrev b2_take_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v90]

/-- The zero matrix the messages are accumulated into. (Graph 2.) -/
def b2_aggA : List (HloOp τ sig (Elt F)) :=
  [ StableHlo.nullary main_cst_25 (constant S_ .f32 0x00000000#32),
    StableHlo.unary main_cst_25 main_v91 (broadcastInDim S10000x128 ![] bcast_S_S10000x128 : (⟨S_, .f32⟩ : BufTy).Contents (Elt F) → (⟨S10000x128, .f32⟩ : BufTy).Contents (Elt F)) ]
/-- The buffers `b2_aggA` writes. -/
abbrev b2_aggA_W : List (Ref sig .tc) := [main_cst_25, main_v91]

/-- The messages added into the zero matrix at the (wrapped) destination indices. (Graph 2.) -/
def b2_aggB : List (HloOp τ sig (Elt F)) :=
  [ StableHlo.nullary main_c_26 (constantI S_ 32 0#32),
    StableHlo.unary main_c_26 main_v92 (broadcastInDim S320000 ![] bcast_S_S320000 : (⟨S_, .i32⟩ : BufTy).Contents (Elt F) → (⟨S320000, .i32⟩ : BufTy).Contents (Elt F)),
    StableHlo.binary main_v67 main_v92 main_v93 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 10000#32),
    StableHlo.unary main_c_27 main_v94 (broadcastInDim S320000 ![] bcast_S_S320000 : (⟨S_, .i32⟩ : BufTy).Contents (Elt F) → (⟨S320000, .i32⟩ : BufTy).Contents (Elt F)),
    StableHlo.binary main_v67 main_v94 main_v95 (addi : (⟨S320000, .i32⟩ : BufTy).Contents (Elt F) → (⟨S320000, .i32⟩ : BufTy).Contents (Elt F) → (⟨S320000, .i32⟩ : BufTy).Contents (Elt F)),
    StableHlo.ternary main_v93 main_v95 main_v67 main_v96 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v96 main_v97 (broadcastInDim S320000x1 ![0] bcast_S320000_S320000x1_0 : (⟨S320000, .i32⟩ : BufTy).Contents (Elt F) → (⟨S320000x1, .i32⟩ : BufTy).Contents (Elt F)),
    StableHlo.ternary main_v91 main_v97 main_v90 main_v98 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) ]
/-- The buffers `b2_aggB` writes. -/
abbrev b2_aggB_W : List (Ref sig .tc) := [main_c_26, main_v92, main_v93, main_c_27, main_v94, main_v95, main_v96, main_v97, main_v98]

/-- The aggregate scaled by the destination-side normalisation, times the weight matrix, plus the bias row. (Graph 2.) -/
def b2_dense : List (HloOp τ sig (Elt F)) :=
  [ StableHlo.unary main_v86 main_v99 (broadcastInDim S10000x1 ![0] bcast_S10000_S10000x1_0 : (⟨S10000, .f32⟩ : BufTy).Contents (Elt F) → (⟨S10000x1, .f32⟩ : BufTy).Contents (Elt F)),
    StableHlo.unary main_v99 main_v100 (broadcastInDim S10000x128 ![0, 1] bcast_S10000x1_S10000x128_0_1 : (⟨S10000x1, .f32⟩ : BufTy).Contents (Elt F) → (⟨S10000x128, .f32⟩ : BufTy).Contents (Elt F)),
    StableHlo.binary main_v98 main_v100 main_v101 (mulf : (⟨S10000x128, .f32⟩ : BufTy).Contents (Elt F) → (⟨S10000x128, .f32⟩ : BufTy).Contents (Elt F) → (⟨S10000x128, .f32⟩ : BufTy).Contents (Elt F)),
    StableHlo.binary main_v101 main_arg4 main_v102 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S10000x128 ![0, 1] bcast_S1x128_S10000x128_0_1 : (⟨S1x128, .f32⟩ : BufTy).Contents (Elt F) → (⟨S10000x128, .f32⟩ : BufTy).Contents (Elt F)),
    StableHlo.binary main_v102 main_v104 main_v105 (addf : (⟨S10000x128, .f32⟩ : BufTy).Contents (Elt F) → (⟨S10000x128, .f32⟩ : BufTy).Contents (Elt F) → (⟨S10000x128, .f32⟩ : BufTy).Contents (Elt F)) ]
/-- The buffers `b2_dense` writes. -/
abbrev b2_dense_W : List (Ref sig .tc) := [main_v99, main_v100, main_v101, main_v102, main_v103, main_v104, main_v105]

/-- Each row's Euclidean norm, kept as a column: the square root of the row sum of squares; and the small constant it is compared with. (Graph 2.) -/
def b2_rnA : List (HloOp τ sig (Elt F)) :=
  [ StableHlo.binary main_v105 main_v105 main_v106 (mulf : (⟨S10000x128, .f32⟩ : BufTy).Contents (Elt F) → (⟨S10000x128, .f32⟩ : BufTy).Contents (Elt F) → (⟨S10000x128, .f32⟩ : BufTy).Contents (Elt F)),
    StableHlo.nullary main_cst_28 (constant S_ .f32 0x00000000#32),
    StableHlo.binary main_v106 main_cst_28 main_v107 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v107 main_v108 (broadcastInDim S10000x1 ![0] bcast_S10000_S10000x1_0 : (⟨S10000, .f32⟩ : BufTy).Contents (Elt F) → (⟨S10000x1, .f32⟩ : BufTy).Contents (Elt F)),
    StableHlo.unary main_v108 main_v109 (Host.sqrt : (⟨S10000x1, .f32⟩ : BufTy).Contents (Elt F) → (⟨S10000x1, .f32⟩ : BufTy).Contents (Elt F)),
    StableHlo.nullary main_cst_29 (constant S_ .f32 0x2B8CBCCC#32) ]
/-- The buffers `b2_rnA` writes. -/
abbrev b2_rnA_W : List (Ref sig .tc) := [main_v106, main_cst_28, main_v107, main_v108, main_v109, main_cst_29]

/-- Each row divided by the larger of its norm and the small constant. (Graph 2.) -/
def b2_rnB : List (HloOp τ sig (Elt F)) :=
  [ StableHlo.unary main_cst_29 main_v110 (broadcastInDim S10000x1 ![] bcast_S_S10000x1 : (⟨S_, .f32⟩ : BufTy).Contents (Elt F) → (⟨S10000x1, .f32⟩ : BufTy).Contents (Elt F)),
    StableHlo.binary main_v109 main_v110 main_v111 (maximumf : (⟨S10000x1, .f32⟩ : BufTy).Contents (Elt F) → (⟨S10000x1, .f32⟩ : BufTy).Contents (Elt F) → (⟨S10000x1, .f32⟩ : BufTy).Contents (Elt F)),
    StableHlo.unary main_v111 main_v112 (broadcastInDim S10000x128 ![0, 1] bcast_S10000x1_S10000x128_0_1 : (⟨S10000x1, .f32⟩ : BufTy).Contents (Elt F) → (⟨S10000x128, .f32⟩ : BufTy).Contents (Elt F)),
    StableHlo.binary main_v105 main_v112 main_v113 (Host.divf : (⟨S10000x128, .f32⟩ : BufTy).Contents (Elt F) → (⟨S10000x128, .f32⟩ : BufTy).Contents (Elt F) → (⟨S10000x128, .f32⟩ : BufTy).Contents (Elt F)) ]
/-- The buffers `b2_rnB` writes. -/
abbrev b2_rnB_W : List (Ref sig .tc) := [main_v110, main_v111, main_v112, main_v113]

/-- The logistic function as printed: one over (one plus the exponential of the negated value). (Graph 2.) -/
def b2_logistic : List (HloOp τ sig (Elt F)) :=
  [ StableHlo.unary main_v113 main_v114 (Host.negf : (⟨S10000x128, .f32⟩ : BufTy).Contents (Elt F) → (⟨S10000x128, .f32⟩ : BufTy).Contents (Elt F)),
    StableHlo.unary main_v114 main_v115 (Host.exp : (⟨S10000x128, .f32⟩ : BufTy).Contents (Elt F) → (⟨S10000x128, .f32⟩ : BufTy).Contents (Elt F)),
    StableHlo.nullary main_cst_30 (constant S_ .f32 0x3F800000#32),
    StableHlo.unary main_cst_30 main_v116 (broadcastInDim S10000x128 ![] bcast_S_S10000x128 : (⟨S_, .f32⟩ : BufTy).Contents (Elt F) → (⟨S10000x128, .f32⟩ : BufTy).Contents (Elt F)),
    StableHlo.binary main_v116 main_v115 main_v117 (addf : (⟨S10000x128, .f32⟩ : BufTy).Contents (Elt F) → (⟨S10000x128, .f32⟩ : BufTy).Contents (Elt F) → (⟨S10000x128, .f32⟩ : BufTy).Contents (Elt F)),
    StableHlo.nullary main_cst_31 (constant S_ .f32 0x3F800000#32),
    StableHlo.unary main_cst_31 main_v118 (broadcastInDim S10000x128 ![] bcast_S_S10000x128 : (⟨S_, .f32⟩ : BufTy).Contents (Elt F) → (⟨S10000x128, .f32⟩ : BufTy).Contents (Elt F)),
    StableHlo.binary main_v118 main_v117 main_v119 (Host.divf : (⟨S10000x128, .f32⟩ : BufTy).Contents (Elt F) → (⟨S10000x128, .f32⟩ : BufTy).Contents (Elt F) → (⟨S10000x128, .f32⟩ : BufTy).Contents (Elt F)) ]
/-- The buffers `b2_logistic` writes. -/
abbrev b2_logistic_W : List (Ref sig .tc) := [main_v114, main_v115, main_cst_30, main_v116, main_v117, main_cst_31, main_v118, main_v119]

/-- The maximum with zero. (Graph 2.) -/
def b2_relu : List (HloOp τ sig (Elt F)) :=
  [ StableHlo.TRef.nullary main_call7.cst (constant S_ .f32 0x00000000#32),
    StableHlo.TRef.unary main_call7.cst main_call7.v0 (broadcastInDim S10000x128 ![] bcast_S_S10000x128),
    StableHlo.TRef.binary (.of main_v119 : StableHlo.TRef sig ⟨S10000x128, .f32⟩) main_call7.v0 main_call7.v1 maximumf ]
/-- The buffers `b2_relu` writes. -/
abbrev b2_relu_W : List (Ref sig .tc) := [main_call7_cst, main_call7_v0, main_v120]

/-- The column sums over all nodes divided by the node count: the mean row. (Graph 2.) -/
def b2_mean : List (HloOp τ sig (Elt F)) :=
  [ StableHlo.nullary main_cst_32 (constant S_ .f32 0x00000000#32),
    StableHlo.binary main_v120 main_cst_32 main_v121 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.unary main_v121 main_v122 (broadcastInDim S1x128 ![1] bcast_S128_S1x128_1 : (⟨S128, .f32⟩ : BufTy).Contents (Elt F) → (⟨S1x128, .f32⟩ : BufTy).Contents (Elt F)),
    StableHlo.nullary main_cst_33 (constant S_ .f32 0x461C4000#32),
    StableHlo.unary main_cst_33 main_v123 (broadcastInDim S1x128 ![] bcast_S_S1x128 : (⟨S_, .f32⟩ : BufTy).Contents (Elt F) → (⟨S1x128, .f32⟩ : BufTy).Contents (Elt F)),
    StableHlo.binary main_v122 main_v123 main_v124 (Host.divf : (⟨S1x128, .f32⟩ : BufTy).Contents (Elt F) → (⟨S1x128, .f32⟩ : BufTy).Contents (Elt F) → (⟨S1x128, .f32⟩ : BufTy).Contents (Elt F)) ]
/-- The buffers `b2_mean` writes. -/
abbrev b2_mean_W : List (Ref sig .tc) := [main_cst_32, main_v121, main_v122, main_cst_33, main_v123, main_v124]

/-- The classifier: the mean row times the classifier weights, plus the classifier bias. (Graph 2.) -/
def b2_cls : List (HloOp τ sig (Elt F)) :=
  [ StableHlo.binary main_v124 main_arg6 main_v125 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg7 main_v126 (broadcastInDim S1x16 ![1] bcast_S16_S1x16_1 : (⟨S16, .f32⟩ : BufTy).Contents (Elt F) → (⟨S1x16, .f32⟩ : BufTy).Contents (Elt F)),
    StableHlo.binary main_v125 main_v126 main_v127 (addf : (⟨S1x16, .f32⟩ : BufTy).Contents (Elt F) → (⟨S1x16, .f32⟩ : BufTy).Contents (Elt F) → (⟨S1x16, .f32⟩ : BufTy).Contents (Elt F)) ]
/-- The buffers `b2_cls` writes. -/
abbrev b2_cls_W : List (Ref sig .tc) := [main_v125, main_v126, main_v127]

/-- The distance of the two graphs' classifier rows: their difference plus a small constant, squared, summed, square root. -/
def dist : List (HloOp τ sig (Elt F)) :=
  [ StableHlo.binary main_v63 main_v127 main_v128 (subf : (⟨S1x16, .f32⟩ : BufTy).Contents (Elt F) → (⟨S1x16, .f32⟩ : BufTy).Contents (Elt F) → (⟨S1x16, .f32⟩ : BufTy).Contents (Elt F)),
    StableHlo.nullary main_cst_34 (constant S_ .f32 0x358637BD#32),
    StableHlo.unary main_cst_34 main_v129 (broadcastInDim S1x16 ![] bcast_S_S1x16 : (⟨S_, .f32⟩ : BufTy).Contents (Elt F) → (⟨S1x16, .f32⟩ : BufTy).Contents (Elt F)),
    StableHlo.binary main_v128 main_v129 main_v130 (addf : (⟨S1x16, .f32⟩ : BufTy).Contents (Elt F) → (⟨S1x16, .f32⟩ : BufTy).Contents (Elt F) → (⟨S1x16, .f32⟩ : BufTy).Contents (Elt F)),
    StableHlo.binary main_v130 main_v130 main_v131 (mulf : (⟨S1x16, .f32⟩ : BufTy).Contents (Elt F) → (⟨S1x16, .f32⟩ : BufTy).Contents (Elt F) → (⟨S1x16, .f32⟩ : BufTy).Contents (Elt F)),
    StableHlo.nullary main_cst_35 (constant S_ .f32 0x00000000#32),
    StableHlo.binary main_v131 main_cst_35 main_v132 ((fun x v => Host.reduceAdd x v reducesTo_S1x16_S1_d1 h_S_) : (⟨S1x16, .f32⟩ : BufTy).Contents (Elt F) → (⟨S_, .f32⟩ : BufTy).Contents (Elt F) → (⟨S1, .f32⟩ : BufTy).Contents (Elt F)),
    StableHlo.unary main_v132 main_v133 (Host.sqrt : (⟨S1, .f32⟩ : BufTy).Contents (Elt F) → (⟨S1, .f32⟩ : BufTy).Contents (Elt F)) ]
/-- The buffers `dist` writes. -/
abbrev dist_W : List (Ref sig .tc) := [main_v128, main_cst_34, main_v129, main_v130, main_v131, main_cst_35, main_v132, main_v133]

end Cert.ReferenceIdeal.RefRun

end
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.Ref.Keep.lean ====
/-
  Small tools for reading a stretch of host operations given as a literal list: tactics that go through the list's
  operations one by one for the three side facts every stretch needs (each operation touches TensorCore buffers only,
  determines its results, and writes a buffer of a given list), and the tactic that reads a stretch's result buffer.
-/
import Idealize.ShloMosaic.Lib.StableHlo.Run
import proofs.«157275_g83597243449447_cont_9to1_m_596_53_alg».proof.Proof.LibTRefCasts

namespace Cert.ReferenceIdeal.RefRun

open Idealize.ShloMosaic Idealize.ShloMosaic.StableHlo

/-- A predicate that holds throughout two lists holds throughout their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- `l.Forall fun op => op.bufs ⊆ tcRefs τ sig` for a literal list of the builders' operations: one conjunct per
    operation, each the builder's own fact. -/
macro "all_bufs_sub" : tactic =>
  `(tactic| simp only [List.Forall, nullary_bufs_sub, unary_bufs_sub, binary_bufs_sub, ternary_bufs_sub, reshape_bufs_sub, and_self])

/-- `l.Forall fun op => op.fresh = ∅` for a literal list of the builders' operations: by computation, one at a time. -/
macro "all_fresh" : tactic =>
  `(tactic| (simp only [List.Forall]
             (repeat' apply And.intro) <;> rfl))

/-- `op.writes ⊆ (W.map …).toFinset` for one operation of the builders: what it writes is the singleton of its result
    buffer, and that buffer is found in the literal list `W` by deciding equality of references. -/
macro "writes_mem" : tactic =>
  `(tactic| (simp only [nullary_writes, unary_writes, binary_writes, ternary_writes, reshape_writes,
      Finset.singleton_subset_iff, List.mem_toFinset]; exact List.mem_map_of_mem (by decide)))

/-- `l.Forall fun op => op.writes ⊆ (W.map …).toFinset` for a literal list of the builders' operations. -/
macro "all_writes" : tactic =>
  `(tactic| (simp only [List.Forall]
             (repeat' apply And.intro) <;> writes_mem))

/-- Reads a stretch's result buffer: unrolls the stretch (every operation rewrites its own result buffer to its
    function's value and leaves the others), removes the transports along the typed references' type equations
    (inverse pairs inside; at a literal buffer the equation's two sides are the same type and the transport is the
    identity), and compares with the stated term by unfolding its definition. -/
macro "stage_result" : tactic =>
  `(tactic| (after_results_simp
             try simp only [Cert.Lib.ofBuf_toBuf, Cert.Lib.toBuf_ofBuf, TRef.ofBuf, TRef.toBuf, cast_eq]
             try rfl))

end Cert.ReferenceIdeal.RefRun
-- ==== Proof.Ref.Ops.lean ====
/-
  The reference program's @main is the straight line over its 228 host operations (listed, stretch by stretch, in the
  module this one imports). Each window of @main is a chain of single operations once the functions' definitions are
  unfolded at their calls and sequencing is re-associated, and the stretches of the list, concatenated, unfold to the
  same chain. With it the two side conditions of the run of a straight line: every operation touches TensorCore buffers
  only, and every operation determines its results.
-/
import proofs.«157275_g83597243449447_cont_9to1_m_596_53_alg».proof.Proof.Ref.OpsList
import proofs.«157275_g83597243449447_cont_9to1_m_596_53_alg».proof.Proof.Ref.Keep

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0. -/
def win0 : List (HloOp τ sig (Elt F)) :=
  b1_idx ++ (b1_deg ++ (b1_nsrc ++ (b1_ndst ++ (b1_h ++ (b1_take ++ (b1_aggA ++ (b1_aggB ++ (b1_dense ++ (b1_rnA)))))))))

/-- The operations of @main's window 1. -/
def win1 : List (HloOp τ sig (Elt F)) :=
  b1_rnB ++ (b1_logistic ++ (b1_relu ++ (b1_mean ++ (b1_cls ++ (b2_idx ++ (b2_deg ++ (b2_nsrc ++ (b2_ndst ++ (b2_h ++ (b2_take ++ (b2_aggA)))))))))))

/-- The operations of @main's window 2. -/
def win2 : List (HloOp τ sig (Elt F)) :=
  b2_aggB ++ (b2_dense ++ (b2_rnA ++ (b2_rnB ++ (b2_logistic ++ (b2_relu ++ (b2_mean ++ (b2_cls ++ (dist))))))))

/-- @main's 228 operations, in order. -/
def ops : List (HloOp τ sig (Elt F)) :=
  b1_idx ++ (b1_deg ++ (b1_nsrc ++ (b1_ndst ++ (b1_h ++ (b1_take ++ (b1_aggA ++ (b1_aggB ++ (b1_dense ++ (b1_rnA ++ (b1_rnB ++ (b1_logistic ++ (b1_relu ++ (b1_mean ++ (b1_cls ++ (b2_idx ++ (b2_deg ++ (b2_nsrc ++ (b2_ndst ++ (b2_h ++ (b2_take ++ (b2_aggA ++ (b2_aggB ++ (b2_dense ++ (b2_rnA ++ (b2_rnB ++ (b2_logistic ++ (b2_relu ++ (b2_mean ++ (b2_cls ++ (dist))))))))))))))))))))))))))))))

/-! ## @main is the straight line over the list -/

set_option maxRecDepth 8192 in
theorem main_part0_eq (c : Dev nD) : main_part0 (F := F) c = seq win0 := by
  simp only [main_part0, fn_where.body, fn_where_0.body, fn_take.body, fn_relu.body, win0, b1_idx, b1_deg, b1_nsrc, b1_ndst, b1_h, b1_take, b1_aggA, b1_aggB, b1_dense, b1_rnA,
    List.cons_append, List.nil_append, seq, bind_assoc, pure_bind] <;> rfl

set_option maxRecDepth 8192 in
theorem main_part1_eq (c : Dev nD) : main_part1 (F := F) c = seq win1 := by
  simp only [main_part1, fn_where.body, fn_where_0.body, fn_take.body, fn_relu.body, win1, b1_rnB, b1_logistic, b1_relu, b1_mean, b1_cls, b2_idx, b2_deg, b2_nsrc, b2_ndst, b2_h, b2_take, b2_aggA,
    List.cons_append, List.nil_append, seq, bind_assoc, pure_bind] <;> rfl

set_option maxRecDepth 8192 in
theorem main_part2_eq (c : Dev nD) : main_part2 (F := F) c = seq win2 := by
  simp only [main_part2, fn_where.body, fn_where_0.body, fn_take.body, fn_relu.body, win2, b2_aggB, b2_dense, b2_rnA, b2_rnB, b2_logistic, b2_relu, b2_mean, b2_cls, dist,
    List.cons_append, List.nil_append, seq, bind_assoc, pure_bind] <;> rfl

theorem ops_eq_windows : (ops : List (HloOp τ sig (Elt F))) = win0 ++ (win1 ++ win2) := by
  simp only [ops, win0, win1, win2, List.append_assoc]

theorem main_eq (c : Dev nD) : main (F := F) c = seq ops := by
  rw [ops_eq_windows, seq_append, seq_append, ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem b1_idx_sub : (b1_idx : List (HloOp τ sig (Elt F))).Forall fun op => op.bufs ⊆ tcRefs τ sig := by
  unfold b1_idx; all_bufs_sub
theorem b1_idx_fresh : (b1_idx : List (HloOp τ sig (Elt F))).Forall fun op => op.fresh = ∅ := by
  unfold b1_idx; all_fresh

theorem b1_deg_sub : (b1_deg : List (HloOp τ sig (Elt F))).Forall fun op => op.bufs ⊆ tcRefs τ sig := by
  unfold b1_deg; all_bufs_sub
theorem b1_deg_fresh : (b1_deg : List (HloOp τ sig (Elt F))).Forall fun op => op.fresh = ∅ := by
  unfold b1_deg; all_fresh

theorem b1_nsrc_sub : (b1_nsrc : List (HloOp τ sig (Elt F))).Forall fun op => op.bufs ⊆ tcRefs τ sig := by
  unfold b1_nsrc; all_bufs_sub
theorem b1_nsrc_fresh : (b1_nsrc : List (HloOp τ sig (Elt F))).Forall fun op => op.fresh = ∅ := by
  unfold b1_nsrc; all_fresh

theorem b1_ndst_sub : (b1_ndst : List (HloOp τ sig (Elt F))).Forall fun op => op.bufs ⊆ tcRefs τ sig := by
  unfold b1_ndst; all_bufs_sub
theorem b1_ndst_fresh : (b1_ndst : List (HloOp τ sig (Elt F))).Forall fun op => op.fresh = ∅ := by
  unfold b1_ndst; all_fresh

theorem b1_h_sub : (b1_h : List (HloOp τ sig (Elt F))).Forall fun op => op.bufs ⊆ tcRefs τ sig := by
  unfold b1_h; all_bufs_sub
theorem b1_h_fresh : (b1_h : List (HloOp τ sig (Elt F))).Forall fun op => op.fresh = ∅ := by
  unfold b1_h; all_fresh

theorem b1_take_sub : (b1_take : List (HloOp τ sig (Elt F))).Forall fun op => op.bufs ⊆ tcRefs τ sig := by
  unfold b1_take; all_bufs_sub
theorem b1_take_fresh : (b1_take : List (HloOp τ sig (Elt F))).Forall fun op => op.fresh = ∅ := by
  unfold b1_take; all_fresh

theorem b1_aggA_sub : (b1_aggA : List (HloOp τ sig (Elt F))).Forall fun op => op.bufs ⊆ tcRefs τ sig := by
  unfold b1_aggA; all_bufs_sub
theorem b1_aggA_fresh : (b1_aggA : List (HloOp τ sig (Elt F))).Forall fun op => op.fresh = ∅ := by
  unfold b1_aggA; all_fresh

theorem b1_aggB_sub : (b1_aggB : List (HloOp τ sig (Elt F))).Forall fun op => op.bufs ⊆ tcRefs τ sig := by
  unfold b1_aggB; all_bufs_sub
theorem b1_aggB_fresh : (b1_aggB : List (HloOp τ sig (Elt F))).Forall fun op => op.fresh = ∅ := by
  unfold b1_aggB; all_fresh

theorem b1_dense_sub : (b1_dense : List (HloOp τ sig (Elt F))).Forall fun op => op.bufs ⊆ tcRefs τ sig := by
  unfold b1_dense; all_bufs_sub
theorem b1_dense_fresh : (b1_dense : List (HloOp τ sig (Elt F))).Forall fun op => op.fresh = ∅ := by
  unfold b1_dense; all_fresh

theorem b1_rnA_sub : (b1_rnA : List (HloOp τ sig (Elt F))).Forall fun op => op.bufs ⊆ tcRefs τ sig := by
  unfold b1_rnA; all_bufs_sub
theorem b1_rnA_fresh : (b1_rnA : List (HloOp τ sig (Elt F))).Forall fun op => op.fresh = ∅ := by
  unfold b1_rnA; all_fresh

theorem b1_rnB_sub : (b1_rnB : List (HloOp τ sig (Elt F))).Forall fun op => op.bufs ⊆ tcRefs τ sig := by
  unfold b1_rnB; all_bufs_sub
theorem b1_rnB_fresh : (b1_rnB : List (HloOp τ sig (Elt F))).Forall fun op => op.fresh = ∅ := by
  unfold b1_rnB; all_fresh

theorem b1_logistic_sub : (b1_logistic : List (HloOp τ sig (Elt F))).Forall fun op => op.bufs ⊆ tcRefs τ sig := by
  unfold b1_logistic; all_bufs_sub
theorem b1_logistic_fresh : (b1_logistic : List (HloOp τ sig (Elt F))).Forall fun op => op.fresh = ∅ := by
  unfold b1_logistic; all_fresh

theorem b1_relu_sub : (b1_relu : List (HloOp τ sig (Elt F))).Forall fun op => op.bufs ⊆ tcRefs τ sig := by
  unfold b1_relu; all_bufs_sub
theorem b1_relu_fresh : (b1_relu : List (HloOp τ sig (Elt F))).Forall fun op => op.fresh = ∅ := by
  unfold b1_relu; all_fresh

theorem b1_mean_sub : (b1_mean : List (HloOp τ sig (Elt F))).Forall fun op => op.bufs ⊆ tcRefs τ sig := by
  unfold b1_mean; all_bufs_sub
theorem b1_mean_fresh : (b1_mean : List (HloOp τ sig (Elt F))).Forall fun op => op.fresh = ∅ := by
  unfold b1_mean; all_fresh

theorem b1_cls_sub : (b1_cls : List (HloOp τ sig (Elt F))).Forall fun op => op.bufs ⊆ tcRefs τ sig := by
  unfold b1_cls; all_bufs_sub
theorem b1_cls_fresh : (b1_cls : List (HloOp τ sig (Elt F))).Forall fun op => op.fresh = ∅ := by
  unfold b1_cls; all_fresh

theorem b2_idx_sub : (b2_idx : List (HloOp τ sig (Elt F))).Forall fun op => op.bufs ⊆ tcRefs τ sig := by
  unfold b2_idx; all_bufs_sub
theorem b2_idx_fresh : (b2_idx : List (HloOp τ sig (Elt F))).Forall fun op => op.fresh = ∅ := by
  unfold b2_idx; all_fresh

theorem b2_deg_sub : (b2_deg : List (HloOp τ sig (Elt F))).Forall fun op => op.bufs ⊆ tcRefs τ sig := by
  unfold b2_deg; all_bufs_sub
theorem b2_deg_fresh : (b2_deg : List (HloOp τ sig (Elt F))).Forall fun op => op.fresh = ∅ := by
  unfold b2_deg; all_fresh

theorem b2_nsrc_sub : (b2_nsrc : List (HloOp τ sig (Elt F))).Forall fun op => op.bufs ⊆ tcRefs τ sig := by
  unfold b2_nsrc; all_bufs_sub
theorem b2_nsrc_fresh : (b2_nsrc : List (HloOp τ sig (Elt F))).Forall fun op => op.fresh = ∅ := by
  unfold b2_nsrc; all_fresh

theorem b2_ndst_sub : (b2_ndst : List (HloOp τ sig (Elt F))).Forall fun op => op.bufs ⊆ tcRefs τ sig := by
  unfold b2_ndst; all_bufs_sub
theorem b2_ndst_fresh : (b2_ndst : List (HloOp τ sig (Elt F))).Forall fun op => op.fresh = ∅ := by
  unfold b2_ndst; all_fresh

theorem b2_h_sub : (b2_h : List (HloOp τ sig (Elt F))).Forall fun op => op.bufs ⊆ tcRefs τ sig := by
  unfold b2_h; all_bufs_sub
theorem b2_h_fresh : (b2_h : List (HloOp τ sig (Elt F))).Forall fun op => op.fresh = ∅ := by
  unfold b2_h; all_fresh

theorem b2_take_sub : (b2_take : List (HloOp τ sig (Elt F))).Forall fun op => op.bufs ⊆ tcRefs τ sig := by
  unfold b2_take; all_bufs_sub
theorem b2_take_fresh : (b2_take : List (HloOp τ sig (Elt F))).Forall fun op => op.fresh = ∅ := by
  unfold b2_take; all_fresh

theorem b2_aggA_sub : (b2_aggA : List (HloOp τ sig (Elt F))).Forall fun op => op.bufs ⊆ tcRefs τ sig := by
  unfold b2_aggA; all_bufs_sub
theorem b2_aggA_fresh : (b2_aggA : List (HloOp τ sig (Elt F))).Forall fun op => op.fresh = ∅ := by
  unfold b2_aggA; all_fresh

theorem b2_aggB_sub : (b2_aggB : List (HloOp τ sig (Elt F))).Forall fun op => op.bufs ⊆ tcRefs τ sig := by
  unfold b2_aggB; all_bufs_sub
theorem b2_aggB_fresh : (b2_aggB : List (HloOp τ sig (Elt F))).Forall fun op => op.fresh = ∅ := by
  unfold b2_aggB; all_fresh

theorem b2_dense_sub : (b2_dense : List (HloOp τ sig (Elt F))).Forall fun op => op.bufs ⊆ tcRefs τ sig := by
  unfold b2_dense; all_bufs_sub
theorem b2_dense_fresh : (b2_dense : List (HloOp τ sig (Elt F))).Forall fun op => op.fresh = ∅ := by
  unfold b2_dense; all_fresh

theorem b2_rnA_sub : (b2_rnA : List (HloOp τ sig (Elt F))).Forall fun op => op.bufs ⊆ tcRefs τ sig := by
  unfold b2_rnA; all_bufs_sub
theorem b2_rnA_fresh : (b2_rnA : List (HloOp τ sig (Elt F))).Forall fun op => op.fresh = ∅ := by
  unfold b2_rnA; all_fresh

theorem b2_rnB_sub : (b2_rnB : List (HloOp τ sig (Elt F))).Forall fun op => op.bufs ⊆ tcRefs τ sig := by
  unfold b2_rnB; all_bufs_sub
theorem b2_rnB_fresh : (b2_rnB : List (HloOp τ sig (Elt F))).Forall fun op => op.fresh = ∅ := by
  unfold b2_rnB; all_fresh

theorem b2_logistic_sub : (b2_logistic : List (HloOp τ sig (Elt F))).Forall fun op => op.bufs ⊆ tcRefs τ sig := by
  unfold b2_logistic; all_bufs_sub
theorem b2_logistic_fresh : (b2_logistic : List (HloOp τ sig (Elt F))).Forall fun op => op.fresh = ∅ := by
  unfold b2_logistic; all_fresh

theorem b2_relu_sub : (b2_relu : List (HloOp τ sig (Elt F))).Forall fun op => op.bufs ⊆ tcRefs τ sig := by
  unfold b2_relu; all_bufs_sub
theorem b2_relu_fresh : (b2_relu : List (HloOp τ sig (Elt F))).Forall fun op => op.fresh = ∅ := by
  unfold b2_relu; all_fresh

theorem b2_mean_sub : (b2_mean : List (HloOp τ sig (Elt F))).Forall fun op => op.bufs ⊆ tcRefs τ sig := by
  unfold b2_mean; all_bufs_sub
theorem b2_mean_fresh : (b2_mean : List (HloOp τ sig (Elt F))).Forall fun op => op.fresh = ∅ := by
  unfold b2_mean; all_fresh

theorem b2_cls_sub : (b2_cls : List (HloOp τ sig (Elt F))).Forall fun op => op.bufs ⊆ tcRefs τ sig := by
  unfold b2_cls; all_bufs_sub
theorem b2_cls_fresh : (b2_cls : List (HloOp τ sig (Elt F))).Forall fun op => op.fresh = ∅ := by
  unfold b2_cls; all_fresh

theorem dist_sub : (dist : List (HloOp τ sig (Elt F))).Forall fun op => op.bufs ⊆ tcRefs τ sig := by
  unfold dist; all_bufs_sub
theorem dist_fresh : (dist : List (HloOp τ sig (Elt F))).Forall fun op => op.fresh = ∅ := by
  unfold dist; all_fresh

theorem ops_sub : (ops : List (HloOp τ sig (Elt F))).Forall fun op => op.bufs ⊆ tcRefs τ sig := by
  unfold ops
  exact forall_append b1_idx_sub (forall_append b1_deg_sub (forall_append b1_nsrc_sub (forall_append b1_ndst_sub (forall_append b1_h_sub (forall_append b1_take_sub (forall_append b1_aggA_sub (forall_append b1_aggB_sub (forall_append b1_dense_sub (forall_append b1_rnA_sub (forall_append b1_rnB_sub (forall_append b1_logistic_sub (forall_append b1_relu_sub (forall_append b1_mean_sub (forall_append b1_cls_sub (forall_append b2_idx_sub (forall_append b2_deg_sub (forall_append b2_nsrc_sub (forall_append b2_ndst_sub (forall_append b2_h_sub (forall_append b2_take_sub (forall_append b2_aggA_sub (forall_append b2_aggB_sub (forall_append b2_dense_sub (forall_append b2_rnA_sub (forall_append b2_rnB_sub (forall_append b2_logistic_sub (forall_append b2_relu_sub (forall_append b2_mean_sub (forall_append b2_cls_sub (dist_sub))))))))))))))))))))))))))))))

theorem ops_fresh : ∀ op ∈ (ops : List (HloOp τ sig (Elt F))), op.fresh = ∅ := by
  unfold ops
  exact List.forall_iff_forall_mem.mp (forall_append b1_idx_fresh (forall_append b1_deg_fresh (forall_append b1_nsrc_fresh (forall_append b1_ndst_fresh (forall_append b1_h_fresh (forall_append b1_take_fresh (forall_append b1_aggA_fresh (forall_append b1_aggB_fresh (forall_append b1_dense_fresh (forall_append b1_rnA_fresh (forall_append b1_rnB_fresh (forall_append b1_logistic_fresh (forall_append b1_relu_fresh (forall_append b1_mean_fresh (forall_append b1_cls_fresh (forall_append b2_idx_fresh (forall_append b2_deg_fresh (forall_append b2_nsrc_fresh (forall_append b2_ndst_fresh (forall_append b2_h_fresh (forall_append b2_take_fresh (forall_append b2_aggA_fresh (forall_append b2_aggB_fresh (forall_append b2_dense_fresh (forall_append b2_rnA_fresh (forall_append b2_rnB_fresh (forall_append b2_logistic_fresh (forall_append b2_relu_fresh (forall_append b2_mean_fresh (forall_append b2_cls_fresh (dist_fresh)))))))))))))))))))))))))))))))

end Cert.ReferenceIdeal.RefRun

end
-- ==== Proof.Ref.Tower.lean ====
/-
  The reference function as a short tower of pure terms over its eight argument arrays, mirroring its source line by
  line. Per graph (edge table E, features X): the source and destination index vectors; the out- and in-degree
  histograms; the two normalisations deg^(-1/2) (zero where the degree is zero); the features scaled row-wise; the
  gather of one row per edge; the scatter-add into the destination rows; the second row-wise scaling, the dense layer,
  the row normalisation, the logistic function, the maximum with zero, the mean over nodes, the classifier. Then the
  distance of the two graphs' classifier rows. Both graphs go through the same definitions.
-/
import proofs.«157275_g83597243449447_cont_9to1_m_596_53_alg».proof.Proof.Gen.ReferenceIdeal

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Index vectors -/

/-- Row 0 of the edge table as a vector: the source node of every edge. -/
def srcIdx (E : (⟨S2x320000, .i32⟩ : BufTy).Contents (Elt F)) : (⟨S320000, .i32⟩ : BufTy).Contents (Elt F) :=
  shapeCast S320000 (extractStridedSlice S1x320000 ![0, 0] E slices_S2x320000_S1x320000_0_0) shapeCasts_S1x320000_S320000

/-- Row 1 of the edge table as a vector: the destination node of every edge. -/
def dstIdx (E : (⟨S2x320000, .i32⟩ : BufTy).Contents (Elt F)) : (⟨S320000, .i32⟩ : BufTy).Contents (Elt F) :=
  shapeCast S320000 (extractStridedSlice S1x320000 ![1, 0] E slices_S2x320000_S1x320000_1_0) shapeCasts_S1x320000_S320000

/-- A node index with a negative value moved up by the number of nodes (the indexing convention of the source
    language), the others unchanged. -/
def wrapIndex (idx : (⟨S320000, .i32⟩ : BufTy).Contents (Elt F)) : (⟨S320000, .i32⟩ : BufTy).Contents (Elt F) :=
  select (cmpi .slt idx (broadcastInDim S320000 ![] bcast_S_S320000 (constantI S_ 32 0#32)))
    (addi idx (broadcastInDim S320000 ![] bcast_S_S320000 (constantI S_ 32 10000#32))) idx

/-- The wrapped indices as a one-column matrix: the index operand of a gather or scatter over rows. -/
def indexColumn (idx : (⟨S320000, .i32⟩ : BufTy).Contents (Elt F)) : (⟨S320000x1, .i32⟩ : BufTy).Contents (Elt F) :=
  broadcastInDim S320000x1 ![0] bcast_S320000_S320000x1_0 (wrapIndex idx)

/-! ## Degrees and normalisations -/

/-- One per edge. -/
def onesE : (⟨S320000, .f32⟩ : BufTy).Contents (Elt F) := broadcastInDim S320000 ![] bcast_S_S320000 (constant S_ .f32 0x3F800000#32)
/-- Zero per node. -/
def zerosN : (⟨S10000, .f32⟩ : BufTy).Contents (Elt F) := broadcastInDim S10000 ![] bcast_S_S10000 (constant S_ .f32 0x00000000#32)
/-- One per node. -/
def onesN : (⟨S10000, .f32⟩ : BufTy).Contents (Elt F) := broadcastInDim S10000 ![] bcast_S_S10000 (constant S_ .f32 0x3F800000#32)
/-- The zero matrix, nodes by features. -/
def zerosNxD : (⟨S10000x128, .f32⟩ : BufTy).Contents (Elt F) := broadcastInDim S10000x128 ![] bcast_S_S10000x128 (constant S_ .f32 0x00000000#32)
/-- The all-ones matrix, nodes by features. -/
def onesNxD : (⟨S10000x128, .f32⟩ : BufTy).Contents (Elt F) := broadcastInDim S10000x128 ![] bcast_S_S10000x128 (constant S_ .f32 0x3F800000#32)

/-- The histogram of an index vector: ones added into zeros at the indexed nodes. -/
def degree (idx : (⟨S320000, .i32⟩ : BufTy).Contents (Elt F)) : (⟨S10000, .f32⟩ : BufTy).Contents (Elt F) :=
  Host.scatterAdd scatter_S10000_S320000x1_S320000_n_0_0_1 zerosN (broadcastInDim S320000x1 ![0] bcast_S320000_S320000x1_0 idx) onesE

/-- deg^(-1/2) where the degree is positive, zero elsewhere (the reciprocal square root is taken of max(deg, 1)). -/
def norm (deg : (⟨S10000, .f32⟩ : BufTy).Contents (Elt F)) : (⟨S10000, .f32⟩ : BufTy).Contents (Elt F) :=
  select (cmpf .ogt deg zerosN) (Host.rsqrt (maximumf deg onesN)) zerosN

/-- A matrix with row n multiplied by the n-th entry of a vector. -/
def scaleRows (X : (⟨S10000x128, .f32⟩ : BufTy).Contents (Elt F)) (v : (⟨S10000, .f32⟩ : BufTy).Contents (Elt F)) : (⟨S10000x128, .f32⟩ : BufTy).Contents (Elt F) :=
  mulf X (broadcastInDim S10000x128 ![0, 1] bcast_S10000x1_S10000x128_0_1 (broadcastInDim S10000x1 ![0] bcast_S10000_S10000x1_0 v))

/-! ## Message passing -/

/-- Per edge, whether its (wrapped) index lies in 0 … 9999. -/
def inBounds (col : (⟨S320000x1, .i32⟩ : BufTy).Contents (Elt F)) : (⟨S320000, .i1⟩ : BufTy).Contents (Elt F) :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- One row of the table per edge, by (wrapped) index; a row whose index is out of bounds is the fill value throughout. -/
def takeRows (table : (⟨S10000x128, .f32⟩ : BufTy).Contents (Elt F)) (idx : (⟨S320000, .i32⟩ : BufTy).Contents (Elt F)) : (⟨S320000x128, .f32⟩ : BufTy).Contents (Elt F) :=
  select (broadcastInDim S320000x128 ![0] bcast_S320000_S320000x128_0 (inBounds (indexColumn idx)))
    (Host.gather gather_S10000x128_S320000x1_S320000x128_1_0_n_n_0_1_1128 table (indexColumn idx))
    (broadcastInDim S320000x128 ![] bcast_S_S320000x128 (constant S_ .f32 0x7FC00000#32))

/-- Per-edge rows added into the rows of an accumulator at the edges' (wrapped) indices. -/
def scatterRows (acc : (⟨S10000x128, .f32⟩ : BufTy).Contents (Elt F)) (idx : (⟨S320000, .i32⟩ : BufTy).Contents (Elt F)) (msgs : (⟨S320000x128, .f32⟩ : BufTy).Contents (Elt F)) : (⟨S10000x128, .f32⟩ : BufTy).Contents (Elt F) :=
  Host.scatterAdd scatter_S10000x128_S320000x1_S320000x128_1_0_0_1 acc (indexColumn idx) msgs

/-- The per-edge rows summed into their destination nodes, from zero. -/
def aggregate (msgs : (⟨S320000x128, .f32⟩ : BufTy).Contents (Elt F)) (dst : (⟨S320000, .i32⟩ : BufTy).Contents (Elt F)) : (⟨S10000x128, .f32⟩ : BufTy).Contents (Elt F) :=
  scatterRows zerosNxD dst msgs

/-! ## The layer -/

/-- H · W + b, the bias added to every row. -/
def dense (H : (⟨S10000x128, .f32⟩ : BufTy).Contents (Elt F)) (W : (⟨S128x128, .f32⟩ : BufTy).Contents (Elt F)) (b : (⟨S128, .f32⟩ : BufTy).Contents (Elt F)) : (⟨S10000x128, .f32⟩ : BufTy).Contents (Elt F) :=
  addf (Host.dotGeneral dot_S10000x128_S128x128_S10000x128_1_0_0_1_n_n none H W)
    (broadcastInDim S10000x128 ![0, 1] bcast_S1x128_S10000x128_0_1 (broadcastInDim S1x128 ![1] bcast_S128_S1x128_1 b))

/-- The Euclidean norm of every row, as a column. -/
def rowNorm (T : (⟨S10000x128, .f32⟩ : BufTy).Contents (Elt F)) : (⟨S10000x1, .f32⟩ : BufTy).Contents (Elt F) :=
  Host.sqrt (broadcastInDim S10000x1 ![0] bcast_S10000_S10000x1_0
    (Host.reduceAdd (mulf T T) (constant S_ .f32 0x00000000#32) reducesTo_S10000x128_S10000_d1 h_S_))

/-- The small constant a row's norm is bounded below by before dividing (1e-12, as the nearest f32). -/
def normFloor : (⟨S_, .f32⟩ : BufTy).Contents (Elt F) := constant S_ .f32 0x2B8CBCCC#32

/-- Every row divided by the larger of a given column entry and a given scalar. -/
def divideRows (T : (⟨S10000x128, .f32⟩ : BufTy).Contents (Elt F)) (nrm : (⟨S10000x1, .f32⟩ : BufTy).Contents (Elt F)) (floor : (⟨S_, .f32⟩ : BufTy).Contents (Elt F)) : (⟨S10000x128, .f32⟩ : BufTy).Contents (Elt F) :=
  Host.divf T (broadcastInDim S10000x128 ![0, 1] bcast_S10000x1_S10000x128_0_1
    (maximumf nrm (broadcastInDim S10000x1 ![] bcast_S_S10000x1 floor)))

/-- Every row divided by max(its norm, 1e-12). -/
def rowNormalize (T : (⟨S10000x128, .f32⟩ : BufTy).Contents (Elt F)) : (⟨S10000x128, .f32⟩ : BufTy).Contents (Elt F) :=
  divideRows T (rowNorm T) normFloor

/-- 1 / (1 + exp(-t)), entry by entry, as the program spells it: negate, exponential, add, divide. -/
def logistic (T : (⟨S10000x128, .f32⟩ : BufTy).Contents (Elt F)) : (⟨S10000x128, .f32⟩ : BufTy).Contents (Elt F) :=
  Host.divf onesNxD (addf onesNxD (Host.exp (Host.negf T)))

/-- max(t, 0), entry by entry. -/
def relu (T : (⟨S10000x128, .f32⟩ : BufTy).Contents (Elt F)) : (⟨S10000x128, .f32⟩ : BufTy).Contents (Elt F) :=
  maximumf T zerosNxD

/-- The mean over the nodes: the column sums divided by 10000, as one row. -/
def colMean (T : (⟨S10000x128, .f32⟩ : BufTy).Contents (Elt F)) : (⟨S1x128, .f32⟩ : BufTy).Contents (Elt F) :=
  Host.divf (broadcastInDim S1x128 ![1] bcast_S128_S1x128_1
      (Host.reduceAdd T (constant S_ .f32 0x00000000#32) reducesTo_S10000x128_S128_d0 h_S_))
    (broadcastInDim S1x128 ![] bcast_S_S1x128 (constant S_ .f32 0x461C4000#32))

/-- g · W_cls + b_cls. -/
def classify (g : (⟨S1x128, .f32⟩ : BufTy).Contents (Elt F)) (Wc : (⟨S128x16, .f32⟩ : BufTy).Contents (Elt F)) (bc : (⟨S16, .f32⟩ : BufTy).Contents (Elt F)) : (⟨S1x16, .f32⟩ : BufTy).Contents (Elt F) :=
  addf (Host.dotGeneral dot_S1x128_S128x16_S1x16_1_0_0_1_n_n none g Wc) (broadcastInDim S1x16 ![1] bcast_S16_S1x16_1 bc)

/-! ## One graph, and the distance -/

/-- One graph's classifier row, stage by stage. -/
def branch (E : (⟨S2x320000, .i32⟩ : BufTy).Contents (Elt F)) (X : (⟨S10000x128, .f32⟩ : BufTy).Contents (Elt F)) (W : (⟨S128x128, .f32⟩ : BufTy).Contents (Elt F)) (b : (⟨S128, .f32⟩ : BufTy).Contents (Elt F))
    (Wc : (⟨S128x16, .f32⟩ : BufTy).Contents (Elt F)) (bc : (⟨S16, .f32⟩ : BufTy).Contents (Elt F)) : (⟨S1x16, .f32⟩ : BufTy).Contents (Elt F) :=
  classify (colMean (relu (logistic (rowNormalize (dense
    (scaleRows (aggregate (takeRows (scaleRows X (norm (degree (srcIdx E)))) (srcIdx E)) (dstIdx E)) (norm (degree (dstIdx E))))
    W b))))) Wc bc

/-- The difference of two rows plus the small constant 1e-6 (as the nearest f32). -/
def shiftedDiff (h1 h2 : (⟨S1x16, .f32⟩ : BufTy).Contents (Elt F)) : (⟨S1x16, .f32⟩ : BufTy).Contents (Elt F) :=
  addf (subf h1 h2) (broadcastInDim S1x16 ![] bcast_S_S1x16 (constant S_ .f32 0x358637BD#32))

/-- The Euclidean length of the shifted difference of two rows. -/
def distance (h1 h2 : (⟨S1x16, .f32⟩ : BufTy).Contents (Elt F)) : (⟨S1, .f32⟩ : BufTy).Contents (Elt F) :=
  Host.sqrt (Host.reduceAdd (mulf (shiftedDiff h1 h2) (shiftedDiff h1 h2)) (constant S_ .f32 0x00000000#32) reducesTo_S1x16_S1_d1 h_S_)

/-- The reference's result as a term of its eight arguments. -/
def refOut (E1 E2 : (⟨S2x320000, .i32⟩ : BufTy).Contents (Elt F)) (X1 X2 : (⟨S10000x128, .f32⟩ : BufTy).Contents (Elt F)) (W : (⟨S128x128, .f32⟩ : BufTy).Contents (Elt F)) (b : (⟨S128, .f32⟩ : BufTy).Contents (Elt F))
    (Wc : (⟨S128x16, .f32⟩ : BufTy).Contents (Elt F)) (bc : (⟨S16, .f32⟩ : BufTy).Contents (Elt F)) : (⟨S1, .f32⟩ : BufTy).Contents (Elt F) :=
  distance (branch E1 X1 W b Wc bc) (branch E2 X2 W b Wc bc)

/-- `refOut` with the two graphs' towers written out. -/
theorem refOut_eq (E1 E2 : (⟨S2x320000, .i32⟩ : BufTy).Contents (Elt F)) (X1 X2 : (⟨S10000x128, .f32⟩ : BufTy).Contents (Elt F)) (W : (⟨S128x128, .f32⟩ : BufTy).Contents (Elt F)) (b : (⟨S128, .f32⟩ : BufTy).Contents (Elt F))
    (Wc : (⟨S128x16, .f32⟩ : BufTy).Contents (Elt F)) (bc : (⟨S16, .f32⟩ : BufTy).Contents (Elt F)) :
    refOut E1 E2 X1 X2 W b Wc bc =
      distance
        (classify (colMean (relu (logistic (rowNormalize (dense
          (scaleRows (aggregate (takeRows (scaleRows X1 (norm (degree (srcIdx E1)))) (srcIdx E1)) (dstIdx E1)) (norm (degree (dstIdx E1))))
          W b))))) Wc bc)
        (classify (colMean (relu (logistic (rowNormalize (dense
          (scaleRows (aggregate (takeRows (scaleRows X2 (norm (degree (srcIdx E2)))) (srcIdx E2)) (dstIdx E2)) (norm (degree (dstIdx E2))))
          W b))))) Wc bc) := rfl

end Cert.ReferenceIdeal.RefRun

end
-- ==== Proof.Ref.StagesA.lean ====
/-
  The first graph's stretches, read one at a time.
  For each stretch of the operation list: that a buffer outside the ones it writes keeps its contents, and what its
  result buffer holds afterwards — the stage's pure term of the contents its operand buffers had before, for any
  starting contents.
-/
import proofs.«157275_g83597243449447_cont_9to1_m_596_53_alg».proof.Proof.Ref.Ops
import proofs.«157275_g83597243449447_cont_9to1_m_596_53_alg».proof.Proof.Ref.Tower
import proofs.«157275_g83597243449447_cont_9to1_m_596_53_alg».proof.Proof.Ref.Keep

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

theorem b1_idx_writes : (b1_idx : List (HloOp τ sig (Elt F))).Forall fun op => op.writes ⊆ (b1_idx_W.map (Proc.devRef (τ := τ) .tc)).toFinset := by
  unfold b1_idx; all_writes
/-- A buffer `b1_idx` does not write keeps its contents through it. -/
theorem b1_idx_keep (V : Valuation τ sig (Elt F)) (r : Ref sig .tc) (h : r ∉ b1_idx_W) :
    after b1_idx V (no_index (Proc.devRef .tc r)) = V (Proc.devRef .tc r) :=
  after_of_writes_sub b1_idx V b1_idx_writes h
theorem b1_idx_src (V : Valuation τ sig (Elt F)) :
    after b1_idx V (no_index (Proc.devRef .tc main_v1)) = srcIdx (V (Proc.devRef .tc main_arg0)) := by
  unfold b1_idx; stage_result
theorem b1_idx_dst (V : Valuation τ sig (Elt F)) :
    after b1_idx V (no_index (Proc.devRef .tc main_v3)) = dstIdx (V (Proc.devRef .tc main_arg0)) := by
  unfold b1_idx; stage_result

theorem b1_deg_writes : (b1_deg : List (HloOp τ sig (Elt F))).Forall fun op => op.writes ⊆ (b1_deg_W.map (Proc.devRef (τ := τ) .tc)).toFinset := by
  unfold b1_deg; all_writes
/-- A buffer `b1_deg` does not write keeps its contents through it. -/
theorem b1_deg_keep (V : Valuation τ sig (Elt F)) (r : Ref sig .tc) (h : r ∉ b1_deg_W) :
    after b1_deg V (no_index (Proc.devRef .tc r)) = V (Proc.devRef .tc r) :=
  after_of_writes_sub b1_deg V b1_deg_writes h
theorem b1_deg_out (V : Valuation τ sig (Elt F)) :
    after b1_deg V (no_index (Proc.devRef .tc main_v7)) = degree (V (Proc.devRef .tc main_v1)) := by
  unfold b1_deg; stage_result
theorem b1_deg_in (V : Valuation τ sig (Elt F)) :
    after b1_deg V (no_index (Proc.devRef .tc main_v10)) = degree (V (Proc.devRef .tc main_v3)) := by
  unfold b1_deg; stage_result

theorem b1_nsrc_writes : (b1_nsrc : List (HloOp τ sig (Elt F))).Forall fun op => op.writes ⊆ (b1_nsrc_W.map (Proc.devRef (τ := τ) .tc)).toFinset := by
  unfold b1_nsrc; all_writes
/-- A buffer `b1_nsrc` does not write keeps its contents through it. -/
theorem b1_nsrc_keep (V : Valuation τ sig (Elt F)) (r : Ref sig .tc) (h : r ∉ b1_nsrc_W) :
    after b1_nsrc V (no_index (Proc.devRef .tc r)) = V (Proc.devRef .tc r) :=
  after_of_writes_sub b1_nsrc V b1_nsrc_writes h
theorem b1_nsrc_out (V : Valuation τ sig (Elt F)) :
    after b1_nsrc V (no_index (Proc.devRef .tc main_v16)) = norm (V (Proc.devRef .tc main_v7)) := by
  unfold b1_nsrc; stage_result

theorem b1_ndst_writes : (b1_ndst : List (HloOp τ sig (Elt F))).Forall fun op => op.writes ⊆ (b1_ndst_W.map (Proc.devRef (τ := τ) .tc)).toFinset := by
  unfold b1_ndst; all_writes
/-- A buffer `b1_ndst` does not write keeps its contents through it. -/
theorem b1_ndst_keep (V : Valuation τ sig (Elt F)) (r : Ref sig .tc) (h : r ∉ b1_ndst_W) :
    after b1_ndst V (no_index (Proc.devRef .tc r)) = V (Proc.devRef .tc r) :=
  after_of_writes_sub b1_ndst V b1_ndst_writes h
theorem b1_ndst_out (V : Valuation τ sig (Elt F)) :
    after b1_ndst V (no_index (Proc.devRef .tc main_v22)) = norm (V (Proc.devRef .tc main_v10)) := by
  unfold b1_ndst; stage_result

theorem b1_h_writes : (b1_h : List (HloOp τ sig (Elt F))).Forall fun op => op.writes ⊆ (b1_h_W.map (Proc.devRef (τ := τ) .tc)).toFinset := by
  unfold b1_h; all_writes
/-- A buffer `b1_h` does not write keeps its contents through it. -/
theorem b1_h_keep (V : Valuation τ sig (Elt F)) (r : Ref sig .tc) (h : r ∉ b1_h_W) :
    after b1_h V (no_index (Proc.devRef .tc r)) = V (Proc.devRef .tc r) :=
  after_of_writes_sub b1_h V b1_h_writes h
theorem b1_h_out (V : Valuation τ sig (Elt F)) :
    after b1_h V (no_index (Proc.devRef .tc main_v25)) = scaleRows (V (Proc.devRef .tc main_arg2)) (V (Proc.devRef .tc main_v16)) := by
  unfold b1_h; stage_result

theorem b1_take_writes : (b1_take : List (HloOp τ sig (Elt F))).Forall fun op => op.writes ⊆ (b1_take_W.map (Proc.devRef (τ := τ) .tc)).toFinset := by
  unfold b1_take; all_writes
/-- A buffer `b1_take` does not write keeps its contents through it. -/
theorem b1_take_keep (V : Valuation τ sig (Elt F)) (r : Ref sig .tc) (h : r ∉ b1_take_W) :
    after b1_take V (no_index (Proc.devRef .tc r)) = V (Proc.devRef .tc r) :=
  after_of_writes_sub b1_take V b1_take_writes h
theorem b1_take_out (V : Valuation τ sig (Elt F)) :
    after b1_take V (no_index (Proc.devRef .tc main_v26)) = takeRows (V (Proc.devRef .tc main_v25)) (V (Proc.devRef .tc main_v1)) := by
  unfold b1_take; stage_result

theorem b1_aggA_writes : (b1_aggA : List (HloOp τ sig (Elt F))).Forall fun op => op.writes ⊆ (b1_aggA_W.map (Proc.devRef (τ := τ) .tc)).toFinset := by
  unfold b1_aggA; all_writes
/-- A buffer `b1_aggA` does not write keeps its contents through it. -/
theorem b1_aggA_keep (V : Valuation τ sig (Elt F)) (r : Ref sig .tc) (h : r ∉ b1_aggA_W) :
    after b1_aggA V (no_index (Proc.devRef .tc r)) = V (Proc.devRef .tc r) :=
  after_of_writes_sub b1_aggA V b1_aggA_writes h
theorem b1_aggA_out (V : Valuation τ sig (Elt F)) :
    after b1_aggA V (no_index (Proc.devRef .tc main_v27)) = zerosNxD := by
  unfold b1_aggA; stage_result

theorem b1_aggB_writes : (b1_aggB : List (HloOp τ sig (Elt F))).Forall fun op => op.writes ⊆ (b1_aggB_W.map (Proc.devRef (τ := τ) .tc)).toFinset := by
  unfold b1_aggB; all_writes
/-- A buffer `b1_aggB` does not write keeps its contents through it. -/
theorem b1_aggB_keep (V : Valuation τ sig (Elt F)) (r : Ref sig .tc) (h : r ∉ b1_aggB_W) :
    after b1_aggB V (no_index (Proc.devRef .tc r)) = V (Proc.devRef .tc r) :=
  after_of_writes_sub b1_aggB V b1_aggB_writes h
theorem b1_aggB_out (V : Valuation τ sig (Elt F)) :
    after b1_aggB V (no_index (Proc.devRef .tc main_v34)) = scatterRows (V (Proc.devRef .tc main_v27)) (V (Proc.devRef .tc main_v3)) (V (Proc.devRef .tc main_v26)) := by
  unfold b1_aggB; stage_result

theorem b1_dense_writes : (b1_dense : List (HloOp τ sig (Elt F))).Forall fun op => op.writes ⊆ (b1_dense_W.map (Proc.devRef (τ := τ) .tc)).toFinset := by
  unfold b1_dense; all_writes
/-- A buffer `b1_dense` does not write keeps its contents through it. -/
theorem b1_dense_keep (V : Valuation τ sig (Elt F)) (r : Ref sig .tc) (h : r ∉ b1_dense_W) :
    after b1_dense V (no_index (Proc.devRef .tc r)) = V (Proc.devRef .tc r) :=
  after_of_writes_sub b1_dense V b1_dense_writes h
theorem b1_dense_out (V : Valuation τ sig (Elt F)) :
    after b1_dense V (no_index (Proc.devRef .tc main_v41)) = dense (scaleRows (V (Proc.devRef .tc main_v34)) (V (Proc.devRef .tc main_v22))) (V (Proc.devRef .tc main_arg4)) (V (Proc.devRef .tc main_arg5)) := by
  unfold b1_dense; stage_result

theorem b1_rnA_writes : (b1_rnA : List (HloOp τ sig (Elt F))).Forall fun op => op.writes ⊆ (b1_rnA_W.map (Proc.devRef (τ := τ) .tc)).toFinset := by
  unfold b1_rnA; all_writes
/-- A buffer `b1_rnA` does not write keeps its contents through it. -/
theorem b1_rnA_keep (V : Valuation τ sig (Elt F)) (r : Ref sig .tc) (h : r ∉ b1_rnA_W) :
    after b1_rnA V (no_index (Proc.devRef .tc r)) = V (Proc.devRef .tc r) :=
  after_of_writes_sub b1_rnA V b1_rnA_writes h
theorem b1_rnA_norm (V : Valuation τ sig (Elt F)) :
    after b1_rnA V (no_index (Proc.devRef .tc main_v45)) = rowNorm (V (Proc.devRef .tc main_v41)) := by
  unfold b1_rnA; stage_result
theorem b1_rnA_floor (V : Valuation τ sig (Elt F)) :
    after b1_rnA V (no_index (Proc.devRef .tc main_cst_11)) = normFloor := by
  unfold b1_rnA; stage_result

theorem b1_rnB_writes : (b1_rnB : List (HloOp τ sig (Elt F))).Forall fun op => op.writes ⊆ (b1_rnB_W.map (Proc.devRef (τ := τ) .tc)).toFinset := by
  unfold b1_rnB; all_writes
/-- A buffer `b1_rnB` does not write keeps its contents through it. -/
theorem b1_rnB_keep (V : Valuation τ sig (Elt F)) (r : Ref sig .tc) (h : r ∉ b1_rnB_W) :
    after b1_rnB V (no_index (Proc.devRef .tc r)) = V (Proc.devRef .tc r) :=
  after_of_writes_sub b1_rnB V b1_rnB_writes h
theorem b1_rnB_out (V : Valuation τ sig (Elt F)) :
    after b1_rnB V (no_index (Proc.devRef .tc main_v49)) = divideRows (V (Proc.devRef .tc main_v41)) (V (Proc.devRef .tc main_v45)) (V (Proc.devRef .tc main_cst_11)) := by
  unfold b1_rnB; stage_result

theorem b1_logistic_writes : (b1_logistic : List (HloOp τ sig (Elt F))).Forall fun op => op.writes ⊆ (b1_logistic_W.map (Proc.devRef (τ := τ) .tc)).toFinset := by
  unfold b1_logistic; all_writes
/-- A buffer `b1_logistic` does not write keeps its contents through it. -/
theorem b1_logistic_keep (V : Valuation τ sig (Elt F)) (r : Ref sig .tc) (h : r ∉ b1_logistic_W) :
    after b1_logistic V (no_index (Proc.devRef .tc r)) = V (Proc.devRef .tc r) :=
  after_of_writes_sub b1_logistic V b1_logistic_writes h
theorem b1_logistic_out (V : Valuation τ sig (Elt F)) :
    after b1_logistic V (no_index (Proc.devRef .tc main_v55)) = logistic (V (Proc.devRef .tc main_v49)) := by
  unfold b1_logistic; stage_result

theorem b1_relu_writes : (b1_relu : List (HloOp τ sig (Elt F))).Forall fun op => op.writes ⊆ (b1_relu_W.map (Proc.devRef (τ := τ) .tc)).toFinset := by
  unfold b1_relu; all_writes
/-- A buffer `b1_relu` does not write keeps its contents through it. -/
theorem b1_relu_keep (V : Valuation τ sig (Elt F)) (r : Ref sig .tc) (h : r ∉ b1_relu_W) :
    after b1_relu V (no_index (Proc.devRef .tc r)) = V (Proc.devRef .tc r) :=
  after_of_writes_sub b1_relu V b1_relu_writes h
theorem b1_relu_out (V : Valuation τ sig (Elt F)) :
    after b1_relu V (no_index (Proc.devRef .tc main_v56)) = relu (V (Proc.devRef .tc main_v55)) := by
  unfold b1_relu; stage_result

theorem b1_mean_writes : (b1_mean : List (HloOp τ sig (Elt F))).Forall fun op => op.writes ⊆ (b1_mean_W.map (Proc.devRef (τ := τ) .tc)).toFinset := by
  unfold b1_mean; all_writes
/-- A buffer `b1_mean` does not write keeps its contents through it. -/
theorem b1_mean_keep (V : Valuation τ sig (Elt F)) (r : Ref sig .tc) (h : r ∉ b1_mean_W) :
    after b1_mean V (no_index (Proc.devRef .tc r)) = V (Proc.devRef .tc r) :=
  after_of_writes_sub b1_mean V b1_mean_writes h
theorem b1_mean_out (V : Valuation τ sig (Elt F)) :
    after b1_mean V (no_index (Proc.devRef .tc main_v60)) = colMean (V (Proc.devRef .tc main_v56)) := by
  unfold b1_mean; stage_result

theorem b1_cls_writes : (b1_cls : List (HloOp τ sig (Elt F))).Forall fun op => op.writes ⊆ (b1_cls_W.map (Proc.devRef (τ := τ) .tc)).toFinset := by
  unfold b1_cls; all_writes
/-- A buffer `b1_cls` does not write keeps its contents through it. -/
theorem b1_cls_keep (V : Valuation τ sig (Elt F)) (r : Ref sig .tc) (h : r ∉ b1_cls_W) :
    after b1_cls V (no_index (Proc.devRef .tc r)) = V (Proc.devRef .tc r) :=
  after_of_writes_sub b1_cls V b1_cls_writes h
theorem b1_cls_out (V : Valuation τ sig (Elt F)) :
    after b1_cls V (no_index (Proc.devRef .tc main_v63)) = classify (V (Proc.devRef .tc main_v60)) (V (Proc.devRef .tc main_arg6)) (V (Proc.devRef .tc main_arg7)) := by
  unfold b1_cls; stage_result

end Cert.ReferenceIdeal.RefRun

end
-- ==== Proof.Ref.StagesB.lean ====
/-
  The second graph's stretches and the final distance, read one at a time.
  For each stretch of the operation list: that a buffer outside the ones it writes keeps its contents, and what its
  result buffer holds afterwards — the stage's pure term of the contents its operand buffers had before, for any
  starting contents.
-/
import proofs.«157275_g83597243449447_cont_9to1_m_596_53_alg».proof.Proof.Ref.Ops
import proofs.«157275_g83597243449447_cont_9to1_m_596_53_alg».proof.Proof.Ref.Tower
import proofs.«157275_g83597243449447_cont_9to1_m_596_53_alg».proof.Proof.Ref.Keep

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

theorem b2_idx_writes : (b2_idx : List (HloOp τ sig (Elt F))).Forall fun op => op.writes ⊆ (b2_idx_W.map (Proc.devRef (τ := τ) .tc)).toFinset := by
  unfold b2_idx; all_writes
/-- A buffer `b2_idx` does not write keeps its contents through it. -/
theorem b2_idx_keep (V : Valuation τ sig (Elt F)) (r : Ref sig .tc) (h : r ∉ b2_idx_W) :
    after b2_idx V (no_index (Proc.devRef .tc r)) = V (Proc.devRef .tc r) :=
  after_of_writes_sub b2_idx V b2_idx_writes h
theorem b2_idx_src (V : Valuation τ sig (Elt F)) :
    after b2_idx V (no_index (Proc.devRef .tc main_v65)) = srcIdx (V (Proc.devRef .tc main_arg1)) := by
  unfold b2_idx; stage_result
theorem b2_idx_dst (V : Valuation τ sig (Elt F)) :
    after b2_idx V (no_index (Proc.devRef .tc main_v67)) = dstIdx (V (Proc.devRef .tc main_arg1)) := by
  unfold b2_idx; stage_result

theorem b2_deg_writes : (b2_deg : List (HloOp τ sig (Elt F))).Forall fun op => op.writes ⊆ (b2_deg_W.map (Proc.devRef (τ := τ) .tc)).toFinset := by
  unfold b2_deg; all_writes
/-- A buffer `b2_deg` does not write keeps its contents through it. -/
theorem b2_deg_keep (V : Valuation τ sig (Elt F)) (r : Ref sig .tc) (h : r ∉ b2_deg_W) :
    after b2_deg V (no_index (Proc.devRef .tc r)) = V (Proc.devRef .tc r) :=
  after_of_writes_sub b2_deg V b2_deg_writes h
theorem b2_deg_out (V : Valuation τ sig (Elt F)) :
    after b2_deg V (no_index (Proc.devRef .tc main_v71)) = degree (V (Proc.devRef .tc main_v65)) := by
  unfold b2_deg; stage_result
theorem b2_deg_in (V : Valuation τ sig (Elt F)) :
    after b2_deg V (no_index (Proc.devRef .tc main_v74)) = degree (V (Proc.devRef .tc main_v67)) := by
  unfold b2_deg; stage_result

theorem b2_nsrc_writes : (b2_nsrc : List (HloOp τ sig (Elt F))).Forall fun op => op.writes ⊆ (b2_nsrc_W.map (Proc.devRef (τ := τ) .tc)).toFinset := by
  unfold b2_nsrc; all_writes
/-- A buffer `b2_nsrc` does not write keeps its contents through it. -/
theorem b2_nsrc_keep (V : Valuation τ sig (Elt F)) (r : Ref sig .tc) (h : r ∉ b2_nsrc_W) :
    after b2_nsrc V (no_index (Proc.devRef .tc r)) = V (Proc.devRef .tc r) :=
  after_of_writes_sub b2_nsrc V b2_nsrc_writes h
theorem b2_nsrc_out (V : Valuation τ sig (Elt F)) :
    after b2_nsrc V (no_index (Proc.devRef .tc main_v80)) = norm (V (Proc.devRef .tc main_v71)) := by
  unfold b2_nsrc; stage_result

theorem b2_ndst_writes : (b2_ndst : List (HloOp τ sig (Elt F))).Forall fun op => op.writes ⊆ (b2_ndst_W.map (Proc.devRef (τ := τ) .tc)).toFinset := by
  unfold b2_ndst; all_writes
/-- A buffer `b2_ndst` does not write keeps its contents through it. -/
theorem b2_ndst_keep (V : Valuation τ sig (Elt F)) (r : Ref sig .tc) (h : r ∉ b2_ndst_W) :
    after b2_ndst V (no_index (Proc.devRef .tc r)) = V (Proc.devRef .tc r) :=
  after_of_writes_sub b2_ndst V b2_ndst_writes h
theorem b2_ndst_out (V : Valuation τ sig (Elt F)) :
    after b2_ndst V (no_index (Proc.devRef .tc main_v86)) = norm (V (Proc.devRef .tc main_v74)) := by
  unfold b2_ndst; stage_result

theorem b2_h_writes : (b2_h : List (HloOp τ sig (Elt F))).Forall fun op => op.writes ⊆ (b2_h_W.map (Proc.devRef (τ := τ) .tc)).toFinset := by
  unfold b2_h; all_writes
/-- A buffer `b2_h` does not write keeps its contents through it. -/
theorem b2_h_keep (V : Valuation τ sig (Elt F)) (r : Ref sig .tc) (h : r ∉ b2_h_W) :
    after b2_h V (no_index (Proc.devRef .tc r)) = V (Proc.devRef .tc r) :=
  after_of_writes_sub b2_h V b2_h_writes h
theorem b2_h_out (V : Valuation τ sig (Elt F)) :
    after b2_h V (no_index (Proc.devRef .tc main_v89)) = scaleRows (V (Proc.devRef .tc main_arg3)) (V (Proc.devRef .tc main_v80)) := by
  unfold b2_h; stage_result

theorem b2_take_writes : (b2_take : List (HloOp τ sig (Elt F))).Forall fun op => op.writes ⊆ (b2_take_W.map (Proc.devRef (τ := τ) .tc)).toFinset := by
  unfold b2_take; all_writes
/-- A buffer `b2_take` does not write keeps its contents through it. -/
theorem b2_take_keep (V : Valuation τ sig (Elt F)) (r : Ref sig .tc) (h : r ∉ b2_take_W) :
    after b2_take V (no_index (Proc.devRef .tc r)) = V (Proc.devRef .tc r) :=
  after_of_writes_sub b2_take V b2_take_writes h
theorem b2_take_out (V : Valuation τ sig (Elt F)) :
    after b2_take V (no_index (Proc.devRef .tc main_v90)) = takeRows (V (Proc.devRef .tc main_v89)) (V (Proc.devRef .tc main_v65)) := by
  unfold b2_take; stage_result

theorem b2_aggA_writes : (b2_aggA : List (HloOp τ sig (Elt F))).Forall fun op => op.writes ⊆ (b2_aggA_W.map (Proc.devRef (τ := τ) .tc)).toFinset := by
  unfold b2_aggA; all_writes
/-- A buffer `b2_aggA` does not write keeps its contents through it. -/
theorem b2_aggA_keep (V : Valuation τ sig (Elt F)) (r : Ref sig .tc) (h : r ∉ b2_aggA_W) :
    after b2_aggA V (no_index (Proc.devRef .tc r)) = V (Proc.devRef .tc r) :=
  after_of_writes_sub b2_aggA V b2_aggA_writes h
theorem b2_aggA_out (V : Valuation τ sig (Elt F)) :
    after b2_aggA V (no_index (Proc.devRef .tc main_v91)) = zerosNxD := by
  unfold b2_aggA; stage_result

theorem b2_aggB_writes : (b2_aggB : List (HloOp τ sig (Elt F))).Forall fun op => op.writes ⊆ (b2_aggB_W.map (Proc.devRef (τ := τ) .tc)).toFinset := by
  unfold b2_aggB; all_writes
/-- A buffer `b2_aggB` does not write keeps its contents through it. -/
theorem b2_aggB_keep (V : Valuation τ sig (Elt F)) (r : Ref sig .tc) (h : r ∉ b2_aggB_W) :
    after b2_aggB V (no_index (Proc.devRef .tc r)) = V (Proc.devRef .tc r) :=
  after_of_writes_sub b2_aggB V b2_aggB_writes h
theorem b2_aggB_out (V : Valuation τ sig (Elt F)) :
    after b2_aggB V (no_index (Proc.devRef .tc main_v98)) = scatterRows (V (Proc.devRef .tc main_v91)) (V (Proc.devRef .tc main_v67)) (V (Proc.devRef .tc main_v90)) := by
  unfold b2_aggB; stage_result

theorem b2_dense_writes : (b2_dense : List (HloOp τ sig (Elt F))).Forall fun op => op.writes ⊆ (b2_dense_W.map (Proc.devRef (τ := τ) .tc)).toFinset := by
  unfold b2_dense; all_writes
/-- A buffer `b2_dense` does not write keeps its contents through it. -/
theorem b2_dense_keep (V : Valuation τ sig (Elt F)) (r : Ref sig .tc) (h : r ∉ b2_dense_W) :
    after b2_dense V (no_index (Proc.devRef .tc r)) = V (Proc.devRef .tc r) :=
  after_of_writes_sub b2_dense V b2_dense_writes h
theorem b2_dense_out (V : Valuation τ sig (Elt F)) :
    after b2_dense V (no_index (Proc.devRef .tc main_v105)) = dense (scaleRows (V (Proc.devRef .tc main_v98)) (V (Proc.devRef .tc main_v86))) (V (Proc.devRef .tc main_arg4)) (V (Proc.devRef .tc main_arg5)) := by
  unfold b2_dense; stage_result

theorem b2_rnA_writes : (b2_rnA : List (HloOp τ sig (Elt F))).Forall fun op => op.writes ⊆ (b2_rnA_W.map (Proc.devRef (τ := τ) .tc)).toFinset := by
  unfold b2_rnA; all_writes
/-- A buffer `b2_rnA` does not write keeps its contents through it. -/
theorem b2_rnA_keep (V : Valuation τ sig (Elt F)) (r : Ref sig .tc) (h : r ∉ b2_rnA_W) :
    after b2_rnA V (no_index (Proc.devRef .tc r)) = V (Proc.devRef .tc r) :=
  after_of_writes_sub b2_rnA V b2_rnA_writes h
theorem b2_rnA_norm (V : Valuation τ sig (Elt F)) :
    after b2_rnA V (no_index (Proc.devRef .tc main_v109)) = rowNorm (V (Proc.devRef .tc main_v105)) := by
  unfold b2_rnA; stage_result
theorem b2_rnA_floor (V : Valuation τ sig (Elt F)) :
    after b2_rnA V (no_index (Proc.devRef .tc main_cst_29)) = normFloor := by
  unfold b2_rnA; stage_result

theorem b2_rnB_writes : (b2_rnB : List (HloOp τ sig (Elt F))).Forall fun op => op.writes ⊆ (b2_rnB_W.map (Proc.devRef (τ := τ) .tc)).toFinset := by
  unfold b2_rnB; all_writes
/-- A buffer `b2_rnB` does not write keeps its contents through it. -/
theorem b2_rnB_keep (V : Valuation τ sig (Elt F)) (r : Ref sig .tc) (h : r ∉ b2_rnB_W) :
    after b2_rnB V (no_index (Proc.devRef .tc r)) = V (Proc.devRef .tc r) :=
  after_of_writes_sub b2_rnB V b2_rnB_writes h
theorem b2_rnB_out (V : Valuation τ sig (Elt F)) :
    after b2_rnB V (no_index (Proc.devRef .tc main_v113)) = divideRows (V (Proc.devRef .tc main_v105)) (V (Proc.devRef .tc main_v109)) (V (Proc.devRef .tc main_cst_29)) := by
  unfold b2_rnB; stage_result

theorem b2_logistic_writes : (b2_logistic : List (HloOp τ sig (Elt F))).Forall fun op => op.writes ⊆ (b2_logistic_W.map (Proc.devRef (τ := τ) .tc)).toFinset := by
  unfold b2_logistic; all_writes
/-- A buffer `b2_logistic` does not write keeps its contents through it. -/
theorem b2_logistic_keep (V : Valuation τ sig (Elt F)) (r : Ref sig .tc) (h : r ∉ b2_logistic_W) :
    after b2_logistic V (no_index (Proc.devRef .tc r)) = V (Proc.devRef .tc r) :=
  after_of_writes_sub b2_logistic V b2_logistic_writes h
theorem b2_logistic_out (V : Valuation τ sig (Elt F)) :
    after b2_logistic V (no_index (Proc.devRef .tc main_v119)) = logistic (V (Proc.devRef .tc main_v113)) := by
  unfold b2_logistic; stage_result

theorem b2_relu_writes : (b2_relu : List (HloOp τ sig (Elt F))).Forall fun op => op.writes ⊆ (b2_relu_W.map (Proc.devRef (τ := τ) .tc)).toFinset := by
  unfold b2_relu; all_writes
/-- A buffer `b2_relu` does not write keeps its contents through it. -/
theorem b2_relu_keep (V : Valuation τ sig (Elt F)) (r : Ref sig .tc) (h : r ∉ b2_relu_W) :
    after b2_relu V (no_index (Proc.devRef .tc r)) = V (Proc.devRef .tc r) :=
  after_of_writes_sub b2_relu V b2_relu_writes h
theorem b2_relu_out (V : Valuation τ sig (Elt F)) :
    after b2_relu V (no_index (Proc.devRef .tc main_v120)) = relu (V (Proc.devRef .tc main_v119)) := by
  unfold b2_relu; stage_result

theorem b2_mean_writes : (b2_mean : List (HloOp τ sig (Elt F))).Forall fun op => op.writes ⊆ (b2_mean_W.map (Proc.devRef (τ := τ) .tc)).toFinset := by
  unfold b2_mean; all_writes
/-- A buffer `b2_mean` does not write keeps its contents through it. -/
theorem b2_mean_keep (V : Valuation τ sig (Elt F)) (r : Ref sig .tc) (h : r ∉ b2_mean_W) :
    after b2_mean V (no_index (Proc.devRef .tc r)) = V (Proc.devRef .tc r) :=
  after_of_writes_sub b2_mean V b2_mean_writes h
theorem b2_mean_out (V : Valuation τ sig (Elt F)) :
    after b2_mean V (no_index (Proc.devRef .tc main_v124)) = colMean (V (Proc.devRef .tc main_v120)) := by
  unfold b2_mean; stage_result

theorem b2_cls_writes : (b2_cls : List (HloOp τ sig (Elt F))).Forall fun op => op.writes ⊆ (b2_cls_W.map (Proc.devRef (τ := τ) .tc)).toFinset := by
  unfold b2_cls; all_writes
/-- A buffer `b2_cls` does not write keeps its contents through it. -/
theorem b2_cls_keep (V : Valuation τ sig (Elt F)) (r : Ref sig .tc) (h : r ∉ b2_cls_W) :
    after b2_cls V (no_index (Proc.devRef .tc r)) = V (Proc.devRef .tc r) :=
  after_of_writes_sub b2_cls V b2_cls_writes h
theorem b2_cls_out (V : Valuation τ sig (Elt F)) :
    after b2_cls V (no_index (Proc.devRef .tc main_v127)) = classify (V (Proc.devRef .tc main_v124)) (V (Proc.devRef .tc main_arg6)) (V (Proc.devRef .tc main_arg7)) := by
  unfold b2_cls; stage_result

theorem dist_writes : (dist : List (HloOp τ sig (Elt F))).Forall fun op => op.writes ⊆ (dist_W.map (Proc.devRef (τ := τ) .tc)).toFinset := by
  unfold dist; all_writes
/-- A buffer `dist` does not write keeps its contents through it. -/
theorem dist_keep (V : Valuation τ sig (Elt F)) (r : Ref sig .tc) (h : r ∉ dist_W) :
    after dist V (no_index (Proc.devRef .tc r)) = V (Proc.devRef .tc r) :=
  after_of_writes_sub dist V dist_writes h
theorem dist_out (V : Valuation τ sig (Elt F)) :
    after dist V (no_index (Proc.devRef .tc main_v133)) = distance (V (Proc.devRef .tc main_v63)) (V (Proc.devRef .tc main_v127)) := by
  unfold dist; stage_result

end Cert.ReferenceIdeal.RefRun

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.Ref.Run.lean ====
/-
  The reference's run. The contents after all 228 operations are the contents after each stretch in turn; read from the
  result buffer backwards, every stretch either produced the buffer asked for (its stage's term of the contents of its
  operand buffers before it) or left it alone. Followed down to the argument buffers this is the tower `refOut` of the
  eight arguments, and an argument buffer, written by no stretch, still holds what it held at launch. The run theorem
  of a straight line of host operations then gives: every weakly fair execution terminates, the result buffer holding
  `refOut` of the arguments and the arguments unchanged.
-/
import proofs.«157275_g83597243449447_cont_9to1_m_596_53_alg».proof.Proof.Ref.StagesA
import proofs.«157275_g83597243449447_cont_9to1_m_596_53_alg».proof.Proof.Ref.StagesB
import proofs.«157275_g83597243449447_cont_9to1_m_596_53_alg».proof.Proof.LibAfterAppend
import Idealize.ShloMosaic.PureOps.Ideal

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after the whole list, stretch by stretch. -/
theorem after_ops (V : Valuation τ sig (Elt F)) :
    after ops V = after dist (after b2_cls (after b2_mean (after b2_relu (after b2_logistic (after b2_rnB (after b2_rnA (after b2_dense (after b2_aggB (after b2_aggA (after b2_take (after b2_h (after b2_ndst (after b2_nsrc (after b2_deg (after b2_idx (after b1_cls (after b1_mean (after b1_relu (after b1_logistic (after b1_rnB (after b1_rnA (after b1_dense (after b1_aggB (after b1_aggA (after b1_take (after b1_h (after b1_ndst (after b1_nsrc (after b1_deg (after b1_idx (V))))))))))))))))))))))))))))))) := by
  unfold ops
  simp only [Cert.Lib.after_append]

set_option maxRecDepth 8192 in
/-- The result buffer ends at the tower of the arguments' contents. -/
theorem out_eq (V : Valuation τ sig (Elt F)) :
    after ops V (Proc.devRef .tc main_v133)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  simp (disch := decide) only [b1_idx_src, b1_idx_dst, b1_deg_out, b1_deg_in, b1_nsrc_out, b1_ndst_out, b1_h_out, b1_take_out, b1_aggA_out, b1_aggB_out, b1_dense_out, b1_rnA_norm, b1_rnA_floor, b1_rnB_out, b1_logistic_out, b1_relu_out, b1_mean_out, b1_cls_out, b2_idx_src, b2_idx_dst, b2_deg_out, b2_deg_in, b2_nsrc_out, b2_ndst_out, b2_h_out, b2_take_out, b2_aggA_out, b2_aggB_out, b2_dense_out, b2_rnA_norm, b2_rnA_floor, b2_rnB_out, b2_logistic_out, b2_relu_out, b2_mean_out, b2_cls_out, dist_out,
    b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]
  rfl

set_option maxRecDepth 8192 in
/-- No stretch writes `main_arg0`. -/
theorem arg0_eq (V : Valuation τ sig (Elt F)) :
    after ops V (Proc.devRef .tc main_arg0) = V (Proc.devRef .tc main_arg0) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg1`. -/
theorem arg1_eq (V : Valuation τ sig (Elt F)) :
    after ops V (Proc.devRef .tc main_arg1) = V (Proc.devRef .tc main_arg1) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg2`. -/
theorem arg2_eq (V : Valuation τ sig (Elt F)) :
    after ops V (Proc.devRef .tc main_arg2) = V (Proc.devRef .tc main_arg2) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg3`. -/
theorem arg3_eq (V : Valuation τ sig (Elt F)) :
    after ops V (Proc.devRef .tc main_arg3) = V (Proc.devRef .tc main_arg3) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg4`. -/
theorem arg4_eq (V : Valuation τ sig (Elt F)) :
    after ops V (Proc.devRef .tc main_arg4) = V (Proc.devRef .tc main_arg4) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg5`. -/
theorem arg5_eq (V : Valuation τ sig (Elt F)) :
    after ops V (Proc.devRef .tc main_arg5) = V (Proc.devRef .tc main_arg5) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg6`. -/
theorem arg6_eq (V : Valuation τ sig (Elt F)) :
    after ops V (Proc.devRef .tc main_arg6) = V (Proc.devRef .tc main_arg6) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

set_option maxRecDepth 8192 in
/-- No stretch writes `main_arg7`. -/
theorem arg7_eq (V : Valuation τ sig (Elt F)) :
    after ops V (Proc.devRef .tc main_arg7) = V (Proc.devRef .tc main_arg7) := by
  rw [after_ops]
  simp (disch := decide) only [b1_idx_keep, b1_deg_keep, b1_nsrc_keep, b1_ndst_keep, b1_h_keep, b1_take_keep, b1_aggA_keep, b1_aggB_keep, b1_dense_keep, b1_rnA_keep, b1_rnB_keep, b1_logistic_keep, b1_relu_keep, b1_mean_keep, b1_cls_keep, b2_idx_keep, b2_deg_keep, b2_nsrc_keep, b2_ndst_keep, b2_h_keep, b2_take_keep, b2_aggA_keep, b2_aggB_keep, b2_dense_keep, b2_rnA_keep, b2_rnB_keep, b2_logistic_keep, b2_relu_keep, b2_mean_keep, b2_cls_keep, dist_keep]

/-- At the compiled mesh, floats read as extended reals, from any memory with zero counters: every weakly fair
    execution of @main terminates with the result buffer at `refOut` of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v133) = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v133).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ (fun _ => ops_fresh))

end Cert.ReferenceIdeal.RefRun

end
-- ==== Proof.KI.Region1Read.lean ====
import proofs.«157275_g83597243449447_cont_9to1_m_596_53_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The second pallas_call's region: the contents of the accumulator and of the output's buffer as functions

Each case's stored pieces, read back, are one payload of the kernel applied to the input blocks and to what the
accumulator held: a store over the whole buffer at offset zero reads back as its payload, and a load of the whole
buffer after such a store reads that payload. -/

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- First position: the accumulator is zeroed, the zeros are read back, and the masked column sums of the
    position's rows are added to them. -/
theorem sout1_A_0_eq (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) :
    sout1_A_0 c i arg2 harg2 arg3 harg3 arg4 harg4 arg5 harg5 arg6 harg6 arg7 harg7 arg8 harg8 arg9 harg9 hc0 hc1 x0 x1 x2 x3 x4 x5
      = k1_pay1 (k1_pay4 i) (k1_pay3 (F := F)) (k1_pay5 x0 x1 x2 x3) (Scalar.ofBits .f32 0x00000000#32) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S8x128) r1_hz2, View.readCov_unit_zero (S := S8x128) _ r1_hz2]
  simp only [View.readAt_eq_ld, harg2.read_unread, harg3.read_unread, harg4.read_unread, harg5.read_unread, harg6.read_unread, harg7.read_unread, harg9.read_unread,
    View.ld_unit_zero (S := S8x128) r1_hz2, View.ld_unit_zero (S := S128x128) r1_hz2, View.ld_unit_zero (S := S1x128) r1_hz2, View.ld_unit_zero (S := S128x16) r1_hz2, View.ld_unit_zero (S := S1x16) r1_hz2,
    View.ld_unit_zero (S := S1x1000x128) r1_hz3, View.ld_unit_zero (S := S1x1000x1) r1_hz3]

/-- Middle position: the masked column sums are added to what the accumulator held. -/
theorem sout1_B_0_eq (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : ¬cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    sout1_B_0 c i arg2 harg2 arg3 harg3 arg4 harg4 arg5 harg5 arg6 harg6 arg7 harg7 arg8 harg8 arg9 harg9 hc0 hc1 x0 x1 x2 x3 x4 x5 xs0
      = k1_pay1 (k1_pay4 i) xs0 (k1_pay5 x0 x1 x2 x3) (Scalar.ofBits .f32 0x00000000#32) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero r1_hz2]
  simp only [View.readAt_eq_ld, harg2.read_unread, harg3.read_unread, harg4.read_unread, harg5.read_unread, harg6.read_unread, harg7.read_unread, harg9.read_unread,
    View.ld_unit_zero (S := S8x128) r1_hz2, View.ld_unit_zero (S := S128x128) r1_hz2, View.ld_unit_zero (S := S1x128) r1_hz2, View.ld_unit_zero (S := S128x16) r1_hz2, View.ld_unit_zero (S := S1x16) r1_hz2,
    View.ld_unit_zero (S := S1x1000x128) r1_hz3, View.ld_unit_zero (S := S1x1000x1) r1_hz3]

/-- Last position: the accumulator is updated as at a middle position, -/
theorem sout1_C_0_eq (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    sout1_C_0 c i arg2 harg2 arg3 harg3 arg4 harg4 arg5 harg5 arg6 harg6 arg7 harg7 arg8 harg8 arg9 harg9 hc0 hc1 x0 x1 x2 x3 x4 x5 xs0
      = k1_pay1 (k1_pay4 i) xs0 (k1_pay5 x0 x1 x2 x3) (Scalar.ofBits .f32 0x00000000#32) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero r1_hz2]
  simp only [View.readAt_eq_ld, harg2.read_unread, harg3.read_unread, harg4.read_unread, harg5.read_unread, harg6.read_unread, harg7.read_unread, harg9.read_unread,
    View.ld_unit_zero (S := S8x128) r1_hz2, View.ld_unit_zero (S := S128x128) r1_hz2, View.ld_unit_zero (S := S1x128) r1_hz2, View.ld_unit_zero (S := S128x16) r1_hz2, View.ld_unit_zero (S := S1x16) r1_hz2,
    View.ld_unit_zero (S := S1x1000x128) r1_hz3, View.ld_unit_zero (S := S1x1000x1) r1_hz3]

/-- and the output's buffer receives the final value computed from the updated accumulator and the classifier's
    weights and bias. -/
theorem out1_C_6_eq (c : Dev nD) (i : grid1.Coords) (arg2 : Memref sig .tc .vmem S1x1000x128 .f32) (harg2 : arg2.IsWhole) (arg3 : Memref sig .tc .vmem S1x1000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (hc1 : cond1_1 i)
    (x0 : Vec F S1x1000x128 .f32) (x1 : Vec F S1x1000x1 .f32) (x2 : Vec F S128x128 .f32) (x3 : Vec F S1x128 .f32) (x4 : Vec F S128x16 .f32) (x5 : Vec F S1x16 .f32) (xs0 : Vec F S8x128 .f32) :
    out1_C_6 c i arg2 harg2 arg3 harg3 arg4 harg4 arg5 harg5 arg6 harg6 arg7 harg7 arg8 harg8 arg9 harg9 hc0 hc1 x0 x1 x2 x3 x4 x5 xs0
      = k1_pay2 (k1_pay1 (k1_pay4 i) xs0 (k1_pay5 x0 x1 x2 x3) (Scalar.ofBits .f32 0x00000000#32)) x4 x5 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero r1_hz2, View.readCov_unit_zero (S := S8x128) _ r1_hz2]
  simp only [View.readAt_eq_ld, harg2.read_unread, harg3.read_unread, harg4.read_unread, harg5.read_unread, harg6.read_unread, harg7.read_unread, harg9.read_unread,
    View.ld_unit_zero (S := S8x128) r1_hz2, View.ld_unit_zero (S := S128x128) r1_hz2, View.ld_unit_zero (S := S1x128) r1_hz2, View.ld_unit_zero (S := S128x16) r1_hz2, View.ld_unit_zero (S := S1x16) r1_hz2,
    View.ld_unit_zero (S := S1x1000x128) r1_hz3, View.ld_unit_zero (S := S1x1000x1) r1_hz3]

/-! ## The same at the grid positions -/

/-- The accumulator after the first position. -/
theorem outsAt1_A_snd (c : Dev nD) (t : Fin cfg1.N) (h0 : t.val = 0) :
    (outsAt1 V c t.val t.isLt).2
      = k1_pay1 (k1_pay4 (grid1.coords t)) (k1_pay3 (F := F)) (k1_pay5 (iblk1 V c 0 t) (iblk1 V c 1 t) (iblk1 V c 2 t) (iblk1 V c 3 t)) (Scalar.ofBits .f32 0x00000000#32) := by
  rw [outsAt1_A V c t h0]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => by have := (hcond1_1 t).mp h; omega) (iblk1 V c 0 t) (iblk1 V c 1 t) (iblk1 V c 2 t) (iblk1 V c 3 t) (iblk1 V c 4 t) (iblk1 V c 5 t)

/-- The accumulator after a middle position, from what the position before left in it. -/
theorem outsAt1_B_snd (c : Dev nD) (t : Fin cfg1.N) (h0 : ¬t.val = 0) (h1 : ¬t.val = 19) :
    (outsAt1 V c t.val t.isLt).2
      = k1_pay1 (k1_pay4 (grid1.coords t)) (outsAt1 V c (t.val - 1) (Nat.lt_of_le_of_lt (Nat.sub_le _ _) t.isLt)).2 (k1_pay5 (iblk1 V c 0 t) (iblk1 V c 1 t) (iblk1 V c 2 t) (iblk1 V c 3 t)) (Scalar.ofBits .f32 0x00000000#32) := by
  rw [outsAt1_B V c t h0 h1]; dsimp only
  exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- The accumulator after the last position, from what the position before left in it. -/
theorem outsAt1_C_snd (c : Dev nD) (t : Fin cfg1.N) (h0 : ¬t.val = 0) (h1 : t.val = 19) :
    (outsAt1 V c t.val t.isLt).2
      = k1_pay1 (k1_pay4 (grid1.coords t)) (outsAt1 V c (t.val - 1) (Nat.lt_of_le_of_lt (Nat.sub_le _ _) t.isLt)).2 (k1_pay5 (iblk1 V c 0 t) (iblk1 V c 1 t) (iblk1 V c 2 t) (iblk1 V c 3 t)) (Scalar.ofBits .f32 0x00000000#32) := by
  rw [outsAt1_C V c t h0 h1]; dsimp only
  exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- The accumulator after any position but the first: one step of the accumulation. -/
theorem outsAt1_pos_snd (c : Dev nD) (t : Fin cfg1.N) (h0 : ¬t.val = 0) :
    (outsAt1 V c t.val t.isLt).2
      = k1_pay1 (k1_pay4 (grid1.coords t)) (outsAt1 V c (t.val - 1) (Nat.lt_of_le_of_lt (Nat.sub_le _ _) t.isLt)).2 (k1_pay5 (iblk1 V c 0 t) (iblk1 V c 1 t) (iblk1 V c 2 t) (iblk1 V c 3 t)) (Scalar.ofBits .f32 0x00000000#32) := by
  by_cases h1 : t.val = 19
  · exact outsAt1_C_snd V c t h0 h1
  · exact outsAt1_B_snd V c t h0 h1

/-- The output's buffer after the last position: the final value of that position's accumulator. -/
theorem outsAt1_C_fst (c : Dev nD) (t : Fin cfg1.N) (h0 : ¬t.val = 0) (h1 : t.val = 19) :
    (outsAt1 V c t.val t.isLt).1
      = k1_pay2 (outsAt1 V c t.val t.isLt).2 (iblk1 V c 4 t) (iblk1 V c 5 t) := by
  rw [outsAt1_C_snd V c t h0 h1, outsAt1_C V c t h0 h1]; dsimp only
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

end Cert.KernelIdeal.Hand

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«157275_g83597243449447_cont_9to1_m_596_53_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Spec.lean ====
/-
  The graph-convolution branch and the pairwise distance, as index-by-index functions over the extended reals.

  One branch turns the aggregated, degree-scaled node features `a` (one row of 128 features per node) into a vector of
  128 pooled activations: every row goes through the dense layer `a · W + b`, is divided by its Euclidean norm (clamped
  below by a small constant), squashed by the logistic function and clamped at zero; the rows are then summed column by
  column.  Each row's result depends on that row of `a` only, which is what lets the rows be processed in blocks of any
  size; and a column sum over all rows is the sum of the blocks' column sums, by commutativity and associativity of
  addition alone (no cancellation, no distributivity: the laws that fail at the infinities are not used).
-/
import Idealize.ShloMosaic.PureOps.Ideal
import Idealize.ShloMosaic.PureOps.Ideal.Laws
import Idealize.ShloMosaic.Lib.ValueIdx
import proofs.«157275_g83597243449447_cont_9to1_m_596_53_alg».proof.Proof.LibDenseLayers
import proofs.«157275_g83597243449447_cont_9to1_m_596_53_alg».proof.Proof.LibBlockSum

noncomputable section

namespace Cert.Gcn

open Idealize.ShloMosaic Idealize.ShloMosaic.ValueIdx Cert.Layers

/-- An `a × b` array of extended reals. -/
abbrev Mat (a b : Nat) := (⟨2, ![a, b]⟩ : Shape).Idx → EReal

variable {M M' : Nat}

/-- The lower clamp of a row's norm. -/
def epsNorm : EReal := Ideal.ofBits .f32 0x2B8CBCCC#32
/-- The offset added to the difference of the two branches' outputs. -/
def epsDist : EReal := Ideal.ofBits .f32 0x358637BD#32

/-- A row's Euclidean norm, clamped below. -/
def rowNorm (t : Mat M 128) (p : Fin M) : EReal :=
  max (Ideal.sqrt (∑ j : Fin 128, t (ix2 p j) * t (ix2 p j))) epsNorm

/-- Every row divided by its clamped norm, squashed by the logistic function, clamped at zero. -/
def squash (t : Mat M 128) : Mat M 128 :=
  fun i => max (Ideal.logistic (Ideal.div (t i) (rowNorm t (i 0)))) 0

/-- The node activations of the degree-scaled aggregate `a`. -/
def nodeAct (a : Mat M 128) (W : Mat 128 128) (b : Mat 1 128) : Mat M 128 :=
  squash (addRow (project a W) b)

/-- A column's sum over all rows. -/
def colSum (u : Mat M 128) (j : Fin 128) : EReal := ∑ r : Fin M, u (ix2 r j)

theorem squash_apply (t : Mat M 128) (p : Fin M) (j : Fin 128) :
    squash t (ix2 p j) = max (Ideal.logistic (Ideal.div (t (ix2 p j)) (rowNorm t p))) 0 := rfl

theorem nodeAct_apply (a : Mat M 128) (W : Mat 128 128) (b : Mat 1 128) (p : Fin M) (j : Fin 128) :
    nodeAct a W b (ix2 p j)
      = max (Ideal.logistic (Ideal.div (addRow (project a W) b (ix2 p j)) (rowNorm (addRow (project a W) b) p))) 0 := rfl

theorem addRow_project_apply (a : Mat M 128) (W : Mat 128 128) (b : Mat 1 128) (p : Fin M) (j : Fin 128) :
    addRow (project a W) b (ix2 p j) = (∑ k : Fin 128, a (ix2 p k) * W (ix2 k j)) + b (ix2 (0 : Fin 1) j) := rfl

/-- A node's activations depend on that node's row only: two arrays that agree on a row (each at its own row number)
    give that row the same activations. -/
theorem nodeAct_row (a : Mat M 128) (a' : Mat M' 128) (W : Mat 128 128) (b : Mat 1 128) (p : Fin M) (p' : Fin M')
    (h : ∀ k : Fin 128, a (ix2 p k) = a' (ix2 p' k)) (j : Fin 128) :
    nodeAct a W b (ix2 p j) = nodeAct a' W b (ix2 p' j) := by
  have hrow : ∀ q : Fin 128, addRow (project a W) b (ix2 p q) = addRow (project a' W) b (ix2 p' q) := fun q => by
    rw [addRow_project_apply, addRow_project_apply]
    exact congrArg (· + b (ix2 (0 : Fin 1) q)) (Finset.sum_congr rfl fun k _ => by rw [h k])
  rw [nodeAct_apply, nodeAct_apply, hrow j]
  unfold rowNorm
  rw [Finset.sum_congr rfl fun q _ => by rw [hrow q]]

/-- THE REGROUPING. If the `J` blocks of `B` rows are the consecutive rows of one array of `J * B` rows, the sum of the
    blocks' column sums is the whole array's column sum. -/
theorem colSum_blocks (J B : Nat) (A : Mat (J * B) 128) (blk : Fin J → Mat B 128) (W : Mat 128 128) (b : Mat 1 128)
    (hblk : ∀ (s : Fin J) (l : Fin B) (k : Fin 128),
      blk s (ix2 l k) = A (ix2 (⟨B * s.val + l.val, by
        have h1 := s.isLt; have h2 := l.isLt
        calc B * s.val + l.val < B * s.val + B := by omega
          _ = B * (s.val + 1) := by ring
          _ ≤ B * J := Nat.mul_le_mul_left B h1
          _ = J * B := Nat.mul_comm B J⟩ : Fin (J * B)) k))
    (j : Fin 128) :
    ∑ s : Fin J, colSum (nodeAct (blk s) W b) j = colSum (nodeAct A W b) j := by
  classical
  let f : ℕ → EReal := fun n => if h : n < J * B then nodeAct A W b (ix2 (⟨n, h⟩ : Fin (J * B)) j) else 0
  have hR : colSum (nodeAct A W b) j = ∑ k : Fin (J * B), f k.val := by
    unfold colSum
    exact Finset.sum_congr rfl fun k _ => by simp only [f, dif_pos k.isLt]
  rw [hR, ← Cert.Lib.sum_blocks J B f, Finset.sum_range (fun s => ∑ l : Fin B, f (B * s + l.val))]
  refine Finset.sum_congr rfl fun s _ => ?_
  unfold colSum
  refine Finset.sum_congr rfl fun l _ => ?_
  have hlt : B * s.val + l.val < J * B := by
    have h1 := s.isLt; have h2 := l.isLt
    calc B * s.val + l.val < B * s.val + B := by omega
      _ = B * (s.val + 1) := by ring
      _ ≤ B * J := Nat.mul_le_mul_left B h1
      _ = J * B := Nat.mul_comm B J
  simp only [f, dif_pos hlt]
  exact nodeAct_row (blk s) A W b l ⟨B * s.val + l.val, hlt⟩ (fun k => hblk s l k) j

/-- The classifier applied to a pooled vector `g`: `∑ j, g j · Wk (j, q) + bk q`. -/
def logits (g : Fin 128 → EReal) (Wk : Mat 128 16) (bk : Mat 1 16) (q : Fin 16) : EReal :=
  (∑ j : Fin 128, g j * Wk (ix2 j q)) + bk (ix2 (0 : Fin 1) q)

/-- The distance of the two branches' outputs, with the offset inside. -/
def dist (o1 o2 : Fin 16 → EReal) : EReal :=
  Ideal.sqrt (∑ q : Fin 16, (o1 q - o2 q + epsDist) * (o1 q - o2 q + epsDist))

end Cert.Gcn

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«157275_g83597243449447_cont_9to1_m_596_53_alg».proof.Proof.LibPlainDot
import proofs.«157275_g83597243449447_cont_9to1_m_596_53_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibUnitSum.lean ====
/-
  Sums over index sets with unit axes: a sum over every index of a shape whose axes all have size one but
  one is the sum over that axis's coordinate.
-/
import Idealize.ShloMosaic.Lib.ValueIdx

open scoped BigOperators

namespace Cert.Lib

open Idealize.ShloMosaic Idealize.ShloMosaic.ValueIdx

variable {M : Type*} [AddCommMonoid M]

/-- Over `[1, n]`: the sum over all indices is the sum over the second coordinate. -/
theorem sum_idx_1n {n : ℕ} (f : (⟨2, ![1, n]⟩ : Shape).Idx → M) :
    ∑ i, f i = ∑ l : Fin n, f (ix2 (0 : Fin 1) l) := by
  have hl : ∀ i : (⟨2, ![1, n]⟩ : Shape).Idx, ix2 (0 : Fin 1) (i 1) = i := fun i => by
    funext d
    match d with
    | ⟨0, _⟩ => exact Subsingleton.elim (α := Fin 1) _ _
    | ⟨1, _⟩ => rfl
  let e : (⟨2, ![1, n]⟩ : Shape).Idx ≃ Fin n :=
    { toFun := fun i => i 1, invFun := fun l => ix2 (0 : Fin 1) l, left_inv := hl, right_inv := fun _ => rfl }
  exact Fintype.sum_equiv e _ _ (fun i => congrArg f (hl i).symm)

/-- Over `[1, 1, n]`: the sum over all indices is the sum over the last coordinate. -/
theorem sum_idx_11n {n : ℕ} (f : (⟨3, ![1, 1, n]⟩ : Shape).Idx → M) :
    ∑ i, f i = ∑ l : Fin n, f (ix3 (0 : Fin 1) (0 : Fin 1) l) := by
  have hl : ∀ i : (⟨3, ![1, 1, n]⟩ : Shape).Idx, ix3 (0 : Fin 1) (0 : Fin 1) (i 2) = i := fun i => by
    funext d
    match d with
    | ⟨0, _⟩ => exact Subsingleton.elim (α := Fin 1) _ _
    | ⟨1, _⟩ => exact Subsingleton.elim (α := Fin 1) _ _
    | ⟨2, _⟩ => rfl
  let e : (⟨3, ![1, 1, n]⟩ : Shape).Idx ≃ Fin n :=
    { toFun := fun i => i 2, invFun := fun l => ix3 (0 : Fin 1) (0 : Fin 1) l, left_inv := hl, right_inv := fun _ => rfl }
  exact Fintype.sum_equiv e _ _ (fun i => congrArg f (hl i).symm)

/-- Over `[n, 1, 1]`: the sum over all indices is the sum over the first coordinate. -/
theorem sum_idx_n11 {n : ℕ} (f : (⟨3, ![n, 1, 1]⟩ : Shape).Idx → M) :
    ∑ i, f i = ∑ s : Fin n, f (ix3 s (0 : Fin 1) (0 : Fin 1)) := by
  have hl : ∀ i : (⟨3, ![n, 1, 1]⟩ : Shape).Idx, ix3 (i 0) (0 : Fin 1) (0 : Fin 1) = i := fun i => by
    funext d
    match d with
    | ⟨0, _⟩ => rfl
    | ⟨1, _⟩ => exact Subsingleton.elim (α := Fin 1) _ _
    | ⟨2, _⟩ => exact Subsingleton.elim (α := Fin 1) _ _
  let e : (⟨3, ![n, 1, 1]⟩ : Shape).Idx ≃ Fin n :=
    { toFun := fun i => i 0, invFun := fun s => ix3 s (0 : Fin 1) (0 : Fin 1), left_inv := hl, right_inv := fun _ => rfl }
  exact Fintype.sum_equiv e _ _ (fun i => congrArg f (hl i).symm)

end Cert.Lib
-- ==== Proof.KI.EpiPay.lean ====
/-
  What the second kernel's body computes, read index by index over the extended reals.

  At one grid point the body has a block of 1000 aggregated rows (128 features each), the in-degree norm of each of
  those rows, the convolution's weights and bias row, and — at the last point — the classifier's weights and bias row.
  Its arithmetic comes in pieces: the block's column sums of the node activations (broadcast over 8 sublanes), the
  row mask that selects the accumulator row of the point's graph, the masked addition into the accumulator, and the
  head (scale, classifier, distance of rows 0 and 1).
-/
import proofs.«157275_g83597243449447_cont_9to1_m_596_53_alg».proof.Proof.Gen.KernelIdeal.Skeleton
import proofs.«157275_g83597243449447_cont_9to1_m_596_53_alg».proof.Proof.Spec
import proofs.«157275_g83597243449447_cont_9to1_m_596_53_alg».proof.Proof.LibKernelDense
import proofs.«157275_g83597243449447_cont_9to1_m_596_53_alg».proof.Proof.LibKeepdims
import proofs.«157275_g83597243449447_cont_9to1_m_596_53_alg».proof.Proof.LibUnitSum
import Idealize.ShloMosaic.Lib.Pipeline.Value
import Idealize.ShloMosaic.Lib.ValueLayout
import Idealize.ShloMosaic.PureOps.IdealRules

set_option maxRecDepth 16384

noncomputable section

namespace Cert.KernelIdeal.Epi

open Cert.KernelIdeal Cert.KernelIdeal.Gen
open Idealize.ShloMosaic Idealize.ShloMosaic.ValueIdx Cert.Layers Cert.Gcn

/-- A block's aggregated rows, each scaled by its in-degree norm. -/
def scaledRows (v0 : FVec Ideal S1x1000x128 .f32) (v2 : FVec Ideal S1x1000x1 .f32) : Mat 1000 128 :=
  fun i => v0 (ix3 (n0 := 1) (n1 := 1000) (n2 := 128) 0 (i 0) (i 1)) * v2 (ix3 (n0 := 1) (n1 := 1000) (n2 := 1) 0 (i 0) 0)

theorem scaledRows_apply (v0 : FVec Ideal S1x1000x128 .f32) (v2 : FVec Ideal S1x1000x1 .f32) (r : Fin 1000) (k : Fin 128) :
    scaledRows v0 v2 (ix2 r k) = v0 (ix3 (0 : Fin 1) r k) * v2 (ix3 (0 : Fin 1) r (0 : Fin 1)) := rfl

/-- The dense layer of the block: the scaled rows times the weights, plus the bias row. -/
theorem dense_eq (v0 : FVec Ideal S1x1000x128 .f32) (v2 : FVec Ideal S1x1000x1 .f32) (v6 : FVec Ideal S128x128 .f32) (v8 : FVec Ideal S1x128 .f32) :
    addf (matmul (F := Ideal) dot_S1000x128_S128x128_S1000x128_1_0_0_1_n_n none
        (mulf (shapeCast S1000x128 v0 shapeCasts_S1x1000x128_S1000x128)
          (broadcastTo S1000x128 (shapeCast S1000x1 v2 shapeCasts_S1x1000x1_S1000x1) broadcasts_S1000x1_S1000x128))
        v6 (constant S1000x128 .f32 0x00000000#32))
      (broadcastTo S1000x128 (shapeCast S1x128 v8 shapeCasts_S1x128_S1x128) broadcasts_S1x128_S1000x128)
    = addRow (project (scaledRows v0 v2) v6) v8 := by
  rw [shapeCast_self]
  have hx : mulf (shapeCast S1000x128 v0 shapeCasts_S1x1000x128_S1000x128)
      (broadcastTo S1000x128 (shapeCast S1000x1 v2 shapeCasts_S1x1000x1_S1000x1) broadcasts_S1000x1_S1000x128)
      = scaledRows v0 v2 := by
    funext i
    obtain ⟨r, k, rfl⟩ : ∃ (r : Fin 1000) (k : Fin 128), i = ix2 r k := ⟨i 0, i 1, eq_ix2 i⟩
    show shapeCast S1000x128 v0 shapeCasts_S1x1000x128_S1000x128 (ix2 r k)
        * broadcastTo S1000x128 (shapeCast S1000x1 v2 shapeCasts_S1x1000x1_S1000x1) broadcasts_S1000x1_S1000x128 (ix2 r k) = _
    rw [shapeCast_1ab_ab_apply v0 _ r k, Cert.LibKeepdims.broadcastTo_a1_ab_apply _ _ r k,
      shapeCast_1ab_ab_apply v2 _ r (0 : Fin 1), scaledRows_apply]
  rw [hx]
  exact Cert.Lib.matmul_bias_eq_addRow _ rfl none (scaledRows v0 v2) v6 v8 broadcasts_S1x128_S1000x128

/-- A row's clamped norm, as the body computes it: the lane sum of the squares as a column, its square root, the clamp,
    broadcast back over the lanes. -/
theorem normCol_apply (T : FVec Ideal S1000x128 .f32) (r : Fin 1000) (j : Fin 128) :
    broadcastTo S1000x128
        (maximumf (sqrt (shapeCast S1000x1 (multiReduction (F := Ideal) .add [1] S1000 (mulf T T) 0x00000000#32 reduces_S1000x128_S1000 (.inl rfl) rfl) shapeCasts_S1000_S1000x1))
          (broadcast S1000x1 (Scalar.ofBits (F := Ideal) .f32 0x2B8CBCCC#32)))
        broadcasts_S1000x1_S1000x128 (ix2 r j)
      = rowNorm T r := by
  rw [Cert.LibKeepdims.broadcastTo_a1_ab_apply _ _ r j]
  show max (Ideal.sqrt (shapeCast S1000x1 (multiReduction (F := Ideal) .add [1] S1000 (mulf T T) 0x00000000#32 reduces_S1000x128_S1000 (.inl rfl) rfl) shapeCasts_S1000_S1000x1 (ix2 r (0 : Fin 1))))
      (Ideal.ofBits .f32 0x2B8CBCCC#32) = _
  rw [Cert.LibKeepdims.shapeCast_a_a1_apply _ _ r (0 : Fin 1)]
  unfold rowNorm epsNorm
  refine congrArg (fun z => max (Ideal.sqrt z) (Ideal.ofBits .f32 0x2B8CBCCC#32)) ?_
  refine (Ideal.multiReduction_add_single (mulf T T) 0x00000000#32 reduces_S1000x128_S1000 (.inl rfl) rfl (ix1 r)).trans ?_
  refine Finset.sum_congr rfl fun (k : Fin 128) _ => ?_
  have hl : reduces_S1000x128_S1000.lift (ix1 r) k = (ix2 r k : S1000x128.Idx) := by
    funext a
    match a with
    | ⟨0, _⟩ => rfl
    | ⟨1, _⟩ => rfl
  rw [hl]
  rfl

/-- The block's column sums of the node activations, on every sublane. -/
theorem pay5_apply (v0 : FVec Ideal S1x1000x128 .f32) (v2 : FVec Ideal S1x1000x1 .f32) (v6 : FVec Ideal S128x128 .f32) (v8 : FVec Ideal S1x128 .f32)
    (s : Fin 8) (j : Fin 128) :
    k1_pay5 (F := Ideal) v0 v2 v6 v8 (ix2 s j) = colSum (nodeAct (scaledRows v0 v2) v6 v8) j := by
  unfold k1_pay5
  dsimp only
  rw [dense_eq v0 v2 v6 v8]
  rw [broadcastTo_1b_ab_apply _ _ s j, shapeCast_self, shapeCast_a_1a_apply _ _ (0 : Fin 1) j]
  refine (Ideal.multiReduction_add_single _ 0x00000000#32 reduces_S1000x128_S128 (.inl rfl) rfl (ix1 j)).trans ?_
  unfold colSum
  refine Finset.sum_congr rfl fun (r : Fin 1000) _ => ?_
  have hl : reduces_S1000x128_S128.lift (ix1 j) r = (ix2 r j : S1000x128.Idx) := by
    funext a
    match a with
    | ⟨0, _⟩ => rfl
    | ⟨1, _⟩ => rfl
  rw [hl]
  show max (Ideal.logistic (Ideal.div (addRow (project (scaledRows v0 v2) v6) v8 (ix2 r j)) _)) (Ideal.ofBits .f32 0x00000000#32) = _
  rw [Ideal.ofBits_zero_f32, normCol_apply (addRow (project (scaledRows v0 v2) v6) v8) r j]
  rfl

end Cert.KernelIdeal.Epi

end
-- ==== Proof.KI.EpiHead.lean ====
/-
  The accumulator's steps and the head of the second kernel's body, read index by index over the extended reals.

  The accumulator has 8 rows of 128 lanes.  At a grid point of graph `g` (0 or 1) the body adds the block's column sums
  to row `g` and zero to every other row; at the first point it starts from zeros.  At the last point the head scales the
  accumulator by the reciprocal of the node count, applies the classifier to every row, and returns the distance between
  rows 0 and 1 (with the offset inside), on every element of the output tile.
-/
import proofs.«157275_g83597243449447_cont_9to1_m_596_53_alg».proof.Proof.KI.EpiPay

set_option maxRecDepth 16384

noncomputable section

namespace Cert.KernelIdeal.Epi

open Cert.KernelIdeal Cert.KernelIdeal.Gen
open Idealize.ShloMosaic Idealize.ShloMosaic.ValueIdx Cert.Layers Cert.Gcn

/-- The accumulator's reset value is zero everywhere. -/
theorem pay3_apply (i : S8x128.Idx) : k1_pay3 (F := Ideal) i = 0 := by
  unfold k1_pay3
  rw [shapeCast_self]
  show Ideal.ofBits .f32 0x00000000#32 = 0
  exact Ideal.ofBits_zero_f32

/-- The row mask of a grid point selects the accumulator row with the point's graph number. -/
theorem pay4_apply (g : grid1.Coords) (s : Fin 8) (j : Fin 128) :
    k1_pay4 g (ix2 s j) = 1#1 ↔ s.val = (g 0).val := by
  unfold k1_pay4
  dsimp only
  show IntOp.cmpi .eq (iota .tc S8x128 32 [0] iota_S8x128_d0_w32 (ix2 s j)) (BitVec.ofNat 32 (g 0).val) = 1#1 ↔ _
  rw [iota_single_apply, IntOp.cmpi_eq]
  show BitVec.ofNat 32 s.val = BitVec.ofNat 32 (g 0).val ↔ _
  have hs : s.val < 2 ^ 32 := lt_of_lt_of_le s.isLt (by norm_num)
  have hg : (g 0).val < 2 ^ 32 := lt_of_lt_of_le (g 0).isLt (by decide)
  constructor
  · intro h
    have := congrArg BitVec.toNat h
    rwa [BitVec.toNat_ofNat, BitVec.toNat_ofNat, Nat.mod_eq_of_lt hs, Nat.mod_eq_of_lt hg] at this
  · intro h; rw [h]

/-- One step of the accumulator: the block's column sums are added to the row of the point's graph, zero elsewhere. -/
theorem pay1_apply (g : grid1.Coords) (acc cb : FVec Ideal S8x128 .f32) (s : Fin 8) (j : Fin 128) :
    k1_pay1 (F := Ideal) (k1_pay4 g) acc cb (Scalar.ofBits .f32 0x00000000#32) (ix2 s j)
      = acc (ix2 s j) + (if s.val = (g 0).val then cb (ix2 s j) else 0) := by
  unfold k1_pay1
  dsimp only
  rw [shapeCast_self]
  show acc (ix2 s j) + Scalar.select (k1_pay4 g (ix2 s j)) (cb (ix2 s j)) (Ideal.ofBits .f32 0x00000000#32) = _
  rw [Ideal.ofBits_zero_f32]
  by_cases h : s.val = (g 0).val
  · rw [if_pos h, (pay4_apply g s j).mpr h, select_one]
  · have hz : k1_pay4 g (ix2 s j) = 0#1 := by
      rcases BitVec.eq_zero_or_eq_one (k1_pay4 g (ix2 s j)) with h0 | h1
      · exact h0
      · exact absurd ((pay4_apply g s j).mp h1) h
    rw [if_neg h, hz, select_zero]

/-- The reciprocal of the node count, by the certificate's table of named constants. -/
theorem inv_nodes : Named.named (F := Ideal) κ "inv_10000" (φ := .f32) 0x38D1B717#32 = ((1 / 10000 : ℝ) : EReal) :=
  IdealRules.named_const.ideal_named_scalar _ _ _ _ rfl

/-- The head: every element of the output tile is the distance between the classifier's outputs on rows 0 and 1 of the
    accumulator scaled by the reciprocal of the node count. -/
theorem pay2_apply (acc : FVec Ideal S8x128 .f32) (Wk : FVec Ideal S128x16 .f32) (bk : FVec Ideal S1x16 .f32) (i : S8x128.Idx) :
    k1_pay2 (F := Ideal) acc Wk bk i
      = Cert.Gcn.dist (logits (fun j => acc (ix2 (0 : Fin 8) j) * ((1 / 10000 : ℝ) : EReal)) Wk bk)
             (logits (fun j => acc (ix2 (1 : Fin 8) j) * ((1 / 10000 : ℝ) : EReal)) Wk bk) := by
  unfold k1_pay2
  dsimp only
  rw [shapeCast_self, inv_nodes,
    Cert.Lib.matmul_bias_eq_addRow dot_S8x128_S128x16_S8x16_1_0_0_1_n_n rfl none
      (mulf acc (broadcast S8x128 (((1 / 10000 : ℝ) : EReal) : Ideal .f32))) Wk bk broadcasts_S1x16_S8x16]
  -- the square root of the one entry of the fully reduced squares, on every element of the tile
  show Ideal.sqrt (shapeCast S1x1x1 _ shapeCasts_S1_S1x1x1 _) = _
  rw [shapeCast_apply _ shapeCasts_S1_S1x1x1 _ (ix1 (0 : Fin 1)) (by rfl)]
  rw [Ideal.multiReduction_add_total _ 0x00000000#32 reduces_S1x1x16_S1 (by decide) (.inl rfl) rfl (ix1 (0 : Fin 1)),
    Cert.Lib.sum_idx_11n]
  unfold Cert.Gcn.dist
  refine congrArg Ideal.sqrt (Finset.sum_congr rfl fun l _ => ?_)
  rw [shapeCast_ab_1ab_apply _ shapeCasts_S1x16_S1x1x16 (0 : Fin 1) (0 : Fin 1) l]
  have hD : ∀ (O : FVec Ideal S8x16 .f32),
      addf (subf (extractStridedSlice S1x16 ![0, 0] O slices_S8x16_o0_0_S1x16) (extractStridedSlice S1x16 ![1, 0] O slices_S8x16_o1_0_S1x16))
          (broadcast S1x16 (Scalar.ofBits (F := Ideal) .f32 0x358637BD#32)) (ix2 (0 : Fin 1) l)
        = O (ix2 (0 : Fin 8) l) - O (ix2 (1 : Fin 8) l) + epsDist := fun O => by
    show extractStridedSlice S1x16 ![0, 0] O slices_S8x16_o0_0_S1x16 (ix2 (0 : Fin 1) l)
        - extractStridedSlice S1x16 ![1, 0] O slices_S8x16_o1_0_S1x16 (ix2 (0 : Fin 1) l) + Ideal.ofBits .f32 0x358637BD#32 = _
    rw [extractStridedSlice_apply ![0, 0] O slices_S8x16_o0_0_S1x16 (ix2 (0 : Fin 1) l) (ix2 (0 : Fin 8) l) (fun a => by
        match a with
        | ⟨0, _⟩ => rfl
        | ⟨1, _⟩ => show l.val = 0 + l.val; omega),
      extractStridedSlice_apply ![1, 0] O slices_S8x16_o1_0_S1x16 (ix2 (0 : Fin 1) l) (ix2 (1 : Fin 8) l) (fun a => by
        match a with
        | ⟨0, _⟩ => rfl
        | ⟨1, _⟩ => show l.val = 0 + l.val; omega)]
    rfl
  show (addf _ _ (ix2 (0 : Fin 1) l)) * (addf _ _ (ix2 (0 : Fin 1) l)) = _
  rw [hD]
  rfl

end Cert.KernelIdeal.Epi

end
-- ==== Proof.KI.EpiAcc.lean ====
/-
  The second kernel region's result as one function of the arrays it is entered with.

  The twenty grid points are the ten row blocks of graph 0 followed by the ten row blocks of graph 1.  Point `t` reads rows
  `1000·(t mod 10) … 1000·(t mod 10) + 999` of graph `t / 10` from the aggregate and from the in-degree norms, and the
  whole weight and bias arrays.  By induction on the point, row `s` of the accumulator after point `n` is the sum, over
  the points `t' ≤ n` of graph `s`, of their blocks' column sums; after the last point rows 0 and 1 hold the two graphs'
  column sums over all their 10000 nodes (the blocks regrouped), and the head turns them into the distance.
-/
import proofs.«157275_g83597243449447_cont_9to1_m_596_53_alg».proof.Proof.KI.Region1Read
import proofs.«157275_g83597243449447_cont_9to1_m_596_53_alg».proof.Proof.KI.EpiHead

set_option maxRecDepth 16384

noncomputable section

namespace Cert.KernelIdeal.Epi

open Cert.KernelIdeal Cert.KernelIdeal.Gen Cert.KernelIdeal.Hand
open Idealize.ShloMosaic Idealize.ShloMosaic.TcCoe Idealize.ShloMosaic.ValueIdx Cert.Layers Cert.Gcn
open Idealize.ShloMosaic.Pipeline (Dat)

variable (V : (c : Dev nD) → (b : Ref sig .tc) → Buf (Elt Ideal) ((c : Thread nD τ).loc b)) (c : Dev nD)

/-- The printed index maps and the first grid coordinate, decided over the twenty points. -/
theorem idx_facts1 : ∀ t : Fin cfg1.N,
    win1_0.index t (0 : Fin 3) = t.val / 10 ∧ win1_0.index t (1 : Fin 3) = t.val % 10 ∧ win1_0.index t (2 : Fin 3) = 0
    ∧ win1_1.index t (0 : Fin 3) = t.val / 10 ∧ win1_1.index t (1 : Fin 3) = t.val % 10 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ ((grid1.coords t) 0).val = t.val / 10 :=
  (by decide +kernel : ∀ t : Fin grid1.N, _)

/-- A block of the aggregate at a point: its row `r` is row `1000·(t mod 10) + r` of graph `t / 10`. -/
theorem iblk1_0_apply (t : Fin cfg1.N) (r : Fin 1000) (k : Fin 128) (i : S2x10000x128.Idx)
    (h0 : (i 0).val = t.val / 10) (h1 : (i 1).val = 1000 * (t.val % 10) + r.val) (h2 : (i 2).val = k.val) :
    iblk1 V c 0 t (ix3 (0 : Fin 1) r k) = V c main_v64 i := by
  show V c main_v64 (((cfg1.win 0).blk t).view.emb (ix3 (0 : Fin 1) r k)) = V c main_v64 i
  obtain ⟨e0, e1, e2, -⟩ := idx_facts1 t
  refine congrArg (V c main_v64) (funext fun a => Fin.ext ?_)
  match a with
  | ⟨0, _⟩ => show win1_0.index t (0 : Fin 3) * 1 + 1 * 0 = (i 0).val; omega
  | ⟨1, _⟩ => show win1_0.index t (1 : Fin 3) * 1000 + 1 * r.val = (i 1).val; omega
  | ⟨2, _⟩ => show win1_0.index t (2 : Fin 3) * 128 + 1 * k.val = (i 2).val; omega

/-- A block of the in-degree norms at a point, likewise. -/
theorem iblk1_1_apply (t : Fin cfg1.N) (r : Fin 1000) (i : S2x10000x1.Idx)
    (h0 : (i 0).val = t.val / 10) (h1 : (i 1).val = 1000 * (t.val % 10) + r.val) :
    iblk1 V c 1 t (ix3 (0 : Fin 1) r (0 : Fin 1)) = V c main_v32_1 i := by
  show V c main_v32_1 (((cfg1.win 1).blk t).view.emb (ix3 (0 : Fin 1) r (0 : Fin 1))) = V c main_v32_1 i
  obtain ⟨-, -, -, e0, e1, e2, -⟩ := idx_facts1 t
  refine congrArg (V c main_v32_1) (funext fun a => Fin.ext ?_)
  match a with
  | ⟨0, _⟩ => show win1_1.index t (0 : Fin 3) * 1 + 1 * 0 = (i 0).val; omega
  | ⟨1, _⟩ => show win1_1.index t (1 : Fin 3) * 1000 + 1 * r.val = (i 1).val; omega
  | ⟨2, _⟩ => show win1_1.index t (2 : Fin 3) * 1 + 1 * 0 = (i 2).val; have h2 : (i 2).val < 1 := (i 2).isLt; omega

/-- The four whole-array windows hold their arrays at every point. -/
theorem iblk1_2_eq (t : Fin cfg1.N) : iblk1 V c 2 t = V c main_arg4 := by
  funext y
  show V c main_arg4 (((cfg1.win 2).blk t).view.emb y) = V c main_arg4 y
  obtain ⟨-, -, -, -, -, -, e0, e1, -⟩ := idx_facts1 t
  refine congrArg (V c main_arg4) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem iblk1_3_eq (t : Fin cfg1.N) : iblk1 V c 3 t = V c main_v65 := by
  funext y
  show V c main_v65 (((cfg1.win 3).blk t).view.emb y) = V c main_v65 y
  obtain ⟨-, -, -, -, -, -, -, -, e0, e1, -⟩ := idx_facts1 t
  refine congrArg (V c main_v65) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem iblk1_4_eq (t : Fin cfg1.N) : iblk1 V c 4 t = V c main_arg6 := by
  funext y
  show V c main_arg6 (((cfg1.win 4).blk t).view.emb y) = V c main_arg6 y
  obtain ⟨-, -, -, -, -, -, -, -, -, -, e0, e1, -⟩ := idx_facts1 t
  refine congrArg (V c main_arg6) (funext fun a => Fin.ext ?_)
  match a with
  | ⟨0, _⟩ => show win1_4.index t (0 : Fin 2) * 128 + 1 * (y 0).val = (y 0).val; omega
  | ⟨1, _⟩ => show win1_4.index t (1 : Fin 2) * 16 + 1 * (y 1).val = (y 1).val; omega
theorem iblk1_5_eq (t : Fin cfg1.N) : iblk1 V c 5 t = V c main_v66 := by
  funext y
  show V c main_v66 (((cfg1.win 5).blk t).view.emb y) = V c main_v66 y
  obtain ⟨-, -, -, -, -, -, -, -, -, -, -, -, e0, e1, -⟩ := idx_facts1 t
  refine congrArg (V c main_v66) (funext fun a => Fin.ext ?_)
  match a with
  | ⟨0, _⟩ => show win1_5.index t (0 : Fin 2) * 1 + 1 * (y 0).val = (y 0).val; omega
  | ⟨1, _⟩ => show win1_5.index t (1 : Fin 2) * 16 + 1 * (y 1).val = (y 1).val; omega

/-! ## The accumulator, point by point -/

/-- The column sums of the node activations of the block grid position `n` reads (zero past the grid). -/
def blockSums (n : ℕ) (j : Fin 128) : EReal :=
  if h : n < cfg1.N then
    colSum (nodeAct (scaledRows (iblk1 V c 0 ⟨n, h⟩) (iblk1 V c 1 ⟨n, h⟩)) (iblk1 V c 2 ⟨n, h⟩) (iblk1 V c 3 ⟨n, h⟩)) j
  else 0

/-- One step at a point: what the accumulator held plus the block's column sums on the row of the point's graph. -/
theorem step_apply (t : Fin cfg1.N) (acc : FVec Ideal S8x128 .f32) (s : Fin 8) (j : Fin 128) :
    k1_pay1 (F := Ideal) (k1_pay4 (grid1.coords t)) acc
        (k1_pay5 (iblk1 V c 0 t) (iblk1 V c 1 t) (iblk1 V c 2 t) (iblk1 V c 3 t)) (Scalar.ofBits .f32 0x00000000#32) (ix2 s j)
      = acc (ix2 s j) + (if s.val = t.val / 10 then blockSums V c t.val j else 0) := by
  rw [pay1_apply (grid1.coords t) acc (k1_pay5 (iblk1 V c 0 t) (iblk1 V c 1 t) (iblk1 V c 2 t) (iblk1 V c 3 t)) s j,
    pay5_apply (iblk1 V c 0 t) (iblk1 V c 1 t) (iblk1 V c 2 t) (iblk1 V c 3 t) s j]
  have hg : ((grid1.coords t) 0).val = t.val / 10 := (idx_facts1 t).2.2.2.2.2.2.2.2.2.2.2.2.2.2
  rw [hg]
  unfold blockSums
  rw [dif_pos t.isLt]

/-- THE ACCUMULATOR after grid position `n`: on row `s`, the sum over the positions `t' ≤ n` of graph `s` of their blocks'
    column sums (from the zero it is reset to at the first point). -/
theorem acc_eq : ∀ (n : ℕ) (hn : n < cfg1.N) (s : Fin 8) (j : Fin 128),
    (outsAt1 V c n hn).2 (ix2 s j)
      = 0 + ∑ t' ∈ Finset.range (n + 1), (if s.val = t' / 10 then blockSums V c t' j else 0)
  | 0, hn, s, j => by
    have h := outsAt1_A_snd V c ⟨0, hn⟩ rfl
    rw [show (outsAt1 V c 0 hn).2 = _ from h, step_apply V c ⟨0, hn⟩ (k1_pay3 (F := Ideal)) s j, pay3_apply, Finset.sum_range_one]
  | n + 1, hn, s, j => by
    have h := outsAt1_pos_snd V c ⟨n + 1, hn⟩ (Nat.succ_ne_zero n)
    rw [show (outsAt1 V c (n + 1) hn).2 = _ from h, step_apply V c ⟨n + 1, hn⟩ _ s j]
    show (outsAt1 V c n (Nat.lt_of_succ_lt hn)).2 (ix2 s j) + _ = _
    rw [acc_eq n (Nat.lt_of_succ_lt hn) s j, Finset.sum_range_succ _ (n + 1), add_assoc]

/-! ## After the last point -/

/-- Graph `g`'s aggregate with every row scaled by its in-degree norm, as the region finds the two arrays. -/
def scaledSlab (Ag : FVec Ideal S2x10000x128 .f32) (nd : FVec Ideal S2x10000x1 .f32) (g : Fin 2) : Mat 10000 128 :=
  fun i => Ag (ix3 (n0 := 2) (n1 := 10000) (n2 := 128) g (i 0) (i 1)) * nd (ix3 (n0 := 2) (n1 := 10000) (n2 := 1) g (i 0) 0)

theorem scaledSlab_apply (Ag : FVec Ideal S2x10000x128 .f32) (nd : FVec Ideal S2x10000x1 .f32) (g : Fin 2) (n : Fin 10000) (k : Fin 128) :
    scaledSlab Ag nd g (ix2 n k) = Ag (ix3 g n k) * nd (ix3 g n (0 : Fin 1)) := rfl

/-- The same of the two arrays the region is entered with. -/
def aggScaled (g : Fin 2) : Mat 10000 128 := scaledSlab (V c main_v64) (V c main_v32_1) g

/-- The ten blocks of graph `g` regrouped: their column sums add up to the column sums over all of the graph's nodes. -/
theorem blocks_sum (g : Fin 2) (j : Fin 128) :
    ∑ l : Fin 10, blockSums V c (10 * g.val + l.val) j
      = colSum (nodeAct (aggScaled V c g) (V c main_arg4) (V c main_v65)) j := by
  have hlt : ∀ l : Fin 10, 10 * g.val + l.val < cfg1.N := fun l => by
    have := g.isLt; have := l.isLt; rw [show cfg1.N = 20 from N_1]; omega
  rw [← colSum_blocks 10 1000 (aggScaled V c g)
    (fun l => scaledRows (iblk1 V c 0 ⟨10 * g.val + l.val, hlt l⟩) (iblk1 V c 1 ⟨10 * g.val + l.val, hlt l⟩))
    (V c main_arg4) (V c main_v65) (fun s l k => by
      have hg := g.isLt; have hs := s.isLt; have hl := l.isLt
      unfold aggScaled
      rw [scaledRows_apply, scaledSlab_apply]
      rw [iblk1_0_apply V c ⟨10 * g.val + s.val, hlt s⟩ l k (ix3 g ⟨1000 * s.val + l.val, by omega⟩ k)
          (by show g.val = (10 * g.val + s.val) / 10; omega) (by show 1000 * s.val + l.val = 1000 * ((10 * g.val + s.val) % 10) + l.val; omega) rfl,
        iblk1_1_apply V c ⟨10 * g.val + s.val, hlt s⟩ l (ix3 g ⟨1000 * s.val + l.val, by omega⟩ (0 : Fin 1))
          (by show g.val = (10 * g.val + s.val) / 10; omega) (by show 1000 * s.val + l.val = 1000 * ((10 * g.val + s.val) % 10) + l.val; omega)]) j]
  refine Finset.sum_congr rfl fun l _ => ?_
  unfold blockSums
  rw [dif_pos (hlt l), iblk1_2_eq, iblk1_3_eq]

/-- Row `g` (0 or 1) of the accumulator after the last point: graph `g`'s column sums over all its nodes. -/
theorem acc_final (h19 : 19 < cfg1.N) (g : Fin 2) (j : Fin 128) :
    (outsAt1 V c 19 h19).2 (ix2 (⟨g.val, by have := g.isLt; omega⟩ : Fin 8) j)
      = 0 + colSum (nodeAct (aggScaled V c g) (V c main_arg4) (V c main_v65)) j := by
  rw [acc_eq V c 19 h19 _ j, ← blocks_sum V c g j]
  refine congrArg (0 + ·) ?_
  show ∑ t' ∈ Finset.range 20, (if g.val = t' / 10 then blockSums V c t' j else 0) = _
  have key := Cert.Lib.sum_blocks 2 10 (fun t' => if g.val = t' / 10 then blockSums V c t' j else 0)
  rw [← Finset.sum_range (fun t' => if g.val = t' / 10 then blockSums V c t' j else 0)] at key
  rw [← key, Finset.sum_range_succ, Finset.sum_range_one]
  have hdiv : ∀ (s' : ℕ) (l : Fin 10), (10 * s' + l.val) / 10 = s' := fun s' l => by have := l.isLt; omega
  simp only [hdiv]
  match g with
  | ⟨0, _⟩ => simp
  | ⟨1, _⟩ => simp

/-- THE REGION'S RESULT: every element of the output tile after the last point is the distance of the two graphs'
    classifier outputs on their pooled activations, the pooling scaled by the reciprocal of the node count. -/
theorem out_final (h19 : 19 < cfg1.N) (i : S8x128.Idx) :
    (outsAt1 V c 19 h19).1 i
      = Cert.Gcn.dist
          (logits (fun j => (0 + colSum (nodeAct (aggScaled V c 0) (V c main_arg4) (V c main_v65)) j) * ((1 / 10000 : ℝ) : EReal)) (V c main_arg6) (V c main_v66))
          (logits (fun j => (0 + colSum (nodeAct (aggScaled V c 1) (V c main_arg4) (V c main_v65)) j) * ((1 / 10000 : ℝ) : EReal)) (V c main_arg6) (V c main_v66)) := by
  have h := outsAt1_C_fst V c ⟨19, h19⟩ (Nat.succ_ne_zero 18) rfl
  rw [show (outsAt1 V c 19 h19).1 = _ from h, iblk1_4_eq, iblk1_5_eq,
    pay2_apply (outsAt1 V c 19 h19).2 (V c main_arg6) (V c main_v66) i]
  have e0 := fun j => acc_final V c h19 0 j
  have e1 := fun j => acc_final V c h19 1 j
  simp only [show (⟨(0 : Fin 2).val, by decide⟩ : Fin 8) = 0 from rfl, show (⟨(1 : Fin 2).val, by decide⟩ : Fin 8) = 1 from rfl] at e0 e1
  simp only [e0, e1]

end Cert.KernelIdeal.Epi

end
-- ==== Proof.KI.EpiFinal.lean ====
/-
  The second kernel region's output array after the run.

  Its one window is the whole [8, 128] array at every point, written back at the last point only; so the array ends
  holding what the body left in the window's buffer at the last point.
-/
import proofs.«157275_g83597243449447_cont_9to1_m_596_53_alg».proof.Proof.KI.EpiAcc

set_option maxRecDepth 16384

noncomputable section

namespace Cert.KernelIdeal.Epi

open Cert.KernelIdeal Cert.KernelIdeal.Gen Cert.KernelIdeal.Hand
open Idealize.ShloMosaic Idealize.ShloMosaic.TcCoe Idealize.ShloMosaic.ValueIdx Cert.Layers Cert.Gcn
open Idealize.ShloMosaic.Pipeline (Dat)

variable (V : (c : Dev nD) → (b : Ref sig .tc) → Buf (Elt Ideal) ((c : Thread nD τ).loc b)) (c : Dev nD)

/-- The output window's block index is (0, 0) at every point. -/
theorem idx_out1 : ∀ t : Fin cfg1.N, win1_6.index t (0 : Fin 2) = 0 ∧ win1_6.index t (1 : Fin 2) = 0 :=
  (by decide +kernel : ∀ t : Fin grid1.N, _)

/-- What the one flushing point writes back is the last point's buffer, read through the whole-array block. -/
theorem flushed1_6_eq (h19 : 19 < cfg1.N) (t : Fin cfg1.N) (hf : (cfg1.win 6).flush t = true) :
    (dat1 V c).flushed 6 t = ((cfg1.win 6).blk t).view.read (Elt Ideal) (outsAt1 V c 19 h19).1 := by
  have ht : t.val = 19 := by
    have h1 := (flush1_6 t).mp hf
    have h2 : t.val < 20 := lt_of_lt_of_eq t.isLt N_1
    omega
  show (cfg1.win 6).cut (grid1.coords t) ((dat1 V c).after 6 t) = _
  rw [after1_6]
  obtain ⟨e0, e1⟩ := idx_out1 t
  funext j
  show (outsAt1 V c t.val t.isLt).1 j = (outsAt1 V c 19 h19).1 (((cfg1.win 6).blk t).view.emb j)
  have hemb : (((cfg1.win 6).blk t).view.emb j : S8x128.Idx) = j := by
    funext a; apply Fin.ext
    match a with
    | ⟨0, _⟩ => show win1_6.index t (0 : Fin 2) * 8 + 1 * (j 0).val = (j 0).val; omega
    | ⟨1, _⟩ => show win1_6.index t (1 : Fin 2) * 128 + 1 * (j 1).val = (j 1).val; omega
  rw [hemb]
  obtain ⟨n, hn⟩ := t
  simp only at ht
  subst ht
  rfl

/-- Every index of the array is in the last point's block. -/
theorem covered1_6 (h19 : 19 < cfg1.N) (i : S8x128.Idx) :
    ∃ t : Fin cfg1.N, (cfg1.win 6).flush t = true ∧ i ∈ ((cfg1.win 6).blk t).view.set := by
  refine ⟨⟨19, h19⟩, (flush1_6 ⟨19, h19⟩).mpr (show (19 : ℕ) % 20 = 19 from rfl), ?_⟩
  show i ∈ ((View.whole main_v67).slice (win1_6.rect ⟨19, h19⟩)).set
  rw [View.set_slice_whole, Rect.mem_set_unit]
  obtain ⟨e0, e1⟩ := idx_out1 ⟨19, h19⟩
  have hi0 : (i 0).val < 8 := (i 0).isLt
  have hi1 : (i 1).val < 128 := (i 1).isLt
  intro a
  match a with
  | ⟨0, _⟩ => show win1_6.index ⟨19, h19⟩ (0 : Fin 2) * 8 ≤ (i 0).val ∧ (i 0).val < win1_6.index ⟨19, h19⟩ (0 : Fin 2) * 8 + 8; omega
  | ⟨1, _⟩ => show win1_6.index ⟨19, h19⟩ (1 : Fin 2) * 128 ≤ (i 1).val ∧ (i 1).val < win1_6.index ⟨19, h19⟩ (1 : Fin 2) * 128 + 128; omega

/-- After the region, its output array holds the last point's buffer. -/
theorem final1_6 (h19 : 19 < cfg1.N) : (dat1 V c).arrAt 6 cfg1.N = (outsAt1 V c 19 h19).1 :=
  (dat1 V c).arrAt_eq_of_cover 6 (outsAt1 V c 19 h19).1 (fun t hf => flushed1_6_eq V c h19 t hf) (covered1_6 h19)

end Cert.KernelIdeal.Epi

end
-- ==== Proof.KI.HostRd.lean ====
/-
  What the kernel program's host operations between and after its two kernel regions compute, read one stretch at a
  time from arbitrary buffer contents.

  They are the message passing of the graph convolution, once per graph: the source and destination index vectors cut
  out of the edge table, one row of the scaled features per edge (gathered by source), those rows summed into their
  destination nodes, the two graphs' aggregates stacked; the bias vectors reshaped to rows; and, at the very end, one
  entry of the result tile taken as the one-element result.  They are the SAME operations, on the same kinds of arrays,
  as the reference's own stages, so each stretch is stated through the reference's stage functions.
-/
import proofs.«157275_g83597243449447_cont_9to1_m_596_53_alg».proof.Proof.Gen.KernelIdeal.Launch
import proofs.«157275_g83597243449447_cont_9to1_m_596_53_alg».proof.Proof.Ref.Tower
import Idealize.ShloMosaic.Lib.StableHlo.Run
import proofs.«157275_g83597243449447_cont_9to1_m_596_53_alg».proof.Proof.LibTRefCasts

set_option maxRecDepth 16384

noncomputable section

namespace Cert.KernelIdeal.HostRd

open Cert.KernelIdeal Cert.KernelIdeal.Gen
open Idealize.ShloMosaic Idealize.ShloMosaic.TcCoe Idealize.SL.Sem Idealize.ShloMosaic.StableHlo
open Cert.ReferenceIdeal.RefRun (srcIdx dstIdx zerosNxD takeRows scatterRows)

variable {F : FTy → Type} [FloatOps F] [Named F]

/-- An array of a given shape and element type. -/
abbrev Arr (s : Shape) (e : EltTy) := (⟨s, e⟩ : BufTy).Contents (Elt F)

/-- Graph `g`'s slab of a stacked [2, 10000, 128] array, as a [10000, 128] array. -/
def slab0 (H : Arr (F := F) S2x10000x128 .f32) : Arr (F := F) S10000x128 .f32 :=
  shapeCast S10000x128 (extractStridedSlice S1x10000x128 ![0, 0, 0] H slices_S2x10000x128_S1x10000x128_0_0_0) shapeCasts_S1x10000x128_S10000x128
def slab1 (H : Arr (F := F) S2x10000x128 .f32) : Arr (F := F) S10000x128 .f32 :=
  shapeCast S10000x128 (extractStridedSlice S1x10000x128 ![1, 0, 0] H slices_S2x10000x128_S1x10000x128_1_0_0) shapeCasts_S1x10000x128_S10000x128

/-- Two [10000, 128] arrays stacked into one [2, 10000, 128] array. -/
def stack2 (a b : Arr (F := F) S10000x128 .f32) : Arr (F := F) S2x10000x128 .f32 :=
  concatenate S2x10000x128 0
    [⟨S1x10000x128, broadcastInDim S1x10000x128 ![1, 2] bcast_S10000x128_S1x10000x128_1_2 a⟩,
     ⟨S1x10000x128, broadcastInDim S1x10000x128 ![1, 2] bcast_S10000x128_S1x10000x128_1_2 b⟩]
    concatenates_S1x10000x128_S1x10000x128_S2x10000x128_d0

/-! ## The last stretch -/

set_option maxHeartbeats 4000000 in
theorem tail_v70 (X : Valuation τ sig (Elt F)) :
    (StableHlo.after hostOps2 X (Proc.devRef .tc main_v70) : Arr (F := F) S1 .f32)
      = shapeCast S1 (shapeCast S_ (extractStridedSlice S1x1 ![0, 0] (X (Proc.devRef .tc main_v67) : Arr (F := F) S8x128 .f32) slices_S8x128_S1x1_0_0) shapeCasts_S1x1_S_) shapeCasts_S_S1 := by
  after_results
  rfl

/-! ## The stretch after the first region: graph 0's index vectors and feature slab -/

set_option maxHeartbeats 4000000 in
theorem h1_v33 (X : Valuation τ sig (Elt F)) :
    (StableHlo.after hostOps1 X (Proc.devRef .tc main_v33) : Arr (F := F) S10000x128 .f32) = zerosNxD := by
  after_results
  rfl
set_option maxHeartbeats 4000000 in
theorem h1_v35 (X : Valuation τ sig (Elt F)) :
    (StableHlo.after hostOps1 X (Proc.devRef .tc main_v35) : Arr (F := F) S320000 .i32) = dstIdx (X (Proc.devRef .tc main_arg0) : Arr (F := F) S2x320000 .i32) := by
  after_results
  rfl
set_option maxHeartbeats 4000000 in
theorem h1_v39 (X : Valuation τ sig (Elt F)) :
    (StableHlo.after hostOps1 X (Proc.devRef .tc main_v39) : Arr (F := F) S320000 .i32) = srcIdx (X (Proc.devRef .tc main_arg0) : Arr (F := F) S2x320000 .i32) := by
  after_results
  rfl
set_option maxHeartbeats 4000000 in
theorem h1_v37 (X : Valuation τ sig (Elt F)) :
    (StableHlo.after hostOps1 X (Proc.devRef .tc main_v37) : Arr (F := F) S10000x128 .f32) = slab0 (X (Proc.devRef .tc main_v32_0) : Arr (F := F) S2x10000x128 .f32) := by
  after_results
  rfl

/-! ## Graph 0's gather, then its scatter-add and graph 1's index vectors and slab -/

set_option maxHeartbeats 4000000 in
theorem h12_v47 (X : Valuation τ sig (Elt F)) :
    (StableHlo.after hostOps1_2 X (Proc.devRef .tc main_v47) : Arr (F := F) S10000x128 .f32)
      = scatterRows (X (Proc.devRef .tc main_v33) : Arr (F := F) S10000x128 .f32) (X (Proc.devRef .tc main_v35) : Arr (F := F) S320000 .i32)
          (X (Proc.devRef .tc main_v40) : Arr (F := F) S320000x128 .f32) := by
  after_results
  rfl
set_option maxHeartbeats 4000000 in
theorem h12_v49 (X : Valuation τ sig (Elt F)) :
    (StableHlo.after hostOps1_2 X (Proc.devRef .tc main_v49) : Arr (F := F) S320000 .i32) = dstIdx (X (Proc.devRef .tc main_arg1) : Arr (F := F) S2x320000 .i32) := by
  after_results
  rfl
set_option maxHeartbeats 4000000 in
theorem h12_v53 (X : Valuation τ sig (Elt F)) :
    (StableHlo.after hostOps1_2 X (Proc.devRef .tc main_v53) : Arr (F := F) S320000 .i32) = srcIdx (X (Proc.devRef .tc main_arg1) : Arr (F := F) S2x320000 .i32) := by
  after_results
  rfl
set_option maxHeartbeats 4000000 in
theorem h12_v51 (X : Valuation τ sig (Elt F)) :
    (StableHlo.after hostOps1_2 X (Proc.devRef .tc main_v51) : Arr (F := F) S10000x128 .f32) = slab1 (X (Proc.devRef .tc main_v32_0) : Arr (F := F) S2x10000x128 .f32) := by
  after_results
  rfl

/-! ## Graph 1's gather, then its scatter-add, the stack, and the bias rows -/

set_option maxHeartbeats 4000000 in
theorem h14_v64 (X : Valuation τ sig (Elt F)) :
    (StableHlo.after hostOps1_4 X (Proc.devRef .tc main_v64) : Arr (F := F) S2x10000x128 .f32)
      = stack2 (X (Proc.devRef .tc main_v47) : Arr (F := F) S10000x128 .f32)
          (scatterRows (X (Proc.devRef .tc main_v33) : Arr (F := F) S10000x128 .f32) (X (Proc.devRef .tc main_v49) : Arr (F := F) S320000 .i32)
            (X (Proc.devRef .tc main_v54) : Arr (F := F) S320000x128 .f32)) := by
  after_results
  rfl
set_option maxHeartbeats 4000000 in
theorem h14_v65 (X : Valuation τ sig (Elt F)) :
    (StableHlo.after hostOps1_4 X (Proc.devRef .tc main_v65) : Arr (F := F) S1x128 .f32)
      = shapeCast S1x128 (X (Proc.devRef .tc main_arg5) : Arr (F := F) S128 .f32) shapeCasts_S128_S1x128 := by
  after_results
  rfl
set_option maxHeartbeats 4000000 in
theorem h14_v66 (X : Valuation τ sig (Elt F)) :
    (StableHlo.after hostOps1_4 X (Proc.devRef .tc main_v66) : Arr (F := F) S1x16 .f32)
      = shapeCast S1x16 (X (Proc.devRef .tc main_arg7) : Arr (F := F) S16 .f32) shapeCasts_S16_S1x16 := by
  after_results
  rfl

/-! ## The gather of one row per edge

Inside the program the gather is a called function whose operations name their buffers as typed references; its
operations are the same as the reference's own gather stage. -/

/-- A node index with a negative value moved up by the number of nodes, as a one-column matrix. -/
def kIndexColumn (idx : Arr (F := F) S320000 .i32) : Arr (F := F) S320000x1 .i32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- Per edge, whether its index lies in 0 … 9999. -/
def kInBounds (col : Arr (F := F) S320000x1 .i32) : Arr (F := F) S320000 .i1 :=
  Host.reduce IntOp.andi
    (andi (cmpi .sge col (broadcastInDim S320000x1 ![] bcast_S_S320000x1 (constantI S_ 32 0#32)))
      (cmpi .sle col (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- One row of the table per edge; a row whose index is out of bounds is the fill value throughout. -/
def kTake (table : Arr (F := F) S10000x128 .f32) (idx : Arr (F := F) S320000 .i32) : Arr (F := F) S320000x128 .f32 :=
  select (broadcastInDim S320000x128 ![0] bcast_S320000_S320000x128_0 (kInBounds (kIndexColumn idx)))
    (Host.gather gather_S10000x128_S320000x1_S320000x128_1_0_n_n_0_1_1128 table (kIndexColumn idx))
    (broadcastInDim S320000x128 ![] bcast_S_S320000x128 (constant S_ .f32 0x7FC00000#32))

/-- It is the reference's gather stage. -/
theorem kTake_eq (table : Arr (F := F) S10000x128 .f32) (idx : Arr (F := F) S320000 .i32) :
    kTake table idx = takeRows table idx := by
  unfold kTake kInBounds kIndexColumn Cert.ReferenceIdeal.RefRun.takeRows Cert.ReferenceIdeal.RefRun.inBounds Cert.ReferenceIdeal.RefRun.indexColumn Cert.ReferenceIdeal.RefRun.wrapIndex
  rfl

/-- A typed reference whose declared type is the buffer's own carries contents in and out unchanged. -/
theorem ofBuf_v39 (X : Valuation τ sig (Elt F)) :
    (TRef.of (T := ⟨S320000, .i32⟩) main_v39).ofBuf (X (Proc.devRef .tc main_v39)) = (X (Proc.devRef .tc main_v39) : Arr (F := F) S320000 .i32) := rfl
theorem ofBuf_v37 (X : Valuation τ sig (Elt F)) :
    (TRef.of (T := ⟨S10000x128, .f32⟩) main_v37).ofBuf (X (Proc.devRef .tc main_v37)) = (X (Proc.devRef .tc main_v37) : Arr (F := F) S10000x128 .f32) := rfl
theorem toBuf_v40 (v : Arr (F := F) S320000x128 .f32) :
    ((TRef.of (T := ⟨S320000x128, .f32⟩) main_v40).toBuf v : Arr (F := F) S320000x128 .f32) = v := rfl
theorem ofBuf_v53 (X : Valuation τ sig (Elt F)) :
    (TRef.of (T := ⟨S320000, .i32⟩) main_v53).ofBuf (X (Proc.devRef .tc main_v53)) = (X (Proc.devRef .tc main_v53) : Arr (F := F) S320000 .i32) := rfl
theorem ofBuf_v51 (X : Valuation τ sig (Elt F)) :
    (TRef.of (T := ⟨S10000x128, .f32⟩) main_v51).ofBuf (X (Proc.devRef .tc main_v51)) = (X (Proc.devRef .tc main_v51) : Arr (F := F) S10000x128 .f32) := rfl
theorem toBuf_v54 (v : Arr (F := F) S320000x128 .f32) :
    ((TRef.of (T := ⟨S320000x128, .f32⟩) main_v54).toBuf v : Arr (F := F) S320000x128 .f32) = v := rfl

set_option maxHeartbeats 4000000 in
theorem h11_v40 (X : Valuation τ sig (Elt F)) :
    (StableHlo.after hostOps1_1 X (Proc.devRef .tc main_v40) : Arr (F := F) S320000x128 .f32)
      = takeRows (X (Proc.devRef .tc main_v37) : Arr (F := F) S10000x128 .f32) (X (Proc.devRef .tc main_v39) : Arr (F := F) S320000 .i32) := by
  after_results_simp
  simp only [Cert.Lib.ofBuf_toBuf, ofBuf_v39, ofBuf_v37]
  exact (toBuf_v40 _).trans (kTake_eq _ _)

set_option maxHeartbeats 4000000 in
theorem h13_v54 (X : Valuation τ sig (Elt F)) :
    (StableHlo.after hostOps1_3 X (Proc.devRef .tc main_v54) : Arr (F := F) S320000x128 .f32)
      = takeRows (X (Proc.devRef .tc main_v51) : Arr (F := F) S10000x128 .f32) (X (Proc.devRef .tc main_v53) : Arr (F := F) S320000 .i32) := by
  after_results_simp
  simp only [Cert.Lib.ofBuf_toBuf, ofBuf_v53, ofBuf_v51]
  exact (toBuf_v54 _).trans (kTake_eq _ _)

end Cert.KernelIdeal.HostRd

end
-- ==== Proof.KI.HostIdx.lean ====
/-
  The host side's layout operations read at an index, and the first stretch of host operations read from arbitrary
  buffer contents.

  A slab of a stacked array is the stacked array at a fixed leading coordinate; a stack of two arrays at leading
  coordinate 0 or 1 is the first or the second array; and the first stretch computes, per graph, the histogram of the
  source indices and of the destination indices (ones scattered-and-added into zeros), stacks each pair of histograms
  with a unit last axis, and stacks the two feature arrays.
-/
import proofs.«157275_g83597243449447_cont_9to1_m_596_53_alg».proof.Proof.KI.HostRd
import Idealize.ShloMosaic.Lib.Pipeline.Value
import Idealize.ShloMosaic.Lib.ValueLayout

set_option maxRecDepth 16384

noncomputable section

namespace Cert.KernelIdeal.HostRd

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.RefRun (srcIdx dstIdx degree)

variable {F : FTy → Type} [FloatOps F] [Named F]

/-! ## The layout operations at an index -/

/-- Graph 0's slab at row `n`, column `k` is the stacked array at `(0, n, k)`. -/
theorem slab0_apply (H : Arr (F := F) S2x10000x128 .f32) (n : Fin 10000) (k : Fin 128) :
    slab0 H (ix2 n k) = H (ix3 (0 : Fin 2) n k) := by
  unfold slab0
  refine (shapeCast_1ab_ab_apply _ _ n k).trans ?_
  exact extractStridedSlice_apply _ _ _ _ _ (fun a => by
    match a with
    | ⟨0, _⟩ => rfl
    | ⟨1, _⟩ => exact (Nat.zero_add _).symm
    | ⟨2, _⟩ => exact (Nat.zero_add _).symm)

/-- Graph 1's slab at row `n`, column `k` is the stacked array at `(1, n, k)`. -/
theorem slab1_apply (H : Arr (F := F) S2x10000x128 .f32) (n : Fin 10000) (k : Fin 128) :
    slab1 H (ix2 n k) = H (ix3 (1 : Fin 2) n k) := by
  unfold slab1
  refine (shapeCast_1ab_ab_apply _ _ n k).trans ?_
  exact extractStridedSlice_apply _ _ _ _ _ (fun a => by
    match a with
    | ⟨0, _⟩ => rfl
    | ⟨1, _⟩ => exact (Nat.zero_add _).symm
    | ⟨2, _⟩ => exact (Nat.zero_add _).symm)

/-- The stack at `(0, n, k)` is its first array at `(n, k)`. -/
theorem stack2_apply0 (a b : Arr (F := F) S10000x128 .f32) (n : Fin 10000) (k : Fin 128) :
    stack2 a b (ix3 (0 : Fin 2) n k) = a (ix2 n k) := by
  unfold stack2
  refine (concatenate_pair_apply_left (t := S2x10000x128) (s₁ := S1x10000x128) (s₂ := S1x10000x128) (0 : Fin 3) _ _ _ (ix3 (0 : Fin 2) n k) rfl (ix3 (0 : Fin 1) n k) (fun b => by
    match b with
    | ⟨0, _⟩ => rfl
    | ⟨1, _⟩ => rfl
    | ⟨2, _⟩ => rfl)).trans ?_
  exact broadcastInDim_apply _ _ _ _ (ix2 n k) (fun a' => by
    match a' with
    | ⟨0, _⟩ => rfl
    | ⟨1, _⟩ => rfl)

/-- The stack at `(1, n, k)` is its second array at `(n, k)`. -/
theorem stack2_apply1 (a b : Arr (F := F) S10000x128 .f32) (n : Fin 10000) (k : Fin 128) :
    stack2 a b (ix3 (1 : Fin 2) n k) = b (ix2 n k) := by
  unfold stack2
  refine (concatenate_pair_apply_right (t := S2x10000x128) (s₁ := S1x10000x128) (s₂ := S1x10000x128) (0 : Fin 3) _ _ _ (ix3 (1 : Fin 2) n k) rfl rfl (ix3 (0 : Fin 1) n k) (fun b hb => by
    match b, hb with
    | ⟨0, _⟩, hb => exact absurd rfl hb
    | ⟨1, _⟩, _ => rfl
    | ⟨2, _⟩, _ => rfl) rfl).trans ?_
  exact broadcastInDim_apply _ _ _ _ (ix2 n k) (fun a' => by
    match a' with
    | ⟨0, _⟩ => rfl
    | ⟨1, _⟩ => rfl)

/-! ## The first stretch: the degree histograms and the stacked features -/

/-- Two per-node vectors stacked into a [2, 10000] array and given a unit last axis. -/
def degStack (d1 d2 : Arr (F := F) S10000 .f32) : Arr (F := F) S2x10000x1 .f32 :=
  broadcastInDim S2x10000x1 ![0, 1] bcast_S2x10000_S2x10000x1_0_1
    (concatenate S2x10000 0
      [⟨S1x10000, broadcastInDim S1x10000 ![1] bcast_S10000_S1x10000_1 d1⟩,
       ⟨S1x10000, broadcastInDim S1x10000 ![1] bcast_S10000_S1x10000_1 d2⟩]
      concatenates_S1x10000_S1x10000_S2x10000_d0)

/-- The stacked vectors at `(0, n, 0)`: the first vector at `n`. -/
theorem degStack_apply0 (d1 d2 : Arr (F := F) S10000 .f32) (n : Fin 10000) :
    degStack d1 d2 (ix3 (0 : Fin 2) n (0 : Fin 1)) = d1 (ix1 n) := by
  unfold degStack
  refine (broadcastInDim_apply _ _ _ _ (ix2 (0 : Fin 2) n) (fun a' => by
    match a' with
    | ⟨0, _⟩ => rfl
    | ⟨1, _⟩ => rfl)).trans ?_
  refine (concatenate_pair_apply_left (t := S2x10000) (s₁ := S1x10000) (s₂ := S1x10000) (0 : Fin 2) _ _ _ (ix2 (0 : Fin 2) n) rfl (ix2 (0 : Fin 1) n) (fun b => by
    match b with
    | ⟨0, _⟩ => rfl
    | ⟨1, _⟩ => rfl)).trans ?_
  exact broadcastInDim_apply _ _ _ _ (ix1 n) (fun a' => by
    match a' with
    | ⟨0, _⟩ => rfl)

/-- The stacked vectors at `(1, n, 0)`: the second vector at `n`. -/
theorem degStack_apply1 (d1 d2 : Arr (F := F) S10000 .f32) (n : Fin 10000) :
    degStack d1 d2 (ix3 (1 : Fin 2) n (0 : Fin 1)) = d2 (ix1 n) := by
  unfold degStack
  refine (broadcastInDim_apply _ _ _ _ (ix2 (1 : Fin 2) n) (fun a' => by
    match a' with
    | ⟨0, _⟩ => rfl
    | ⟨1, _⟩ => rfl)).trans ?_
  refine (concatenate_pair_apply_right (t := S2x10000) (s₁ := S1x10000) (s₂ := S1x10000) (0 : Fin 2) _ _ _ (ix2 (1 : Fin 2) n) rfl rfl (ix2 (0 : Fin 1) n) (fun b hb => by
    match b, hb with
    | ⟨0, _⟩, hb => exact absurd rfl hb
    | ⟨1, _⟩, _ => rfl) rfl).trans ?_
  exact broadcastInDim_apply _ _ _ _ (ix1 n) (fun a' => by
    match a' with
    | ⟨0, _⟩ => rfl)

/-- The two feature arrays, stacked. -/
theorem h0_v31 (X : Valuation τ sig (Elt F)) :
    (StableHlo.after hostOps0 X (Proc.devRef .tc main_v31) : Arr (F := F) S2x10000x128 .f32)
      = stack2 (X (Proc.devRef .tc main_arg2) : Arr (F := F) S10000x128 .f32) (X (Proc.devRef .tc main_arg3) : Arr (F := F) S10000x128 .f32) := by
  after_results_simp
  rfl

/-- The two graphs' source-degree histograms, stacked. -/
theorem h0_v14 (X : Valuation τ sig (Elt F)) :
    (StableHlo.after hostOps0 X (Proc.devRef .tc main_v14) : Arr (F := F) S2x10000x1 .f32)
      = degStack (degree (srcIdx (X (Proc.devRef .tc main_arg0) : Arr (F := F) S2x320000 .i32)))
          (degree (srcIdx (X (Proc.devRef .tc main_arg1) : Arr (F := F) S2x320000 .i32))) := by
  after_results_simp
  rfl

/-- The two graphs' destination-degree histograms, stacked. -/
theorem h0_v28 (X : Valuation τ sig (Elt F)) :
    (StableHlo.after hostOps0 X (Proc.devRef .tc main_v28) : Arr (F := F) S2x10000x1 .f32)
      = degStack (degree (dstIdx (X (Proc.devRef .tc main_arg0) : Arr (F := F) S2x320000 .i32)))
          (degree (dstIdx (X (Proc.devRef .tc main_arg1) : Arr (F := F) S2x320000 .i32))) := by
  after_results_simp
  rfl

end Cert.KernelIdeal.HostRd

end
-- ==== Proof.KI.Spec0.lean ====
import Idealize.ShloMosaic.PureOps.Ideal

/-!
# The degree normaliser

Graph convolution with symmetric normalisation scales a node by the inverse square root of its degree, and
by zero when the degree is zero.  Both programs compute it by the same four elementwise steps: compare the
degree with zero, clamp it below by one, take the inverse square root, and choose between that and zero.
This file names the result of those steps at one element, over the extended reals.
-/

noncomputable section

namespace Cert.KernelIdeal.Hand

open Idealize.ShloMosaic

/-- The normaliser of a degree `d`: `1 / sqrt (max d 1)` when `d > 0`, and `0` otherwise.  The comparison, the
    maximum, the inverse square root and the choice are spelt as the library spells the corresponding operations
    on ideal values, and the constant one as the 32-bit word the programs print for it, so that either program's
    chain of operations unfolds to this term as it stands. -/
def degNorm (d : EReal) : EReal :=
  Scalar.select (Ideal.cmp .ogt d 0) (Ideal.rsqrt (max d (Ideal.ofBits .f32 0x3F800000#32))) 0

end Cert.KernelIdeal.Hand

end
-- ==== Proof.KI.Region0Value.lean ====
import proofs.«157275_g83597243449447_cont_9to1_m_596_53_alg».proof.Proof.KI.Region0
import proofs.«157275_g83597243449447_cont_9to1_m_596_53_alg».proof.Proof.KI.Spec0
import Idealize.ShloMosaic.Lib.Pipeline.Value
import Idealize.ShloMosaic.Lib.ValueIdx
import Idealize.ShloMosaic.Lib.ValueLayout
import Idealize.ShloMosaic.PureOps.Ideal.Laws

/-!
# The first TensorCore call over the extended reals: what one point writes, entry by entry

At one grid point the body is given a 1 x 1000 x 128 block `x0` of features and two 1 x 1000 x 1 blocks `x1`, `x2` of
degrees.  Read over the extended reals, the block it leaves in window 3 has, in row `r` and lane `k`, the feature
`x0 (0, r, k)` times the normaliser of the degree `x1 (0, r, 0)`; the block it leaves in window 4 has, in row `r`, the
normaliser of the degree `x2 (0, r, 0)`.

The body drops the blocks' leading unit axis, works on 1000 x 128 and 1000 x 1 matrices, and puts the axis back before
storing.  Every step but three is elementwise; the three that move entries about — dropping the axis, repeating the
one-column normaliser along the 128 lanes, putting the axis back — each read one entry of their operand, at coordinates
written out below.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-- The four elementwise steps that make a column of normalisers out of a column `w` of degrees — compare with a
    column of zeros, clamp below by a column of ones, inverse square root, choose against a column of zeros — give,
    in row `r`, the normaliser of `w`'s entry in row `r`.  The zero word is the real number zero. -/
theorem normCol_apply (w : FVec Ideal S1000x1 .f32) (r : Fin 1000) :
    select (cmpf .ogt w (broadcast S1000x1 (FloatOps.ofBits (F := Ideal) .f32 0x00000000#32)))
      (rsqrt (maximumf w (broadcast S1000x1 (FloatOps.ofBits (F := Ideal) .f32 0x3F800000#32))))
      (broadcast S1000x1 (FloatOps.ofBits (F := Ideal) .f32 0x00000000#32)) (ix2 r 0) = degNorm (w (ix2 r 0)) := by
  show Scalar.select (Ideal.cmp .ogt (w (ix2 r 0)) (Ideal.ofBits .f32 0x00000000#32))
      (Ideal.rsqrt (max (w (ix2 r 0)) (Ideal.ofBits .f32 0x3F800000#32))) (Ideal.ofBits .f32 0x00000000#32) = _
  rw [Ideal.ofBits_zero_f32]
  rfl

/-- What is stored into window 3, at row `r` and lane `k`: putting the unit axis back reads the 1000 x 128 product at
    `(r, k)`; the product is entrywise; the feature factor, with its unit axis dropped, is `v18 (0, r, k)`; the
    normaliser column repeated along the lanes reads its row `r`, which is the normaliser of `v0 (0, r, 0)`. -/
theorem k0_pay1_apply (v0 : Vec Ideal S1x1000x1 .f32) (v18 : Vec Ideal S1x1000x128 .f32) (r : Fin 1000) (k : Fin 128) :
    k0_pay1 v0 v18 (ix3 0 r k) = (v18 (ix3 0 r k) : EReal) * degNorm (v0 (ix3 0 r 0)) := by
  unfold k0_pay1
  rw [shapeCast_ab_1ab_apply, mulf_apply, shapeCast_1ab_ab_apply]
  rw [broadcastTo_apply _ broadcasts_S1000x1_S1000x128 (ix2 r k) (ix2 r 0) (fun a => match a with | ⟨0, _⟩ => rfl | ⟨1, _⟩ => rfl)]
  rw [normCol_apply, shapeCast_1ab_ab_apply]

/-- What is stored into window 4, at row `r`: the normaliser of `v2 (0, r, 0)`. -/
theorem k0_pay2_apply (v2 : Vec Ideal S1x1000x1 .f32) (r : Fin 1000) :
    k0_pay2 v2 (ix3 0 r 0) = degNorm (v2 (ix3 0 r 0)) := by
  unfold k0_pay2
  rw [shapeCast_ab_1ab_apply]
  rw [normCol_apply, shapeCast_1ab_ab_apply]

/-- The offsets of a whole-buffer rectangle of rank three are all zero. -/
theorem zero_off3 : (![0, 0, 0] : Fin 3 → Nat) = fun _ => 0 := funext fun a => by fin_cases a <;> rfl

/-- Window 3's block after the body, at row `r` and lane `k`.  The one store covers the whole buffer, so the buffer
    holds the stored value; the loads are of whole buffers, so they read the blocks themselves. -/
theorem out0_3_apply (x0 : Vec Ideal S1x1000x128 .f32) (x1 : Vec Ideal S1x1000x1 .f32) (r : Fin 1000) (k : Fin 128) :
    out0_3 x0 x1 (ix3 0 r k) = (x0 (ix3 0 r k) : EReal) * degNorm (x1 (ix3 0 r 0)) := by
  unfold out0_3
  rw [View.canon_unit_zero zero_off3]
  simp only [View.ld_unit_zero (S := S1x1000x128) zero_off3, View.ld_unit_zero (S := S1x1000x1) zero_off3]
  exact k0_pay1_apply x1 x0 r k

/-- Window 4's block after the body, at row `r`. -/
theorem out0_4_apply (x2 : Vec Ideal S1x1000x1 .f32) (r : Fin 1000) :
    out0_4 x2 (ix3 0 r 0) = degNorm (x2 (ix3 0 r 0)) := by
  unfold out0_4
  rw [View.canon_unit_zero zero_off3]
  simp only [View.ld_unit_zero (S := S1x1000x1) zero_off3]
  exact k0_pay2_apply x2 r

end Cert.KernelIdeal.Hand

end
-- ==== Proof.KI.Region0Final.lean ====
import proofs.«157275_g83597243449447_cont_9to1_m_596_53_alg».proof.Proof.KI.Region0Value

/-!
# The first TensorCore call over the extended reals: the two arrays it leaves

The call's two result arrays have shapes 2 x 10000 x 128 and 2 x 10000 x 1: graph, node, lane.  Grid point
`(g, i)` handles the 1000 nodes `1000 i … 1000 i + 999` of graph `g`; every window's index map sends it to block
`(g, i, 0)`, so the five windows look at the same nodes of the same graph, and the 20 points' blocks tile each result
array.  Hence the arrays after the call are given entry by entry: the scaled features are the features times the
normaliser of the first degree column at the same graph and node, and the second result is the normaliser of the
second degree column.  All of it is relative to `V`, the buffer contents when the call is entered.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The scaled features: entry `(g, n, k)` of `x` times the normaliser of the degree `ds (g, n, 0)`. -/
def hArr (x : (⟨S2x10000x128, .f32⟩ : BufTy).Contents (Elt Ideal)) (ds : (⟨S2x10000x1, .f32⟩ : BufTy).Contents (Elt Ideal)) :
    S2x10000x128.Idx → EReal :=
  fun j => (x j : EReal) * degNorm (ds (ix3 (j 0) (j 1) 0))

/-- The scaled features at coordinates written out. -/
theorem hArr_apply (x : (⟨S2x10000x128, .f32⟩ : BufTy).Contents (Elt Ideal)) (ds : (⟨S2x10000x1, .f32⟩ : BufTy).Contents (Elt Ideal))
    (g : Fin 2) (n : Fin 10000) (k : Fin 128) :
    hArr x ds (ix3 g n k) = (x (ix3 g n k) : EReal) * degNorm (ds (ix3 g n 0)) := rfl

/-- At every grid point windows 0 and 1 sit on the same graph and the same thousand nodes as window 3, window 2 on the same as
    window 4, and every window's block index along the last axis is zero.  Decided over the 20 points. -/
theorem blockIdx_agree0 : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (2 : Fin 3) = 0 ∧ win0_4.index t (2 : Fin 3) = 0 :=
  (by decide +kernel : ∀ t : Fin grid0.N, _)

/-- Every (graph, thousand-of-nodes) pair is some point's block of window 3.  Decided over the 20 pairs. -/
theorem blockIdx_onto0_3 : ∀ (q0 : Fin 2) (q1 : Fin 10), ∃ t : Fin cfg0.N, win0_3.index t = ![q0.val, q1.val, 0] :=
  (by decide +kernel : ∀ (q0 : Fin 2) (q1 : Fin 10), ∃ t : Fin grid0.N, win0_3.index t = ![q0.val, q1.val, 0])

/-- The same for window 4. -/
theorem blockIdx_onto0_4 : ∀ (q0 : Fin 2) (q1 : Fin 10), ∃ t : Fin cfg0.N, win0_4.index t = ![q0.val, q1.val, 0] :=
  (by decide +kernel : ∀ (q0 : Fin 2) (q1 : Fin 10), ∃ t : Fin grid0.N, win0_4.index t = ![q0.val, q1.val, 0])

/-- What point `t` writes back through window 3 is block `t` of the scaled features of the arrays `V` holds.
    In row `r` and lane `k` of the block, the body leaves the feature block's entry times the normaliser of the degree
    block's entry in row `r`; the feature block's entry is the feature array's at the array index under `(0, r, k)`,
    which is the same index in windows 0 and 3; the degree block's entry is the degree array's at the same graph and
    node, lane 0.  A block's array coordinate on an axis is its block index times the block's extent plus the
    coordinate inside the block. -/
theorem flushed0_3_eq (c : Dev nD) (t : Fin cfg0.N) :
    (dat0 V c).flushed 3 t = ((cfg0.win 3).blk t).view.read (Elt Ideal) (hArr (V c main_v31) (V c main_v14)) := by
  show (cfg0.win 3).cut (grid0.coords t) ((dat0 V c).after 3 t) = _
  rw [after0_3]
  obtain ⟨a0, a1, a2, b0, b1, b2, -, -, -, h32, -⟩ := blockIdx_agree0 t
  funext j
  obtain ⟨u, r, k, rfl⟩ : ∃ (u : Fin 1) (r : Fin 1000) (k : Fin 128), j = ix3 u r k :=
    ⟨j 0, j 1, j 2, eq_ix3 (n0 := 1) (n1 := 1000) (n2 := 128) j⟩
  obtain rfl : u = 0 := Subsingleton.elim _ _
  show out0_3 (iblk0 V c 0 t) (iblk0 V c 1 t) (ix3 0 r k)
    = hArr (V c main_v31) (V c main_v14) (((cfg0.win 3).blk t).view.emb (ix3 0 r k))
  refine (out0_3_apply _ _ r k).trans ?_
  have h0 : (((cfg0.win 0).blk t).view.emb (ix3 0 r k) : S2x10000x128.Idx) = (((cfg0.win 3).blk t).view.emb (ix3 0 r k) : S2x10000x128.Idx) := by
    funext a; apply Fin.ext
    match a with
    | ⟨0, _⟩ => show win0_0.index t (0 : Fin 3) * 1 + 1 * 0 = win0_3.index t (0 : Fin 3) * 1 + 1 * 0; omega
    | ⟨1, _⟩ => show win0_0.index t (1 : Fin 3) * 1000 + 1 * r.val = win0_3.index t (1 : Fin 3) * 1000 + 1 * r.val; omega
    | ⟨2, _⟩ => show win0_0.index t (2 : Fin 3) * 128 + 1 * k.val = win0_3.index t (2 : Fin 3) * 128 + 1 * k.val; omega
  have h1 : (((cfg0.win 1).blk t).view.emb (ix3 0 r 0) : S2x10000x1.Idx)
      = ix3 (n0 := 2) (n1 := 10000) (n2 := 1) ((((cfg0.win 3).blk t).view.emb (ix3 0 r k) : S2x10000x128.Idx) 0) ((((cfg0.win 3).blk t).view.emb (ix3 0 r k) : S2x10000x128.Idx) 1) 0 := by
    funext a; apply Fin.ext
    match a with
    | ⟨0, _⟩ => show win0_1.index t (0 : Fin 3) * 1 + 1 * 0 = win0_3.index t (0 : Fin 3) * 1 + 1 * 0; omega
    | ⟨1, _⟩ => show win0_1.index t (1 : Fin 3) * 1000 + 1 * r.val = win0_3.index t (1 : Fin 3) * 1000 + 1 * r.val; omega
    | ⟨2, _⟩ => show win0_1.index t (2 : Fin 3) * 1 + 1 * 0 = 0; omega
  have e0 : iblk0 V c 0 t (ix3 0 r k) = V c main_v31 (((cfg0.win 3).blk t).view.emb (ix3 0 r k)) := congrArg (V c main_v31) h0
  have e1 : iblk0 V c 1 t (ix3 0 r 0)
      = V c main_v14 (ix3 (n0 := 2) (n1 := 10000) (n2 := 1) ((((cfg0.win 3).blk t).view.emb (ix3 0 r k) : S2x10000x128.Idx) 0) ((((cfg0.win 3).blk t).view.emb (ix3 0 r k) : S2x10000x128.Idx) 1) 0) :=
    congrArg (V c main_v14) h1
  exact congrArg₂ (fun (a b : EReal) => a * degNorm b) e0 e1

/-- What point `t` writes back through window 4 is block `t` of the normalisers of the second degree column. -/
theorem flushed0_4_eq (c : Dev nD) (t : Fin cfg0.N) :
    (dat0 V c).flushed 4 t = ((cfg0.win 4).blk t).view.read (Elt Ideal) (fun j => degNorm (V c main_v28 j)) := by
  show (cfg0.win 4).cut (grid0.coords t) ((dat0 V c).after 4 t) = _
  rw [after0_4]
  obtain ⟨-, -, -, -, -, -, c0, c1, c2, -, h42⟩ := blockIdx_agree0 t
  funext j
  obtain ⟨u, r, u', rfl⟩ : ∃ (u : Fin 1) (r : Fin 1000) (u' : Fin 1), j = ix3 u r u' :=
    ⟨j 0, j 1, j 2, eq_ix3 (n0 := 1) (n1 := 1000) (n2 := 1) j⟩
  obtain rfl : u = 0 := Subsingleton.elim _ _
  obtain rfl : u' = 0 := Subsingleton.elim _ _
  show out0_4 (iblk0 V c 2 t) (ix3 0 r 0) = degNorm (V c main_v28 (((cfg0.win 4).blk t).view.emb (ix3 0 r 0)))
  refine (out0_4_apply _ r).trans ?_
  have h2 : (((cfg0.win 2).blk t).view.emb (ix3 0 r 0) : S2x10000x1.Idx) = (((cfg0.win 4).blk t).view.emb (ix3 0 r 0) : S2x10000x1.Idx) := by
    funext a; apply Fin.ext
    match a with
    | ⟨0, _⟩ => show win0_2.index t (0 : Fin 3) * 1 + 1 * 0 = win0_4.index t (0 : Fin 3) * 1 + 1 * 0; omega
    | ⟨1, _⟩ => show win0_2.index t (1 : Fin 3) * 1000 + 1 * r.val = win0_4.index t (1 : Fin 3) * 1000 + 1 * r.val; omega
    | ⟨2, _⟩ => show win0_2.index t (2 : Fin 3) * 1 + 1 * 0 = win0_4.index t (2 : Fin 3) * 1 + 1 * 0; omega
  have e2 : iblk0 V c 2 t (ix3 0 r 0) = V c main_v28 (((cfg0.win 4).blk t).view.emb (ix3 0 r 0)) := congrArg (V c main_v28) h2
  exact congrArg (fun a : EReal => degNorm a) e2

/-- An index of the scaled-feature array lies in point `t`'s block exactly when each coordinate lies in the block's
    range on its axis. -/
theorem mem_block0_3 (t : Fin cfg0.N) (i : S2x10000x128.Idx) :
    i ∈ ((cfg0.win 3).blk t).view.set ↔ ∀ a : Fin 3, win0_3.index t a * S1x1000x128.size a ≤ (i a).val ∧ (i a).val < win0_3.index t a * S1x1000x128.size a + S1x1000x128.size a := by
  show i ∈ ((View.whole main_v32_0).slice (win0_3.rect t)).set ↔ _
  rw [View.set_slice_whole, Rect.mem_set_unit]
  exact Iff.rfl

/-- The same for the normaliser array. -/
theorem mem_block0_4 (t : Fin cfg0.N) (i : S2x10000x1.Idx) :
    i ∈ ((cfg0.win 4).blk t).view.set ↔ ∀ a : Fin 3, win0_4.index t a * S1x1000x1.size a ≤ (i a).val ∧ (i a).val < win0_4.index t a * S1x1000x1.size a + S1x1000x1.size a := by
  show i ∈ ((View.whole main_v32_1).slice (win0_4.rect t)).set ↔ _
  rw [View.set_slice_whole, Rect.mem_set_unit]
  exact Iff.rfl

/-- Every index `(g, n, k)` of the scaled-feature array is in some point's block: the point whose block index is
    `(g, n / 1000, 0)`. -/
theorem rows_covered0_3 (i : S2x10000x128.Idx) :
    ∃ t : Fin cfg0.N, (cfg0.win 3).flush t = true ∧ i ∈ ((cfg0.win 3).blk t).view.set := by
  have hi0 : (i 0).val < 2 := (i 0).isLt
  have hi1 : (i 1).val < 10000 := (i 1).isLt
  have hi2 : (i 2).val < 128 := (i 2).isLt
  obtain ⟨t, ht⟩ := blockIdx_onto0_3 ⟨(i 0).val, hi0⟩ ⟨(i 1).val / 1000, by omega⟩
  have q0 : win0_3.index t (0 : Fin 3) = (i 0).val := congrFun ht 0
  have q1 : win0_3.index t (1 : Fin 3) = (i 1).val / 1000 := congrFun ht 1
  have q2 : win0_3.index t (2 : Fin 3) = 0 := congrFun ht 2
  refine ⟨t, flush0_3 t, ?_⟩
  rw [mem_block0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1000 ≤ (i 1).val ∧ (i 1).val < win0_3.index t (1 : Fin 3) * 1000 + 1000; omega
  | ⟨2, _⟩ => show win0_3.index t (2 : Fin 3) * 128 ≤ (i 2).val ∧ (i 2).val < win0_3.index t (2 : Fin 3) * 128 + 128; omega

/-- The same for the normaliser array. -/
theorem rows_covered0_4 (i : S2x10000x1.Idx) :
    ∃ t : Fin cfg0.N, (cfg0.win 4).flush t = true ∧ i ∈ ((cfg0.win 4).blk t).view.set := by
  have hi0 : (i 0).val < 2 := (i 0).isLt
  have hi1 : (i 1).val < 10000 := (i 1).isLt
  have hi2 : (i 2).val < 1 := (i 2).isLt
  obtain ⟨t, ht⟩ := blockIdx_onto0_4 ⟨(i 0).val, hi0⟩ ⟨(i 1).val / 1000, by omega⟩
  have q0 : win0_4.index t (0 : Fin 3) = (i 0).val := congrFun ht 0
  have q1 : win0_4.index t (1 : Fin 3) = (i 1).val / 1000 := congrFun ht 1
  have q2 : win0_4.index t (2 : Fin 3) = 0 := congrFun ht 2
  refine ⟨t, flush0_4 t, ?_⟩
  rw [mem_block0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1000 ≤ (i 1).val ∧ (i 1).val < win0_4.index t (1 : Fin 3) * 1000 + 1000; omega
  | ⟨2, _⟩ => show win0_4.index t (2 : Fin 3) * 1 ≤ (i 2).val ∧ (i 2).val < win0_4.index t (2 : Fin 3) * 1 + 1; omega

/-- After the call, window 3's array is the scaled features of the feature array and the first degree column as
    the call found them: each point writes its block of that function, and the blocks cover the array. -/
theorem final0_3 (c : Dev nD) : (dat0 V c).arrAt 3 cfg0.N = hArr (V c main_v31) (V c main_v14) :=
  (dat0 V c).arrAt_eq_of_cover 3 (hArr (V c main_v31) (V c main_v14)) (fun t _ => flushed0_3_eq V c t) rows_covered0_3

/-- After the call, window 4's array is the normaliser of the second degree column, entry by entry. -/
theorem final0_4 (c : Dev nD) : (dat0 V c).arrAt 4 cfg0.N = fun j => degNorm (V c main_v28 j) :=
  (dat0 V c).arrAt_eq_of_cover 4 (fun j => degNorm (V c main_v28 j)) (fun t _ => flushed0_4_eq V c t) rows_covered0_4

end Cert.KernelIdeal.Hand

end
-- ==== Proof.Ref.ReadNorm.lean ====
import proofs.«157275_g83597243449447_cont_9to1_m_596_53_alg».proof.Proof.Ref.Tower
import proofs.«157275_g83597243449447_cont_9to1_m_596_53_alg».proof.Proof.KI.Spec0
import Idealize.ShloMosaic.Lib.Pipeline.Value
import Idealize.ShloMosaic.Lib.ValueIdx
import Idealize.ShloMosaic.PureOps.Ideal.Laws

/-!
# The reference's degree normalisation and row scaling, entry by entry

Over the extended reals, the reference's normalisation of a degree vector has, at node `n`, the normaliser of the
degree at `n`; and a matrix with its rows scaled by a vector has, at `(n, k)`, the matrix entry times the vector's
entry at `n`.
-/

noncomputable section

namespace Cert.ReferenceIdeal.RefRun

open Cert.ReferenceIdeal Cert.ReferenceIdeal.Gen Idealize.ShloMosaic Idealize.ShloMosaic.TcCoe Idealize.SL.Sem
open Idealize.ShloMosaic.ValueIdx

/-- The normalisation at node `n`.  The vectors of zeros and ones are a constant repeated, so each reads that
    constant at every node; the comparison, the maximum, the inverse square root and the choice are entrywise; the
    zero word is the real number zero. -/
theorem norm_apply (deg : FVec Ideal S10000 .f32) (n : Fin 10000) :
    norm (F := Ideal) deg (ix1 n) = Cert.KernelIdeal.Hand.degNorm (deg (ix1 n)) := by
  show Scalar.select (Ideal.cmp .ogt (deg (ix1 n)) (Ideal.ofBits .f32 0x00000000#32))
      (Ideal.rsqrt (max (deg (ix1 n)) (Ideal.ofBits .f32 0x3F800000#32))) (Ideal.ofBits .f32 0x00000000#32) = _
  rw [Ideal.ofBits_zero_f32]
  rfl

/-- Row scaling at `(n, k)`.  The vector is first stood up as a column, which reads its entry `n` at `(n, 0)`, and the
    column is then repeated along the 128 lanes, which reads `(n, 0)` at `(n, k)`; the product is entrywise. -/
theorem scaleRows_apply (X : FVec Ideal S10000x128 .f32) (v : FVec Ideal S10000 .f32) (n : Fin 10000) (k : Fin 128) :
    scaleRows (F := Ideal) X v (ix2 n k) = X (ix2 n k) * v (ix1 n) := by
  unfold scaleRows
  rw [mulf_apply]
  rw [broadcastInDim_apply ![0, 1] bcast_S10000x1_S10000x128_0_1 _ (ix2 n k) (ix2 n 0) (fun a => match a with | ⟨0, _⟩ => rfl | ⟨1, _⟩ => rfl)]
  rw [broadcastInDim_apply ![0] bcast_S10000_S10000x1_0 v (ix2 n 0) (ix1 n) (fun a => match a with | ⟨0, _⟩ => rfl)]

end Cert.ReferenceIdeal.RefRun

end
-- ==== Proof.KI.ScaledEq.lean ====
import proofs.«157275_g83597243449447_cont_9to1_m_596_53_alg».proof.Proof.KI.Region0Final
import proofs.«157275_g83597243449447_cont_9to1_m_596_53_alg».proof.Proof.Ref.ReadNorm
import proofs.«157275_g83597243449447_cont_9to1_m_596_53_alg».proof.Proof.KI.HostIdx

/-!
# The two programs' scaled features agree

The kernel program stacks the two graphs' feature matrices into one 2 x 10000 x 128 array and the two graphs' degree
vectors into one 2 x 10000 x 1 array, scales the stack in its first TensorCore call, and then takes the two slabs apart
again.  Slab `g` of the scaled stack is the reference's row scaling of graph `g`'s features by the normalisation of
graph `g`'s degrees: at `(n, k)` both are the feature at `(n, k)` times the normaliser of the degree at `n`.  Likewise the
normaliser of the stacked degree column at `(g, n, 0)` is the reference's normalisation of graph `g`'s degrees at `n`.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.ReferenceIdeal

/-- Slab 0 of the scaled stack is the first graph's features with rows scaled by its normalised degrees. -/
theorem scaled0 (X1 X2 : FVec Ideal S10000x128 .f32) (d1 d2 : FVec Ideal S10000 .f32) :
    HostRd.slab0 (F := Ideal) (hArr (HostRd.stack2 (F := Ideal) X1 X2) (HostRd.degStack (F := Ideal) d1 d2)) = RefRun.scaleRows X1 (RefRun.norm d1) := by
  funext j
  obtain ⟨n, k, rfl⟩ : ∃ (n : Fin 10000) (k : Fin 128), j = ix2 n k := ⟨j 0, j 1, eq_ix2 j⟩
  rw [HostRd.slab0_apply, hArr_apply, HostRd.stack2_apply0, HostRd.degStack_apply0, RefRun.scaleRows_apply, RefRun.norm_apply]

/-- Slab 1 of the scaled stack is the second graph's features with rows scaled by its normalised degrees. -/
theorem scaled1 (X1 X2 : FVec Ideal S10000x128 .f32) (d1 d2 : FVec Ideal S10000 .f32) :
    HostRd.slab1 (F := Ideal) (hArr (HostRd.stack2 (F := Ideal) X1 X2) (HostRd.degStack (F := Ideal) d1 d2)) = RefRun.scaleRows X2 (RefRun.norm d2) := by
  funext j
  obtain ⟨n, k, rfl⟩ : ∃ (n : Fin 10000) (k : Fin 128), j = ix2 n k := ⟨j 0, j 1, eq_ix2 j⟩
  rw [HostRd.slab1_apply, hArr_apply, HostRd.stack2_apply1, HostRd.degStack_apply1, RefRun.scaleRows_apply, RefRun.norm_apply]

/-- The normaliser of the stacked degrees at graph 0, node `n`, is the first graph's normalisation at `n`. -/
theorem ndeg0 (d1 d2 : FVec Ideal S10000 .f32) (n : Fin 10000) :
    degNorm (HostRd.degStack (F := Ideal) d1 d2 (ix3 (0 : Fin 2) n (0 : Fin 1))) = RefRun.norm (F := Ideal) d1 (ix1 n) := by
  rw [HostRd.degStack_apply0, RefRun.norm_apply]

/-- The normaliser of the stacked degrees at graph 1, node `n`, is the second graph's normalisation at `n`. -/
theorem ndeg1 (d1 d2 : FVec Ideal S10000 .f32) (n : Fin 10000) :
    degNorm (HostRd.degStack (F := Ideal) d1 d2 (ix3 (1 : Fin 2) n (0 : Fin 1))) = RefRun.norm (F := Ideal) d2 (ix1 n) := by
  rw [HostRd.degStack_apply1, RefRun.norm_apply]

end Cert.KernelIdeal.Hand

end
-- ==== Proof.KI.Value.lean ====
/-
  The kernel program's result as a function of its eight argument arrays, over the extended reals.

  The buffer contents at the boundaries of @main are followed from the launch to the return: the first stretch builds
  the four degree histograms and stacks the inputs; the first kernel region scales the features by the out-degree norms
  and turns the in-degrees into norms; the middle stretches gather, per graph, one scaled row per edge and add the rows
  into their destination nodes; the second kernel region turns the two aggregates into the distance of the two graphs'
  classifier outputs; the last stretch picks one entry of the result tile.
-/
import proofs.«157275_g83597243449447_cont_9to1_m_596_53_alg».proof.Proof.KI.Run
import proofs.«157275_g83597243449447_cont_9to1_m_596_53_alg».proof.Proof.KI.EpiFinal
import proofs.«157275_g83597243449447_cont_9to1_m_596_53_alg».proof.Proof.KI.HostIdx
import proofs.«157275_g83597243449447_cont_9to1_m_596_53_alg».proof.Proof.KI.Region0Final
import proofs.«157275_g83597243449447_cont_9to1_m_596_53_alg».proof.Proof.KI.ScaledEq

set_option maxRecDepth 16384

noncomputable section

namespace Cert.KernelIdeal.Value

open Cert.KernelIdeal Cert.KernelIdeal.Gen Cert.KernelIdeal.Hand Cert.KernelIdeal.Epi Cert.KernelIdeal.HostRd
open Idealize.ShloMosaic Idealize.ShloMosaic.TcCoe Idealize.SL.Sem Idealize.ShloMosaic.StableHlo Idealize.ShloMosaic.ValueIdx
open Cert.Layers Cert.Gcn
open Cert.ReferenceIdeal.RefRun (srcIdx dstIdx zerosNxD takeRows scatterRows aggregate degree norm scaleRows)

variable (m : (ℓ : Loc nD τ sig) → Buf (Elt Ideal) ℓ) (ρ : Dev nD → PrngReg) (c : Dev nD)

/-- The eight argument arrays as launched, on core `c`. -/
abbrev E1 : Arr (F := Ideal) S2x320000 .i32 := m ((c : Thread nD τ).loc main_arg0)
abbrev E2 : Arr (F := Ideal) S2x320000 .i32 := m ((c : Thread nD τ).loc main_arg1)
abbrev X1 : Arr (F := Ideal) S10000x128 .f32 := m ((c : Thread nD τ).loc main_arg2)
abbrev X2 : Arr (F := Ideal) S10000x128 .f32 := m ((c : Thread nD τ).loc main_arg3)
abbrev Wc : Arr (F := Ideal) S128x128 .f32 := m ((c : Thread nD τ).loc main_arg4)
abbrev bc : Arr (F := Ideal) S128 .f32 := m ((c : Thread nD τ).loc main_arg5)
abbrev Wk : Arr (F := Ideal) S128x16 .f32 := m ((c : Thread nD τ).loc main_arg6)
abbrev bk : Arr (F := Ideal) S16 .f32 := m ((c : Thread nD τ).loc main_arg7)

/-- The features of both graphs scaled by their out-degree norms, stacked: what the first region leaves. -/
abbrev H : Arr (F := Ideal) S2x10000x128 .f32 :=
  hArr (stack2 (X1 m c) (X2 m c)) (degStack (degree (srcIdx (E1 m c))) (degree (srcIdx (E2 m c))))

/-! ## The first stretch and the first region -/

theorem V1_v31 : (W1 m ρ c (Proc.devRef .tc main_v31) : Arr (F := Ideal) S2x10000x128 .f32) = stack2 (X1 m c) (X2 m c) :=
  h0_v31 (W0 m ρ c)
theorem V1_v14 : (W1 m ρ c (Proc.devRef .tc main_v14) : Arr (F := Ideal) S2x10000x1 .f32)
    = degStack (degree (srcIdx (E1 m c))) (degree (srcIdx (E2 m c))) := h0_v14 (W0 m ρ c)
theorem V1_v28 : (W1 m ρ c (Proc.devRef .tc main_v28) : Arr (F := Ideal) S2x10000x1 .f32)
    = degStack (degree (dstIdx (E1 m c))) (degree (dstIdx (E2 m c))) := h0_v28 (W0 m ρ c)

theorem W2_v32_0 : (W2 m ρ c (Proc.devRef .tc main_v32_0) : Arr (F := Ideal) S2x10000x128 .f32) = H m c := by
  refine ((W2_arr m ρ c 3).trans (final0_3 (V1 m ρ) c)).trans ?_
  show hArr (W1 m ρ c (Proc.devRef .tc main_v31)) (W1 m ρ c (Proc.devRef .tc main_v14)) = _
  rw [V1_v31, V1_v14]

theorem W2_v32_1 : (W2 m ρ c (Proc.devRef .tc main_v32_1) : Arr (F := Ideal) S2x10000x1 .f32)
    = fun j => degNorm (degStack (degree (dstIdx (E1 m c))) (degree (dstIdx (E2 m c))) j) := by
  refine ((W2_arr m ρ c 4).trans (final0_4 (V1 m ρ) c)).trans ?_
  show (fun j => degNorm ((W1 m ρ c (Proc.devRef .tc main_v28) : Arr (F := Ideal) S2x10000x1 .f32) j)) = _
  rw [V1_v28]
  rfl

theorem W2_arg (r : Ref sig .tc) (h2 : ∀ w, Pipeline.arrRef spec0 w ≠ r) (h0 : r ∉ hostOps0_W) :
    W2 m ρ c (Proc.devRef .tc r) = m ((c : Thread nD τ).loc r) :=
  (W2_of_ne m ρ c r h2).trans ((StableHlo.after_of_writes_sub hostOps0 _ hostOps0_writes h0).trans rfl)

/-! ## The middle stretches -/

theorem W3_keep (r : Ref sig .tc) (h : r ∉ hostOps1_W) : W3 m ρ c (Proc.devRef .tc r) = W2 m ρ c (Proc.devRef .tc r) :=
  StableHlo.after_of_writes_sub hostOps1 _ hostOps1_writes h
theorem W4_keep (r : Ref sig .tc) (h : r ∉ hostOps1_1_W) : W4 m ρ c (Proc.devRef .tc r) = W3 m ρ c (Proc.devRef .tc r) :=
  StableHlo.after_of_writes_sub hostOps1_1 _ hostOps1_1_writes h
theorem W5_keep (r : Ref sig .tc) (h : r ∉ hostOps1_2_W) : W5 m ρ c (Proc.devRef .tc r) = W4 m ρ c (Proc.devRef .tc r) :=
  StableHlo.after_of_writes_sub hostOps1_2 _ hostOps1_2_writes h
theorem W6_keep (r : Ref sig .tc) (h : r ∉ hostOps1_3_W) : W6 m ρ c (Proc.devRef .tc r) = W5 m ρ c (Proc.devRef .tc r) :=
  StableHlo.after_of_writes_sub hostOps1_3 _ hostOps1_3_writes h
theorem W7_keep (r : Ref sig .tc) (h : r ∉ hostOps1_4_W) : W7 m ρ c (Proc.devRef .tc r) = W6 m ρ c (Proc.devRef .tc r) :=
  StableHlo.after_of_writes_sub hostOps1_4 _ hostOps1_4_writes h

/-- Graph 0's aggregate: the rows of its scaled features gathered by source and added into their destinations. -/
theorem W5_v47 : (W5 m ρ c (Proc.devRef .tc main_v47) : Arr (F := Ideal) S10000x128 .f32)
    = aggregate (takeRows (slab0 (H m c)) (srcIdx (E1 m c))) (dstIdx (E1 m c)) := by
  refine (h12_v47 (W4 m ρ c)).trans ?_
  have e33 : (W4 m ρ c (Proc.devRef .tc main_v33) : Arr (F := Ideal) S10000x128 .f32) = zerosNxD :=
    (W4_keep m ρ c main_v33 (by decide)).trans (h1_v33 (W2 m ρ c))
  have e35 : (W4 m ρ c (Proc.devRef .tc main_v35) : Arr (F := Ideal) S320000 .i32) = dstIdx (E1 m c) :=
    (W4_keep m ρ c main_v35 (by decide)).trans ((h1_v35 (W2 m ρ c)).trans (congrArg dstIdx (W2_arg m ρ c main_arg0 (by decide) (by decide))))
  have e40 : (W4 m ρ c (Proc.devRef .tc main_v40) : Arr (F := Ideal) S320000x128 .f32) = takeRows (slab0 (H m c)) (srcIdx (E1 m c)) := by
    refine (h11_v40 (W3 m ρ c)).trans ?_
    rw [show (W3 m ρ c (Proc.devRef .tc main_v37) : Arr (F := Ideal) S10000x128 .f32) = slab0 (H m c) from
        (h1_v37 (W2 m ρ c)).trans (congrArg slab0 (W2_v32_0 m ρ c)),
      show (W3 m ρ c (Proc.devRef .tc main_v39) : Arr (F := Ideal) S320000 .i32) = srcIdx (E1 m c) from
        (h1_v39 (W2 m ρ c)).trans (congrArg srcIdx (W2_arg m ρ c main_arg0 (by decide) (by decide)))]
  rw [e33, e35, e40]
  rfl

/-- Graph 1's aggregate, likewise. -/
theorem W7_v61_term : scatterRows (W6 m ρ c (Proc.devRef .tc main_v33) : Arr (F := Ideal) S10000x128 .f32)
      (W6 m ρ c (Proc.devRef .tc main_v49) : Arr (F := Ideal) S320000 .i32) (W6 m ρ c (Proc.devRef .tc main_v54) : Arr (F := Ideal) S320000x128 .f32)
    = aggregate (takeRows (slab1 (H m c)) (srcIdx (E2 m c))) (dstIdx (E2 m c)) := by
  have e33 : (W6 m ρ c (Proc.devRef .tc main_v33) : Arr (F := Ideal) S10000x128 .f32) = zerosNxD :=
    (W6_keep m ρ c main_v33 (by decide)).trans ((W5_keep m ρ c main_v33 (by decide)).trans
      ((W4_keep m ρ c main_v33 (by decide)).trans (h1_v33 (W2 m ρ c))))
  have a1 : (W4 m ρ c (Proc.devRef .tc main_arg1)) = m ((c : Thread nD τ).loc main_arg1) :=
    (W4_keep m ρ c main_arg1 (by decide)).trans ((W3_keep m ρ c main_arg1 (by decide)).trans (W2_arg m ρ c main_arg1 (by decide) (by decide)))
  have e49 : (W6 m ρ c (Proc.devRef .tc main_v49) : Arr (F := Ideal) S320000 .i32) = dstIdx (E2 m c) :=
    (W6_keep m ρ c main_v49 (by decide)).trans ((h12_v49 (W4 m ρ c)).trans (congrArg dstIdx a1))
  have e54 : (W6 m ρ c (Proc.devRef .tc main_v54) : Arr (F := Ideal) S320000x128 .f32) = takeRows (slab1 (H m c)) (srcIdx (E2 m c)) := by
    refine (h13_v54 (W5 m ρ c)).trans ?_
    rw [show (W5 m ρ c (Proc.devRef .tc main_v51) : Arr (F := Ideal) S10000x128 .f32) = slab1 (H m c) from
        (h12_v51 (W4 m ρ c)).trans (congrArg slab1 ((W4_keep m ρ c main_v32_0 (by decide)).trans
          ((W3_keep m ρ c main_v32_0 (by decide)).trans (W2_v32_0 m ρ c)))),
      show (W5 m ρ c (Proc.devRef .tc main_v53) : Arr (F := Ideal) S320000 .i32) = srcIdx (E2 m c) from
        (h12_v53 (W4 m ρ c)).trans (congrArg srcIdx a1)]
  rw [e33, e49, e54]
  rfl

/-- The stacked aggregates the second region is entered with. -/
theorem W7_v64 : (W7 m ρ c (Proc.devRef .tc main_v64) : Arr (F := Ideal) S2x10000x128 .f32)
    = stack2 (aggregate (takeRows (slab0 (H m c)) (srcIdx (E1 m c))) (dstIdx (E1 m c)))
        (aggregate (takeRows (slab1 (H m c)) (srcIdx (E2 m c))) (dstIdx (E2 m c))) := by
  refine (h14_v64 (W6 m ρ c)).trans ?_
  rw [W7_v61_term m ρ c,
    show (W6 m ρ c (Proc.devRef .tc main_v47) : Arr (F := Ideal) S10000x128 .f32) = _ from
      (W6_keep m ρ c main_v47 (by decide)).trans (W5_v47 m ρ c)]

theorem W7_v32_1 : (W7 m ρ c (Proc.devRef .tc main_v32_1) : Arr (F := Ideal) S2x10000x1 .f32)
    = fun j => degNorm (degStack (degree (dstIdx (E1 m c))) (degree (dstIdx (E2 m c))) j) :=
  (W7_keep m ρ c main_v32_1 (by decide)).trans ((W6_keep m ρ c main_v32_1 (by decide)).trans ((W5_keep m ρ c main_v32_1 (by decide)).trans
    ((W4_keep m ρ c main_v32_1 (by decide)).trans ((W3_keep m ρ c main_v32_1 (by decide)).trans (W2_v32_1 m ρ c)))))

theorem W7_arg (r : Ref sig .tc) (h7 : r ∉ hostOps1_4_W) (h6 : r ∉ hostOps1_3_W) (h5 : r ∉ hostOps1_2_W) (h4 : r ∉ hostOps1_1_W)
    (h3 : r ∉ hostOps1_W) (h2 : ∀ w, Pipeline.arrRef spec0 w ≠ r) (h0 : r ∉ hostOps0_W) :
    W7 m ρ c (Proc.devRef .tc r) = m ((c : Thread nD τ).loc r) :=
  (W7_keep m ρ c r h7).trans ((W6_keep m ρ c r h6).trans ((W5_keep m ρ c r h5).trans ((W4_keep m ρ c r h4).trans
    ((W3_keep m ρ c r h3).trans (W2_arg m ρ c r h2 h0)))))

theorem W6_arg (r : Ref sig .tc) (h6 : r ∉ hostOps1_3_W) (h5 : r ∉ hostOps1_2_W) (h4 : r ∉ hostOps1_1_W)
    (h3 : r ∉ hostOps1_W) (h2 : ∀ w, Pipeline.arrRef spec0 w ≠ r) (h0 : r ∉ hostOps0_W) :
    W6 m ρ c (Proc.devRef .tc r) = m ((c : Thread nD τ).loc r) :=
  (W6_keep m ρ c r h6).trans ((W5_keep m ρ c r h5).trans ((W4_keep m ρ c r h4).trans
    ((W3_keep m ρ c r h3).trans (W2_arg m ρ c r h2 h0))))

theorem W7_v65 : (W7 m ρ c (Proc.devRef .tc main_v65) : Arr (F := Ideal) S1x128 .f32) = shapeCast S1x128 (bc m c) shapeCasts_S128_S1x128 :=
  (h14_v65 (W6 m ρ c)).trans (congrArg (fun z => shapeCast S1x128 z shapeCasts_S128_S1x128)
    (W6_arg m ρ c main_arg5 (by decide) (by decide) (by decide) (by decide) (by decide) (by decide)))
theorem W7_v66 : (W7 m ρ c (Proc.devRef .tc main_v66) : Arr (F := Ideal) S1x16 .f32) = shapeCast S1x16 (bk m c) shapeCasts_S16_S1x16 :=
  (h14_v66 (W6 m ρ c)).trans (congrArg (fun z => shapeCast S1x16 z shapeCasts_S16_S1x16)
    (W6_arg m ρ c main_arg7 (by decide) (by decide) (by decide) (by decide) (by decide) (by decide)))

/-! ## What the second region pools -/

/-- The reference's own term for a graph's degree-scaled aggregate. -/
abbrev refAgg (E : Arr (F := Ideal) S2x320000 .i32) (X : Arr (F := Ideal) S10000x128 .f32) : Arr (F := Ideal) S10000x128 .f32 :=
  scaleRows (aggregate (takeRows (scaleRows X (norm (degree (srcIdx E)))) (srcIdx E)) (dstIdx E)) (norm (degree (dstIdx E)))

theorem aggScaled0 : aggScaled (V7 m ρ) c 0 = refAgg (E1 m c) (X1 m c) := by
  funext i
  obtain ⟨n, k, rfl⟩ : ∃ (n : Fin 10000) (k : Fin 128), i = ix2 n k := ⟨i 0, i 1, eq_ix2 i⟩
  show scaledSlab (W7 m ρ c (Proc.devRef .tc main_v64)) (W7 m ρ c (Proc.devRef .tc main_v32_1)) 0 (ix2 n k) = _
  rw [W7_v64, W7_v32_1, scaledSlab_apply, stack2_apply0, ndeg0, scaled0]
  exact (Cert.ReferenceIdeal.RefRun.scaleRows_apply _ _ n k).symm

theorem aggScaled1 : aggScaled (V7 m ρ) c 1 = refAgg (E2 m c) (X2 m c) := by
  funext i
  obtain ⟨n, k, rfl⟩ : ∃ (n : Fin 10000) (k : Fin 128), i = ix2 n k := ⟨i 0, i 1, eq_ix2 i⟩
  show scaledSlab (W7 m ρ c (Proc.devRef .tc main_v64)) (W7 m ρ c (Proc.devRef .tc main_v32_1)) 1 (ix2 n k) = _
  rw [W7_v64, W7_v32_1, scaledSlab_apply, stack2_apply1, ndeg1, scaled1]
  exact (Cert.ReferenceIdeal.RefRun.scaleRows_apply _ _ n k).symm

/-- One graph's pooled activations scaled by the reciprocal of the node count. -/
abbrev pooled (E : Arr (F := Ideal) S2x320000 .i32) (X : Arr (F := Ideal) S10000x128 .f32) (j : Fin 128) : EReal :=
  (0 + colSum (nodeAct (refAgg E X) (Wc m c) (shapeCast S1x128 (bc m c) shapeCasts_S128_S1x128)) j) * ((1 / 10000 : ℝ) : EReal)

/-- The distance of the two graphs' classifier outputs on their pooled activations: the kernel program's result. -/
def kernelOut : EReal :=
  Cert.Gcn.dist (logits (pooled m c (E1 m c) (X1 m c)) (Wk m c) (shapeCast S1x16 (bk m c) shapeCasts_S16_S1x16))
          (logits (pooled m c (E2 m c) (X2 m c)) (Wk m c) (shapeCast S1x16 (bk m c) shapeCasts_S16_S1x16))

/-- Every element of the second region's result tile. -/
theorem tile_const (h19 : 19 < cfg1.N) (i : S8x128.Idx) : (outsAt1 (V7 m ρ) c 19 h19).1 i = kernelOut m c := by
  unfold kernelOut
  refine (out_final (V7 m ρ) c h19 i).trans ?_
  rw [aggScaled0, aggScaled1]
  show Cert.Gcn.dist
      (logits (fun j => (0 + colSum (nodeAct (refAgg (E1 m c) (X1 m c)) (W7 m ρ c (Proc.devRef .tc main_arg4)) (W7 m ρ c (Proc.devRef .tc main_v65))) j) * _)
        (W7 m ρ c (Proc.devRef .tc main_arg6)) (W7 m ρ c (Proc.devRef .tc main_v66)))
      (logits (fun j => (0 + colSum (nodeAct (refAgg (E2 m c) (X2 m c)) (W7 m ρ c (Proc.devRef .tc main_arg4)) (W7 m ρ c (Proc.devRef .tc main_v65))) j) * _)
        (W7 m ρ c (Proc.devRef .tc main_arg6)) (W7 m ρ c (Proc.devRef .tc main_v66))) = _
  rw [W7_v65, W7_v66,
    W7_arg m ρ c main_arg4 (by decide) (by decide) (by decide) (by decide) (by decide) (by decide) (by decide),
    W7_arg m ρ c main_arg6 (by decide) (by decide) (by decide) (by decide) (by decide) (by decide) (by decide)]

/-- THE KERNEL PROGRAM'S RESULT: the one entry of the result is an entry of the (constant) tile. -/
theorem result (i : S1.Idx) : (W9 m ρ c (Proc.devRef .tc main_v70) : Arr (F := Ideal) S1 .f32) i = kernelOut m c := by
  have h19 : 19 < cfg1.N := by rw [show cfg1.N = 20 from N_1]; decide
  have hT : (W8 m ρ c (Proc.devRef .tc main_v67) : Arr (F := Ideal) S8x128 .f32) = fun _ => kernelOut m c :=
    ((W8_arr m ρ c 6).trans (final1_6 (V7 m ρ) c h19)).trans (funext fun j => tile_const m ρ c h19 j)
  rw [show (W9 m ρ c (Proc.devRef .tc main_v70) : Arr (F := Ideal) S1 .f32) = _ from tail_v70 (W8 m ρ c), hT]
  unfold shapeCast extractStridedSlice
  rfl

end Cert.KernelIdeal.Value

end
-- ==== Proof.Ref.Read.lean ====
/-
  The reference's dense layer, row normalisation, logistic function, clamp, mean over nodes, classifier and distance,
  read entry by entry over the extended reals, against the index-by-index functions of the specification. Every
  operation involved is entrywise, a broadcast (which reads its operand at the index with the new axes dropped), or a
  sum over one axis (the initial value zero plus the sum over that axis's coordinate); no law of arithmetic is used
  beyond reading the zero and one words as the numbers zero and one.
-/
import proofs.«157275_g83597243449447_cont_9to1_m_596_53_alg».proof.Proof.Ref.Tower
import proofs.«157275_g83597243449447_cont_9to1_m_596_53_alg».proof.Proof.Spec
import proofs.«157275_g83597243449447_cont_9to1_m_596_53_alg».proof.Proof.LibDenseLayers
import Idealize.ShloMosaic.Lib.IdealHost
import Idealize.ShloMosaic.Lib.ValueLayout
import Idealize.ShloMosaic.Lib.Pipeline.Value

noncomputable section

namespace Cert.ReferenceIdeal.RefRun

open Cert.ReferenceIdeal Cert.ReferenceIdeal.Gen Idealize.ShloMosaic Idealize.ShloMosaic.ValueIdx Cert.Layers

/-! ## The splat constants -/

theorem onesNxD_apply (i : S10000x128.Idx) : onesNxD (F := Ideal) i = 1 := by
  unfold onesNxD
  rw [broadcastInDim_scalar_apply, constant_apply, Ideal.ofBits_one_f32]

theorem zerosNxD_apply (i : S10000x128.Idx) : zerosNxD (F := Ideal) i = 0 := by
  unfold zerosNxD
  rw [broadcastInDim_scalar_apply, constant_apply, Ideal.ofBits_zero_f32]

/-! ## The dense layer -/

/-- The dense layer is the projection plus the bias row (the bias vector read as a one-row matrix). -/
theorem dense_eq (A : FVec Ideal S10000x128 .f32) (W : FVec Ideal S128x128 .f32) (b : FVec Ideal S128 .f32)
    (hc : S128.ShapeCasts S1x128) :
    dense (F := Ideal) A W b = addRow (project A W) (shapeCast S1x128 b hc) := by
  unfold dense
  rw [dotGeneral_eq_project dot_S10000x128_S128x128_S10000x128_1_0_0_1_n_n rfl none A W]
  exact addf_bias_eq_addRow _ b bcast_S128_S1x128_1 bcast_S1x128_S10000x128_0_1 hc

/-! ## The row normalisation -/

/-- A row's sum of squares: the initial zero plus the sum over the row's 128 entries. -/
theorem rowSumSq_apply (T : FVec Ideal S10000x128 .f32) (p : Fin 10000) :
    Host.reduceAdd (mulf T T) (constant (F := Ideal) S_ .f32 0x00000000#32) reducesTo_S10000x128_S10000_d1 h_S_ (ix1 p)
      = 0 + ∑ k : Fin 128, T (ix2 p k) * T (ix2 p k) := by
  have hR : S10000x128.Reduces [1] S10000 := by decide
  refine (hostReduceAdd_apply _ _ _ _ _).trans ?_
  refine (Ideal.hostReduceAdd_single reducesTo_S10000x128_S10000_d1 hR _ _ (ix1 p)).trans ?_
  show Ideal.ofBits .f32 0x00000000#32 + ∑ k : Fin 128, (mulf T T) (hR.lift (ix1 p) k) = _
  rw [Ideal.ofBits_zero_f32]
  refine congrArg (0 + ·) (Finset.sum_congr rfl fun k _ => ?_)
  have hl : hR.lift (ix1 p) k = ix2 p k := by
    funext c; match c with | ⟨0, _⟩ => rfl | ⟨1, _⟩ => rfl
  rw [hl]; rfl

/-- The column of row norms at row `p`. -/
theorem rowNorm_apply (T : FVec Ideal S10000x128 .f32) (p : Fin 10000) (u : Fin 1) :
    rowNorm (F := Ideal) T (ix2 p u) = Ideal.sqrt (0 + ∑ k : Fin 128, T (ix2 p k) * T (ix2 p k)) := by
  unfold rowNorm
  show Ideal.sqrt _ = _
  rw [broadcastInDim_apply ![0] bcast_S10000_S10000x1_0 _ (ix2 p u) (ix1 p) (fun a => match a with | ⟨0, _⟩ => rfl)]
  rw [rowSumSq_apply]

/-- A normalised entry: the entry over the larger of its row's norm and the small constant. -/
theorem rowNormalize_apply (T : FVec Ideal S10000x128 .f32) (p : Fin 10000) (j : Fin 128) :
    rowNormalize (F := Ideal) T (ix2 p j) = Ideal.div (T (ix2 p j)) (Cert.Gcn.rowNorm T p) := by
  unfold rowNormalize divideRows
  show Ideal.div (T (ix2 p j)) _ = _
  rw [broadcastInDim_apply ![0, 1] bcast_S10000x1_S10000x128_0_1 _ (ix2 p j) (ix2 p (0 : Fin 1))
    (fun a => match a with | ⟨0, _⟩ => rfl | ⟨1, _⟩ => rfl)]
  rw [maximumf_apply, rowNorm_apply, broadcastInDim_scalar_apply, zero_add]
  rfl

/-! ## The logistic function and the clamp -/

theorem logistic_apply (T : FVec Ideal S10000x128 .f32) (i : S10000x128.Idx) :
    logistic (F := Ideal) T i = Ideal.logistic (T i) := by
  unfold logistic
  show Ideal.div (onesNxD (F := Ideal) i) (onesNxD (F := Ideal) i + Ideal.exp (-(T i))) = _
  rw [onesNxD_apply]
  rfl

theorem relu_apply (T : FVec Ideal S10000x128 .f32) (i : S10000x128.Idx) :
    relu (F := Ideal) T i = max (T i) 0 := by
  unfold relu
  show max (T i) (zerosNxD (F := Ideal) i) = _
  rw [zerosNxD_apply]

/-- The node activations: dense layer, row normalisation, logistic function, clamp at zero. -/
theorem nodeAct_eq (A : FVec Ideal S10000x128 .f32) (W : FVec Ideal S128x128 .f32) (b : FVec Ideal S128 .f32)
    (hc : S128.ShapeCasts S1x128) :
    relu (F := Ideal) (logistic (rowNormalize (dense A W b))) = Cert.Gcn.nodeAct A W (shapeCast S1x128 b hc) := by
  funext i
  obtain ⟨p, j, rfl⟩ : ∃ (p : Fin 10000) (j : Fin 128), i = ix2 p j := ⟨i 0, i 1, eq_ix2 i⟩
  rw [relu_apply, logistic_apply, rowNormalize_apply, dense_eq A W b hc]
  rfl

/-! ## The mean over nodes -/

theorem colMean_apply (U : FVec Ideal S10000x128 .f32) (j : Fin 128) :
    colMean (F := Ideal) U (ix2 (0 : Fin 1) j)
      = Ideal.div (0 + Cert.Gcn.colSum U j) (Ideal.ofBits .f32 0x461C4000#32) := by
  have hR : S10000x128.Reduces [0] S128 := by decide
  unfold colMean
  show Ideal.div _ _ = _
  rw [broadcastInDim_scalar_apply, constant_apply]
  rw [broadcastInDim_apply ![1] bcast_S128_S1x128_1 _ (ix2 (0 : Fin 1) j) (ix1 j) (fun a => match a with | ⟨0, _⟩ => rfl)]
  refine congrArg (Ideal.div · _) ?_
  refine (hostReduceAdd_apply _ _ _ _ _).trans ?_
  refine (Ideal.hostReduceAdd_single reducesTo_S10000x128_S128_d0 hR _ _ (ix1 j)).trans ?_
  show Ideal.ofBits .f32 0x00000000#32 + ∑ r : Fin 10000, U (hR.lift (ix1 j) r) = _
  rw [Ideal.ofBits_zero_f32]
  refine congrArg (0 + ·) (Finset.sum_congr rfl fun r _ => ?_)
  have hl : hR.lift (ix1 j) r = ix2 r j := by
    funext c; match c with | ⟨0, _⟩ => rfl | ⟨1, _⟩ => rfl
  rw [hl]

/-! ## The classifier -/

theorem classify_apply (g : FVec Ideal S1x128 .f32) (Wc : FVec Ideal S128x16 .f32) (bc : FVec Ideal S16 .f32)
    (hc : S16.ShapeCasts S1x16) (q : Fin 16) :
    classify (F := Ideal) g Wc bc (ix2 (0 : Fin 1) q)
      = Cert.Gcn.logits (fun j => g (ix2 (0 : Fin 1) j)) Wc (shapeCast S1x16 bc hc) q := by
  unfold classify Cert.Gcn.logits
  rw [dotGeneral_eq_project dot_S1x128_S128x16_S1x16_1_0_0_1_n_n rfl none g Wc]
  rw [addf_apply, project_apply, shapeCast_a_1a_apply bc hc (0 : Fin 1) q,
    broadcastInDim_apply ![1] bcast_S16_S1x16_1 bc (ix2 (0 : Fin 1) q) (ix1 q) (fun a => match a with | ⟨0, _⟩ => rfl)]

/-! ## The distance -/

theorem shiftedDiff_apply (h1 h2 : FVec Ideal S1x16 .f32) (q : Fin 16) :
    shiftedDiff (F := Ideal) h1 h2 (ix2 (0 : Fin 1) q)
      = h1 (ix2 (0 : Fin 1) q) - h2 (ix2 (0 : Fin 1) q) + Cert.Gcn.epsDist := by
  unfold shiftedDiff
  rw [addf_apply, subf_apply, broadcastInDim_scalar_apply]
  rfl

theorem distance_apply (h1 h2 : FVec Ideal S1x16 .f32) :
    distance (F := Ideal) h1 h2 (ix1 (0 : Fin 1))
      = Ideal.sqrt (0 + ∑ q : Fin 16,
          (h1 (ix2 (0 : Fin 1) q) - h2 (ix2 (0 : Fin 1) q) + Cert.Gcn.epsDist)
            * (h1 (ix2 (0 : Fin 1) q) - h2 (ix2 (0 : Fin 1) q) + Cert.Gcn.epsDist)) := by
  have hR : S1x16.Reduces [1] S1 := by decide
  unfold distance
  show Ideal.sqrt _ = _
  refine congrArg Ideal.sqrt ?_
  refine (hostReduceAdd_apply _ _ _ _ _).trans ?_
  refine (Ideal.hostReduceAdd_single reducesTo_S1x16_S1_d1 hR _ _ (ix1 (0 : Fin 1))).trans ?_
  show Ideal.ofBits .f32 0x00000000#32
    + ∑ q : Fin 16, (mulf (shiftedDiff (F := Ideal) h1 h2) (shiftedDiff (F := Ideal) h1 h2)) (hR.lift (ix1 (0 : Fin 1)) q) = _
  rw [Ideal.ofBits_zero_f32]
  refine congrArg (0 + ·) (Finset.sum_congr rfl fun q _ => ?_)
  have hl : hR.lift (ix1 (0 : Fin 1)) q = ix2 (0 : Fin 1) q := by
    funext c; match c with | ⟨0, _⟩ => rfl | ⟨1, _⟩ => rfl
  rw [hl]
  show shiftedDiff (F := Ideal) h1 h2 (ix2 (0 : Fin 1) q) * shiftedDiff (F := Ideal) h1 h2 (ix2 (0 : Fin 1) q) = _
  rw [shiftedDiff_apply]

end Cert.ReferenceIdeal.RefRun

end
-- ==== Proof.Consts.lean ====
/-
  The one float constant of the reference whose value the proof needs: the divisor of the mean over the nodes.
-/
import Idealize.ShloMosaic.PureOps.Ideal

noncomputable section

namespace Cert.Consts

open Idealize.ShloMosaic

/-- `10000.0`, the number of nodes the reference's mean divides by, denotes the real `10000`. -/
theorem ofBits_10000 : Ideal.ofBits .f32 0x461C4000#32 = ((10000 : ℝ) : EReal) := by
  simp [Ideal.ofBits, Ideal.ieee, -EReal.coe_mul]; norm_num

/-- Dividing by the node count is multiplying by its reciprocal, on every extended real. -/
theorem div_nodes (x : EReal) : Ideal.div x (Ideal.ofBits .f32 0x461C4000#32) = x * ((1 / 10000 : ℝ) : EReal) := by
  rw [ofBits_10000]
  exact Ideal.div_coe (by norm_num) x

end Cert.Consts

end
-- ==== Proof.Ref.ReadOut.lean ====
/-
  The reference's one result entry as the specification's distance of the two graphs' classifier rows. The stage
  readings are chained along the tower: the distance reads its two rows entry by entry, a row is the classifier applied
  to the mean over the nodes, the mean is the zero-initialised column sum of the node activations divided by the node
  count (a multiplication by its reciprocal), and the node activations are those of the degree-scaled aggregate.
-/
import proofs.«157275_g83597243449447_cont_9to1_m_596_53_alg».proof.Proof.Ref.Read
import proofs.«157275_g83597243449447_cont_9to1_m_596_53_alg».proof.Proof.Consts

noncomputable section

namespace Cert.ReferenceIdeal.RefRun

open Cert.ReferenceIdeal Cert.ReferenceIdeal.Gen Idealize.ShloMosaic Idealize.ShloMosaic.ValueIdx Cert.Layers

/-- The input of the dense layer for one graph: the messages gathered along the edges from the source-scaled features,
    summed into their destination nodes, each node's row scaled by its destination-side normalisation. -/
abbrev refAgg (E : (⟨S2x320000, .i32⟩ : BufTy).Contents (Elt Ideal)) (X : FVec Ideal S10000x128 .f32) :
    FVec Ideal S10000x128 .f32 :=
  scaleRows (F := Ideal) (aggregate (takeRows (scaleRows X (norm (degree (srcIdx E)))) (srcIdx E)) (dstIdx E))
    (norm (degree (dstIdx E)))

/-- One graph's classifier row at column `q`: the classifier applied to the mean over the nodes (the zero-initialised
    column sum times one over the node count) of the node activations of the degree-scaled aggregate. -/
theorem branch_apply (E : (⟨S2x320000, .i32⟩ : BufTy).Contents (Elt Ideal)) (X : FVec Ideal S10000x128 .f32)
    (W : FVec Ideal S128x128 .f32) (b : FVec Ideal S128 .f32) (Wc : FVec Ideal S128x16 .f32) (bc : FVec Ideal S16 .f32)
    (hc128 : S128.ShapeCasts S1x128) (hc16 : S16.ShapeCasts S1x16) (q : Fin 16) :
    branch (F := Ideal) E X W b Wc bc (ix2 (0 : Fin 1) q)
      = Cert.Gcn.logits
          (fun j => (0 + Cert.Gcn.colSum (Cert.Gcn.nodeAct (refAgg E X) W (shapeCast S1x128 b hc128)) j) * ((1 / 10000 : ℝ) : EReal))
          Wc (shapeCast S1x16 bc hc16) q := by
  have hbr : branch (F := Ideal) E X W b Wc bc
      = classify (colMean (relu (logistic (rowNormalize (dense (refAgg E X) W b))))) Wc bc := rfl
  rw [hbr, classify_apply _ Wc bc hc16 q]
  simp only [colMean_apply, nodeAct_eq (refAgg E X) W b hc128, Cert.Consts.div_nodes]

/-- The reference's result entry is the specification's distance of the two graphs' classifier rows. -/
theorem refOut_apply (E1 E2 : (⟨S2x320000, .i32⟩ : BufTy).Contents (Elt Ideal)) (X1 X2 : FVec Ideal S10000x128 .f32)
    (W : FVec Ideal S128x128 .f32) (b : FVec Ideal S128 .f32) (Wc : FVec Ideal S128x16 .f32) (bc : FVec Ideal S16 .f32)
    (hc128 : S128.ShapeCasts S1x128) (hc16 : S16.ShapeCasts S1x16) :
    refOut (F := Ideal) E1 E2 X1 X2 W b Wc bc (ix1 (0 : Fin 1))
      = Cert.Gcn.dist
          (Cert.Gcn.logits (fun j => (0 + Cert.Gcn.colSum (Cert.Gcn.nodeAct (refAgg E1 X1) W (shapeCast S1x128 b hc128)) j) * ((1 / 10000 : ℝ) : EReal)) Wc (shapeCast S1x16 bc hc16))
          (Cert.Gcn.logits (fun j => (0 + Cert.Gcn.colSum (Cert.Gcn.nodeAct (refAgg E2 X2) W (shapeCast S1x128 b hc128)) j) * ((1 / 10000 : ℝ) : EReal)) Wc (shapeCast S1x16 bc hc16)) := by
  unfold refOut
  rw [distance_apply, zero_add]
  unfold Cert.Gcn.dist
  simp only [branch_apply _ _ W b Wc bc hc128 hc16]

end Cert.ReferenceIdeal.RefRun

end
-- ==== Proof.Bridge.lean ====
/-
  The two idealized programs compute one function.

  The kernel program's result (read off its run boundary by boundary) and the reference's (read off its stage tower)
  are both the distance of the two graphs' classifier outputs on their pooled node activations, the pooling being the
  column sums over the 10000 nodes times 1/10000: on the reference's side a division by 10000, which on the extended
  reals is that product; on the kernel's side the named reciprocal.
-/
import proofs.«157275_g83597243449447_cont_9to1_m_596_53_alg».proof.Proof.KI.Value
import proofs.«157275_g83597243449447_cont_9to1_m_596_53_alg».proof.Proof.Ref.ReadOut

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.KernelIdeal.Value

theorem result_eq (m : (ℓ : Loc nD τ sig) → Buf (Elt Ideal) ℓ) (ρ : Dev nD → PrngReg) (c : Dev nD) :
    Cert.ReferenceIdeal.RefRun.refOut (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
      = W9 m ρ c (Proc.devRef .tc main_v70) := by
  funext i
  obtain rfl : i = ix1 (0 : Fin 1) := by
    funext a
    match a with
    | ⟨0, _⟩ => exact Subsingleton.elim (α := Fin 1) _ _
  refine (Cert.ReferenceIdeal.RefRun.refOut_apply _ _ _ _ _ _ _ _ shapeCasts_S128_S1x128 shapeCasts_S16_S1x16).trans ?_
  refine Eq.trans ?_ (Cert.KernelIdeal.Value.result m ρ c (ix1 (0 : Fin 1))).symm
  unfold Cert.KernelIdeal.Value.kernelOut
  rfl

end Cert.Proof.Bridge

end
-- ==== Proof.lean ====
/-
  The certificate's five claims.

  Both kernel programs run their two kernel regions among stretches of host operations, and every argument array ends as
  launched: the frames, at the word level and over the extended reals, are one proof written generically in the number
  format.  The reference is a straight line of host operations.  The idealized kernel names one constant, the reciprocal of
  the node count.  Over the extended reals the kernel program's result and the reference's are one function of the eight
  arguments: the reference's mean over the nodes (a sum divided by 10000) is the kernel's accumulated block sums times
  1/10000; every other step is the same operation on both sides, or a regrouping of a sum.
-/
import proofs.«157275_g83597243449447_cont_9to1_m_596_53_alg».proof.Defs
import proofs.«157275_g83597243449447_cont_9to1_m_596_53_alg».proof.Proof.Gen.Kernel
import proofs.«157275_g83597243449447_cont_9to1_m_596_53_alg».proof.Proof.Gen.KernelIdeal
import proofs.«157275_g83597243449447_cont_9to1_m_596_53_alg».proof.Proof.Gen.ReferenceIdeal
import proofs.«157275_g83597243449447_cont_9to1_m_596_53_alg».proof.Proof.Gen.Pre_finite_inputs
import proofs.«157275_g83597243449447_cont_9to1_m_596_53_alg».proof.Proof.K.Run
import proofs.«157275_g83597243449447_cont_9to1_m_596_53_alg».proof.Proof.KI.Run
import proofs.«157275_g83597243449447_cont_9to1_m_596_53_alg».proof.Proof.Ref.Run
import proofs.«157275_g83597243449447_cont_9to1_m_596_53_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- The one rewrite of the idealization: the literal is the reciprocal of the node count, by the table of named constants. -/
theorem preserves : Cert.preserves_Kernel_KernelIdeal :=
  IdealRules.named_const.statement Cert.KernelIdeal.κ "inv_10000" .f32 0x38D1B717#32 ((1 / 10000 : ℝ) : EReal) rfl

open Cert.KernelIdeal Cert.KernelIdeal.Gen Cert.KernelIdeal.Hand in
/-- The idealized kernel program's run with its result named: the last boundary's contents of the result buffer. -/
theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := Ideal)) _ _).mono (fun r h c =>
    ⟨h c _ (mem_uc main_v70 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all (F := Ideal) m ρ)

/-- Both idealized programs run, from memories agreeing on the arguments, to equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W9 m ρ c (Proc.devRef .tc Cert.KernelIdeal.main_v70), kernel_run m ρ, ?_⟩
  refine (θ_run Cert.ReferenceIdeal.defs _ _).mono (fun _ h c => ⟨(h c).1.trans ?_, (h c).2⟩) (Cert.ReferenceIdeal.RefRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.Proof.Bridge.result_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
